-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x1024 : Shape := ⟨2, ![50000, 1024]⟩
abbrev S50000x128 : Shape := ⟨2, ![50000, 128]⟩
abbrev S128x256 : Shape := ⟨2, ![128, 256]⟩
abbrev S256 : Shape := ⟨1, ![256]⟩
abbrev S_ : Shape := ⟨0, ![]⟩

class Facts : Prop where
  bcast_S_S50000x1024 : S_.BroadcastsInDim S50000x1024 (![] : Fin 0 → Fin S50000x1024.rank)
  reducesTo_S50000x1024_S_d0_1 : S50000x1024.ReducesTo [0, 1] S_
  h_S_ : 0 < S_.numel
  bcast_S_S50000x128 : S_.BroadcastsInDim S50000x128 (![] : Fin 0 → Fin S50000x128.rank)
  reducesTo_S50000x128_S_d0_1 : S50000x128.ReducesTo [0, 1] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256 .f32) (main_arg5 : FVec F S256 .f32) (main_arg6 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  main_v33

def fn {F : FTy → Type} [FloatOps F] (main_arg0 : FVec F S50000x1024 .f32) (main_arg1 : FVec F S50000x128 .f32) (main_arg2 : FVec F S128x256 .f32) (main_arg3 : FVec F S256 .f32) (main_arg4 : FVec F S256 .f32) (main_arg5 : FVec F S256 .f32) (main_arg6 : FVec F S256 .f32) : IVec S_ 1 :=
  let main_v0 : FVec F S50000x1024 .f32 := Host.absf main_arg0
  let main_cst : FVec F S_ .f32 := constant S_ .f32 0x7F800000#32
  let main_v1 : FVec F S50000x1024 .f32 := broadcastInDim S50000x1024 ![] bcast_S_S50000x1024 main_cst
  let main_v2 : IVec S50000x1024 1 := cmpf .olt main_v0 main_v1
  let main_c : IVec S_ 1 := constantI S_ 1 1#1
  let main_v3 : IVec S_ 1 := (fun x v => Host.reduce IntOp.andi x v reducesTo_S50000x1024_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S128x256 .f32 := Host.absf main_arg2
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_v13 main_v16
-- ==== Kernel.lean ====
abbrev S50000x1024 : Shape := ⟨2, ![50000, 1024]⟩
abbrev S50000x128 : Shape := ⟨2, ![50000, 128]⟩
abbrev S128x256 : Shape := ⟨2, ![128, 256]⟩
abbrev S256 : Shape := ⟨1, ![256]⟩
abbrev S1x256 : Shape := ⟨2, ![1, 256]⟩
abbrev S50000x256 : Shape := ⟨2, ![50000, 256]⟩
abbrev S2000x1024 : Shape := ⟨2, ![2000, 1024]⟩
abbrev S2000x128 : Shape := ⟨2, ![2000, 128]⟩
abbrev S2000x256 : Shape := ⟨2, ![2000, 256]⟩
abbrev S1024x128 : Shape := ⟨2, ![1024, 128]⟩
abbrev S1024x256 : Shape := ⟨2, ![1024, 256]⟩
abbrev S1024 : Shape := ⟨1, ![1024]⟩
abbrev S1024x1 : Shape := ⟨2, ![1024, 1]⟩
abbrev S2000 : Shape := ⟨1, ![2000]⟩
abbrev S2000x1 : Shape := ⟨2, ![2000, 1]⟩

abbrev nBuf : Space → Nat
  | .hbm => 13
  | .vmem => 13
  | .smem => 0
  | _ => 0

abbrev bufTy : (tb : Table) → Fin (tcTables nBuf tb) → BufTy
  | .hbm, ⟨0, _⟩ => ⟨S50000x1024, .f32⟩
  | .hbm, ⟨1, _⟩ => ⟨S50000x128, .f32⟩
  | .hbm, ⟨2, _⟩ => ⟨S128x256, .f32⟩
  | .hbm, ⟨3, _⟩ => ⟨S256, .f32⟩
  | .hbm, ⟨4, _⟩ => ⟨S256, .f32⟩
  | .hbm, ⟨5, _⟩ => ⟨S256, .f32⟩
  | .hbm, ⟨6, _⟩ => ⟨S256, .f32⟩
  | .hbm, ⟨7, _⟩ => ⟨S128x256, .bf16⟩
  | .hbm, ⟨8, _⟩ => ⟨S1x256, .f32⟩
  | .hbm, ⟨9, _⟩ => ⟨S1x256, .f32⟩
  | .hbm, ⟨10, _⟩ => ⟨S1x256, .f32⟩
  | .hbm, ⟨11, _⟩ => ⟨S1x256, .f32⟩
  | .hbm, ⟨12, _⟩ => ⟨S50000x256, .f32⟩
  | .local _ .vmem, ⟨0, _⟩ => ⟨S2000x1024, .f32⟩
  | .local _ .vmem, ⟨1, _⟩ => ⟨S2000x1024, .f32⟩
  | .local _ .vmem, ⟨2, _⟩ => ⟨S2000x128, .f32⟩
  | .local _ .vmem, ⟨3, _⟩ => ⟨S2000x128, .f32⟩
  | .local _ .vmem, ⟨4, _⟩ => ⟨S128x256, .bf16⟩
  | .local _ .vmem, ⟨5, _⟩ => ⟨S1x256, .f32⟩
  | .local _ .vmem, ⟨6, _⟩ => ⟨S1x256, .f32⟩
  | .local _ .vmem, ⟨7, _⟩ => ⟨S1x256, .f32⟩
  | .local _ .vmem, ⟨8, _⟩ => ⟨S1x256, .f32⟩
  | .local _ .vmem, ⟨9, _⟩ => ⟨S2000x256, .f32⟩
  | .local _ .vmem, ⟨10, _⟩ => ⟨S2000x256, .f32⟩
  | .local _ .vmem, ⟨11, _⟩ => ⟨S1024x128, .f32⟩
  | .local _ .vmem, ⟨12, _⟩ => ⟨S1024x256, .bf16⟩
  | _, _ => ⟨S50000x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![50], ![false]⟩

def k0_cond4 (i : grid0.Coords) : BitVec 1 :=
  let arg0 : BitVec 32 := BitVec.ofNat 32 (i 0).val
  let c25_i32_3 : BitVec 32 := 25#32
  let v9 : BitVec 1 := Scalar.cmpi .sge arg0 c25_i32_3
  let v10 : BitVec 32 := Scalar.extui v9
  let c0_i32_4 : BitVec 32 := 0#32
  let v11 : BitVec 1 := Scalar.cmpi .ne v10 c0_i32_4
  v11

def cc0_transform_0 (i : grid0.Coords) : Fin 2 → Nat :=
  let arg0 : BitVec 32 := BitVec.ofNat 32 (i 0).val
  let c25_i32 : BitVec 32 := 25#32
  let v0 : BitVec 1 := Scalar.cmpi .slt arg0 c25_i32
  let c49_i32 : BitVec 32 := 49#32
  let v1 : BitVec 32 := Scalar.subi c49_i32 arg0
  let v2 : BitVec 32 := Scalar.select v0 arg0 v1
  let c0_i32 : BitVec 32 := 0#32
  let c0_i32_0 : BitVec 32 := 0#32
  ![v2.toNat, c0_i32.toNat]

def cc0_transform_1 (i : grid0.Coords) : Fin 2 → Nat :=
  let arg0 : BitVec 32 := BitVec.ofNat 32 (i 0).val
  let c25_i32 : BitVec 32 := 25#32
  let v0 : BitVec 1 := Scalar.cmpi .slt arg0 c25_i32
  let c0_i32 : BitVec 32 := 0#32
  let v1 : BitVec 32 := Scalar.select v0 arg0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c25_i32 : BitVec 32 := 25#32
  let v0 : BitVec 1 := Scalar.cmpi .slt arg0 c25_i32
  let c49_i32 : BitVec 32 := 49#32
  let v1 : BitVec 32 := Scalar.subi c49_i32 arg0
  let c24_i32 : BitVec 32 := 24#32
  let v2 : BitVec 32 := Scalar.select v0 c24_i32 v1
  let c0_i32 : BitVec 32 := 0#32
  let c0_i32_0 : BitVec 32 := 0#32
  ![v2.toNat, c0_i32.toNat]

abbrev stage0_0 : Fin 2 → Memref sig .tc .vmem S2000x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2000x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bitsLt_bf16_f32 : FTy.bits .bf16 < FTy.bits .f32
  shapeCasts_S256_S1x256 : S256.ShapeCasts S1x256
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S2000x1024_S2000x1024_0_0 : ∀ a, (![0, 0] : Fin 2 → Nat) a + S2000x1024.size a ≤ S2000x1024.size a
  h_S2000x1024 : 0 < S2000x1024.numel
  inb_S2000x128_S2000x128_0_0 : ∀ a, (![0, 0] : Fin 2 → Nat) a + S2000x128.size a ≤ S2000x128.size a
  h_S2000x128 : 0 < S2000x128.numel
  inb_S128x256_S128x256_0_0 : ∀ a, (![0, 0] : Fin 2 → Nat) a + S128x256.size a ≤ S128x256.size a
  h_S128x256 : 0 < S128x256.numel
  shapeCasts_S128x256_S128x256 : S128x256.ShapeCasts S128x256
  reduces_S1024x256_S1024 : S1024x256.Reduces [1] S1024
  shapeCasts_S1024_S1024x1 : S1024.ShapeCasts S1024x1
  broadcasts_S1024x1_S1024x256 : S1024x1.Broadcasts S1024x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  packedbf16_S1024x256_S1024x256_0_0 : (Rect.unit (s := S1024x256) ![0, 0] S1024x256.size inb_S1024x256_S1024x256_0_0).PackedRows (EltTy.packing .bf16)
  reduces_S2000x256_S2000 : S2000x256.Reduces [1] S2000
  shapeCasts_S2000_S2000x1 : S2000.ShapeCasts S2000x1
  broadcasts_S2000x1_S2000x256 : S2000x1.Broadcasts S2000x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  dot_S2000x1024_S2000x128_S1024x128_0_0_1_1_n_n_wf : DotDims.WF S2000x1024 S2000x128 S1024x128 [0] [0] [1] [1] [] []
  dot_S1024x128_S128x256_S1024x256_1_0_0_1_n_n_wf : DotDims.WF S1024x128 S128x256 S1024x256 [1] [0] [0] [1] [] []
  dot_S2000x1024_S1024x256_S2000x256_1_0_0_1_n_n_wf : DotDims.WF S2000x1024 S1024x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x1024.size a ≤ S50000x1024.size a
  hwx0_0 : ∀ i : grid0.Coords, EltTy.bits .f32 = 32 ∨ (Rect.block (s := S50000x1024) S2000x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .bf16 = 32 ∨ (Rect.block (s := S128x256) S128x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x256.size a ≤ S50000x256.size a
  hwx0_7 : ∀ i : grid0.Coords, EltTy.bits .f32 = 32 ∨ (Rect.block (s := S50000x256) S2000x256.size (cc0_transform_7 i) (hinb0_7 i)).WholeWords (EltTy.packing .f32)

variable [Facts₀]

def dot_S2000x1024_S2000x128_S1024x128_0_0_1_1_n_n : DotDims S2000x1024 S2000x128 S1024x128 where
  lhsContracting := [0]
  rhsContracting := [0]
  lhsNonContracting := [1]
  rhsNonContracting := [1]
  lhsBatch := []
  rhsBatch := []
  wf := dot_S2000x1024_S2000x128_S1024x128_0_0_1_1_n_n_wf
def dot_S1024x128_S128x256_S1024x256_1_0_0_1_n_n : DotDims S1024x128 S128x256 S1024x256 where
  lhsContracting := [1]
  rhsContracting := [0]
  lhsNonContracting := [0]
  rhsNonContracting := [1]
  lhsBatch := []
  rhsBatch := []
  wf := dot_S1024x128_S128x256_S1024x256_1_0_0_1_n_n_wf
def dot_S2000x1024_S1024x256_S2000x256_1_0_0_1_n_n : DotDims S2000x1024 S1024x256 S2000x256 where
  lhsContracting := [1]
  rhsContracting := [0]
  lhsNonContracting := [0]
  rhsNonContracting := [1]
  lhsBatch := []
  rhsBatch := []
  wf := dot_S2000x1024_S1024x256_S2000x256_1_0_0_1_n_n_wf

abbrev win0_0 : Pipeline.Window sig grid0 :=
  Pipeline.Window.ofSpec (Memref.whole main_arg0) S2000x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5) S2000x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond4 i == 1#1) | ⟨_ + 8, h⟩ => absurd h (Nat.not_lt.2 (Nat.le_add_left _ _))

class Facts : Prop extends Facts₀ where

variable [Facts]
-- ==== ReferenceIdeal.lean ====
abbrev S50000x1024 : Shape := ⟨2, ![50000, 1024]⟩
abbrev S50000x128 : Shape := ⟨2, ![50000, 128]⟩
abbrev S128x256 : Shape := ⟨2, ![128, 256]⟩
abbrev S256 : Shape := ⟨1, ![256]⟩
abbrev S1024x50000 : Shape := ⟨2, ![1024, 50000]⟩
abbrev S1024x128 : Shape := ⟨2, ![1024, 128]⟩
abbrev S1024x256 : Shape := ⟨2, ![1024, 256]⟩
abbrev S_ : Shape := ⟨0, ![]⟩
abbrev S1024 : Shape := ⟨1, ![1024]⟩
abbrev S1024x1 : Shape := ⟨2, ![1024, 1]⟩
abbrev S1x256 : Shape := ⟨2, ![1, 256]⟩
abbrev S50000x256 : Shape := ⟨2, ![50000, 256]⟩
abbrev S50000 : Shape := ⟨1, ![50000]⟩
abbrev S50000x1 : Shape := ⟨2, ![50000, 1]⟩

abbrev nBuf : Space → Nat
  | .hbm => 77
  | .vmem => 0
  | .smem => 0
  | _ => 0

abbrev bufTy : (tb : Table) → Fin (tcTables nBuf tb) → BufTy
  | .hbm, ⟨0, _⟩ => ⟨S50000x1024, .f32⟩
  | .hbm, ⟨1, _⟩ => ⟨S50000x128, .f32⟩
  | .hbm, ⟨2, _⟩ => ⟨S128x256, .f32⟩
  | .hbm, ⟨3, _⟩ => ⟨S256, .f32⟩
  | .hbm, ⟨4, _⟩ => ⟨S256, .f32⟩
  | .hbm, ⟨5, _⟩ => ⟨S256, .f32⟩
  | .hbm, ⟨6, _⟩ => ⟨S256, .f32⟩
  | .hbm, ⟨7, _⟩ => ⟨S1024x50000, .f32⟩
  | .hbm, ⟨8, _⟩ => ⟨S1024x128, .f32⟩
  | .hbm, ⟨9, _⟩ => ⟨S1024x256, .f32⟩
  | .hbm, ⟨10, _⟩ => ⟨S_, .f32⟩
  | .hbm, ⟨11, _⟩ => ⟨S1024, .f32⟩
  | .hbm, ⟨12, _⟩ => ⟨S1024x1, .f32⟩
  | .hbm, ⟨13, _⟩ => ⟨S_, .f32⟩
  | .hbm, ⟨14, _⟩ => ⟨S1024x1, .f32⟩
  | .hbm, ⟨15, _⟩ => ⟨S1024x1, .f32⟩
  | .hbm, ⟨16, _⟩ => ⟨S1024x256, .f32⟩
  | .hbm, ⟨17, _⟩ => ⟨S1024x256, .f32⟩
  | .hbm, ⟨18, _⟩ => ⟨S1024x256, .f32⟩
  | .hbm, ⟨19, _⟩ => ⟨S_, .f32⟩
  | .hbm, ⟨20, _⟩ => ⟨S1024, .f32⟩
  | .hbm, ⟨21, _⟩ => ⟨S1024x1, .f32⟩
  | .hbm, ⟨22, _⟩ => ⟨S_, .f32⟩
  | .hbm, ⟨23, _⟩ => ⟨S1024x1, .f32⟩
  | .hbm, ⟨24, _⟩ => ⟨S1024x1, .f32⟩
  | .hbm, ⟨25, _⟩ => ⟨S1024x256, .f32⟩
  | .hbm, ⟨26, _⟩ => ⟨S1024x256, .f32⟩
  | .hbm, ⟨27, _⟩ => ⟨S_, .f32⟩
  | .hbm, ⟨28, _⟩ => ⟨S1024x1, .f32⟩
  | .hbm, ⟨29, _⟩ => ⟨S1024x1, .f32⟩
  | .hbm, ⟨30, _⟩ => ⟨S1024x1, .f32⟩
  | .hbm, ⟨31, _⟩ => ⟨S1024x256, .f32⟩
  | .hbm, ⟨32, _⟩ => ⟨S1024x256, .f32⟩
  | .hbm, ⟨33, _⟩ => ⟨S1x256, .f32⟩
  | .hbm, ⟨34, _⟩ => ⟨S1024x256, .f32⟩
  | .hbm, ⟨35, _⟩ => ⟨S1024x256, .f32⟩
  | .hbm, ⟨36, _⟩ => ⟨S1x256, .f32⟩
  | .hbm, ⟨37, _⟩ => ⟨S1024x256, .f32⟩
  | .hbm, ⟨38, _⟩ => ⟨S1024x256, .f32⟩
  | .hbm, ⟨39, _⟩ => ⟨S50000x256, .f32⟩
  | .hbm, ⟨40, _⟩ => ⟨S_, .f32⟩
  | .hbm, ⟨41, _⟩ => ⟨S50000, .f32⟩
  | .hbm, ⟨42, _⟩ => ⟨S50000x1, .f32⟩
  | .hbm, ⟨43, _⟩ => ⟨S_, .f32⟩
  | .hbm, ⟨44, _⟩ => ⟨S50000x1, .f32⟩
  | .hbm, ⟨45, _⟩ => ⟨S50000x1, .f32⟩
  | .hbm, ⟨46, _⟩ => ⟨S50000x256, .f32⟩
  | .hbm, ⟨47, _⟩ => ⟨S50000x256, .f32⟩
  | .hbm, ⟨48, _⟩ => ⟨S50000x256, .f32⟩
  | .hbm, ⟨49, _⟩ => ⟨S_, .f32⟩
  | .hbm, ⟨50, _⟩ => ⟨S50000, .f32⟩
  | .hbm, ⟨51, _⟩ => ⟨S50000x1, .f32⟩
  | .hbm, ⟨52, _⟩ => ⟨S_, .f32⟩
  | .hbm, ⟨53, _⟩ => ⟨S50000x1, .f32⟩
  | .hbm, ⟨54, _⟩ => ⟨S50000x1, .f32⟩
  | .hbm, ⟨55, _⟩ => ⟨S50000x256, .f32⟩
  | .hbm, ⟨56, _⟩ => ⟨S50000x256, .f32⟩
  | .hbm, ⟨57, _⟩ => ⟨S_, .f32⟩
  | .hbm, ⟨58, _⟩ => ⟨S50000x1, .f32⟩
  | .hbm, ⟨59, _⟩ => ⟨S50000x1, .f32⟩
  | .hbm, ⟨60, _⟩ => ⟨S50000x1, .f32⟩
  | .hbm, ⟨61, _⟩ => ⟨S50000x256, .f32⟩
  | .hbm, ⟨62, _⟩ => ⟨S50000x256, .f32⟩
  | .hbm, ⟨63, _⟩ => ⟨S1x256, .f32⟩
  | .hbm, ⟨64, _⟩ => ⟨S50000x256, .f32⟩
  | .hbm, ⟨65, _⟩ => ⟨S50000x256, .f32⟩
  | .hbm, ⟨66, _⟩ => ⟨S1x256, .f32⟩
  | .hbm, ⟨67, _⟩ => ⟨S50000x256, .f32⟩
  | .hbm, ⟨68, _⟩ => ⟨S50000x256, .f32⟩
  | .hbm, ⟨69, _⟩ => ⟨S_, .f32⟩
  | .hbm, ⟨70, _⟩ => ⟨S_, .f32⟩
  | .hbm, ⟨71, _⟩ => ⟨S50000x256, .f32⟩
  | .hbm, ⟨72, _⟩ => ⟨S50000x256, .i1⟩
  | .hbm, ⟨73, _⟩ => ⟨S_, .f32⟩
  | .hbm, ⟨74, _⟩ => ⟨S50000x256, .f32⟩
  | .hbm, ⟨75, _⟩ => ⟨S50000x256, .f32⟩
  | .hbm, ⟨76, _⟩ => ⟨S50000x256, .f32⟩
  | _, _ => ⟨S50000x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_v29 : Ref sig .tc := ⟨.hbm, 42, rfl⟩
abbrev main_cst_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_6 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_9 : Ref sig .tc := ⟨.hbm, 69, rfl⟩
abbrev main_call0_cst : Ref sig .tc := ⟨.hbm, 70, rfl⟩
abbrev main_call0_v0 : Ref sig .tc := ⟨.hbm, 71, rfl⟩
abbrev main_call0_v1 : Ref sig .tc := ⟨.hbm, 72, rfl⟩
abbrev main_call0_v2 : Ref sig .tc := ⟨.hbm, 73, rfl⟩
abbrev main_call0_v3 : Ref sig .tc := ⟨.hbm, 74, rfl⟩
abbrev main_call0_v4 : Ref sig .tc := ⟨.hbm, 75, rfl⟩
abbrev main_v52 : Ref sig .tc := ⟨.hbm, 76, rfl⟩

abbrev nD : Nat := 1
abbrev τ : Topo := Topo.v7x

variable {F : FTy → Type} [FloatOps F]

class Facts₀ : Prop where
  transposes_S50000x1024_S1024x50000_1_0 : S50000x1024.Transposes [1, 0] S1024x50000
  reducesTo_S1024x256_S1024_d1 : S1024x256.ReducesTo [1] S1024
  h_S_ : 0 < S_.numel
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1024x1_S1024x256_0_1 : S1024x1.BroadcastsInDim S1024x256 (![0, 1] : Fin 2 → Fin S1024x256.rank)
  bcast_S256_S1x256_1 : S256.BroadcastsInDim S1x256 (![1] : Fin 1 → Fin S1x256.rank)
  bcast_S1x256_S1024x256_0_1 : S1x256.BroadcastsInDim S1024x256 (![0, 1] : Fin 2 → Fin S1024x256.rank)
  reducesTo_S50000x256_S50000_d1 : S50000x256.ReducesTo [1] S50000
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x256_0_1 : S50000x1.BroadcastsInDim S50000x256 (![0, 1] : Fin 2 → Fin S50000x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  dot_S1024x50000_S50000x128_S1024x128_1_0_0_1_n_n_wf : DotDims.WF S1024x50000 S50000x128 S1024x128 [1] [0] [0] [1] [] []
  dot_S1024x128_S128x256_S1024x256_1_0_0_1_n_n_wf : DotDims.WF S1024x128 S128x256 S1024x256 [1] [0] [0] [1] [] []
  dot_S50000x1024_S1024x256_S50000x256_1_0_0_1_n_n_wf : DotDims.WF S50000x1024 S1024x256 S50000x256 [1] [0] [0] [1] [] []

variable [Facts₀]

def dot_S1024x50000_S50000x128_S1024x128_1_0_0_1_n_n : DotDims S1024x50000 S50000x128 S1024x128 where
  lhsContracting := [1]
  rhsContracting := [0]
  lhsNonContracting := [0]
  rhsNonContracting := [1]
  lhsBatch := []
  rhsBatch := []
  wf := dot_S1024x50000_S50000x128_S1024x128_1_0_0_1_n_n_wf
def dot_S1024x128_S128x256_S1024x256_1_0_0_1_n_n : DotDims S1024x128 S128x256 S1024x256 where
  lhsContracting := [1]
  rhsContracting := [0]
  lhsNonContracting := [0]
  rhsNonContracting := [1]
  lhsBatch := []
  rhsBatch := []
  wf := dot_S1024x128_S128x256_S1024x256_1_0_0_1_n_n_wf
def dot_S50000x1024_S1024x256_S50000x256_1_0_0_1_n_n : DotDims S50000x1024 S1024x256 S50000x256 where
  lhsContracting := [1]
  rhsContracting := [0]
  lhsNonContracting := [0]
  rhsNonContracting := [1]
  lhsBatch := []
  rhsBatch := []
  wf := dot_S50000x1024_S1024x256_S50000x256_1_0_0_1_n_n_wf

class Facts : Prop extends Facts₀ where

variable [Facts]
-- ==== Proof.WordBody.Cases.lean ====
/-
  The grid has fifty points.  The body's four conditionals depend on the point alone, so each point is in
  one of four cases: the first point (the accumulator is zeroed, then the first block's product added), the
  points 1 to 23 (a block's product added), point 24 (the last block added, then the hidden rows computed
  from the finished accumulator), and the points 25 to 49 (one block of the result computed from the hidden
  rows).  Here: each condition as a fact about the point's number, when the result window is written back
  (exactly at the points of the last case) and where it is idle (exactly at the others), the staging
  buffers by name, and the region invariant split into the two scratch buffers and the generator register.
-/
import proofs.«129456_g19327352832290_cont_8to1_132_5_alg».proof.Proof.Gen.Kernel.Frame
import proofs.«129456_g19327352832290_cont_8to1_132_5_alg».proof.Proof.Gen.Kernel.Skeleton

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first conditional's condition: the point is the first. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val = 0 :=
  (by decide +kernel : ∀ t : Fin grid0.N, cond0_0 (grid0.coords t) ↔ t.val = 0)

/-- The second conditional's condition: the point is in the first half. -/
abbrev cond0_1 (i : grid0.Coords) : Prop := (Scalar.cmpi .ne (Scalar.extui (Scalar.cmpi .slt (BitVec.ofNat 32 (i 0).val) 25#32)) 0#32) = 1#1
theorem hcond0_1 : ∀ t : Fin cfg0.N, cond0_1 (grid0.coords t) ↔ t.val < 25 :=
  (by decide +kernel : ∀ t : Fin grid0.N, cond0_1 (grid0.coords t) ↔ t.val < 25)

/-- The third conditional's condition: the point is the last of the first half. -/
abbrev cond0_2 (i : grid0.Coords) : Prop := (Scalar.cmpi .ne (Scalar.extui (Scalar.cmpi .eq (BitVec.ofNat 32 (i 0).val) 24#32)) 0#32) = 1#1
theorem hcond0_2 : ∀ t : Fin cfg0.N, cond0_2 (grid0.coords t) ↔ t.val = 24 :=
  (by decide +kernel : ∀ t : Fin grid0.N, cond0_2 (grid0.coords t) ↔ t.val = 24)

/-- The fourth conditional's condition: the point is in the second half. -/
abbrev cond0_3 (i : grid0.Coords) : Prop := k0_cond4 i = 1#1
theorem hcond0_3 : ∀ t : Fin cfg0.N, cond0_3 (grid0.coords t) ↔ 25 ≤ t.val :=
  (by decide +kernel : ∀ t : Fin grid0.N, cond0_3 (grid0.coords t) ↔ 25 ≤ t.val)

/-- The result window is written back exactly after the points of the second half. -/
theorem flush0_7 : ∀ t : Fin cfg0.N, (cfg0.win 7).flush t = true ↔ 25 ≤ t.val :=
  (by decide +kernel : ∀ t : Fin grid0.N, win0_7.flush t = true ↔ 25 ≤ t.val)

/-- The result window is idle exactly at the points of the first half. -/
theorem idle0_7 : ∀ t : Fin cfg0.N, cfg0.idle 7 (grid0.coords t) = true ↔ t.val < 25 :=
  (by decide +kernel : ∀ t : Fin grid0.N, idle0 7 (grid0.coords t) = true ↔ t.val < 25)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel

/-- Each window's current staging buffer at a point, and that it is a whole buffer. -/
abbrev ms0_0 (t : Fin cfg0.N) : Memref sig .tc .vmem S2000x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2000x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x256 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S2000x256 .f32 := win0_7.stage (cfg0.slots t 7)
abbrev hs0_7 (t : Fin cfg0.N) : (ms0_7 t).IsWhole := hstage0_7 ((cfg0.slots t 7).cast nbuf0_7)

/-- The accumulator scratch and the hidden-rows scratch, as whole memrefs. -/
abbrev scM0_0 : Memref sig .tc .vmem S1024x128 .f32 := Memref.whole cc0_scratch0
abbrev scM0_1 : Memref sig .tc .vmem S1024x256 .bf16 := Memref.whole cc0_scratch1

/-- The region invariant at entry: each scratch buffer owned at some contents, and the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel.Gen

end
-- ==== Proof.WordBody.RunFirst.lean ====
/-
  The body at the first point: the accumulator is stored whole with zeros, then read back, the first block's
  product added to it, and the sum stored whole.  The run needs the two streamed blocks and the accumulator
  scratch at any contents; it returns the blocks as they were and the accumulator with those two stores
  written, the later over the earlier.
-/
import proofs.«129456_g19327352832290_cont_8to1_132_5_alg».proof.Proof.WordBody.Cases

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The stores the body leaves in the accumulator at the first point (last first), with the run that leaves them. -/
noncomputable def runFirst (c : Dev nD) (i : grid0.Coords) (arg1 : Memref sig .tc .vmem S2000x1024 .f32) (harg1 : arg1.IsWhole) (arg2 : Memref sig .tc .vmem S2000x128 .f32) (harg2 : arg2.IsWhole) (arg3 : Memref sig .tc .vmem S128x256 .bf16) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S2000x256 .f32) (harg8 : arg8.IsWhole) (arg9 : Memref sig .tc .vmem S1024x128 .f32) (harg9 : arg9.IsWhole) (arg10 : Memref sig .tc .vmem S1024x256 .bf16) (harg10 : arg10.IsWhole) (hc0 : cond0_0 i) (hc1 : cond0_1 i) (hc2 : ¬cond0_2 i) (hc3 : ¬cond0_3 i)
    (x0 : Vec F S2000x1024 .f32) (x1 : Vec F S2000x128 .f32) :
    { LS0 : List (View.Piece (Elt F) S1024x128 .f32) //
      ∀ (E : Set ℕ) (K : PUnit → sProp 𝕄),
        iprop(owns (c : Thread nD τ) arg1 fullShare x0 ∗ owns (c : Thread nD τ) arg2 fullShare x1 ∗ (∃ d, owns (c : Thread nD τ) arg9 fullShare d)
            ∗ (iprop(owns (c : Thread nD τ) arg1 fullShare x0 ∗ owns (c : Thread nD τ) arg2 fullShare x1 ∗ (∃ f, arg9.view.loc (c : Thread nD τ) ↦[arg9.view.set]{fullShare} arg9.view.writes (Elt F) f LS0)) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10) K } := by
  refine ⟨?_, fun E K => ?run⟩
  case run =>
    simp only [cc0__fused_kernel_eq_skeleton]; unfold cc0__fused_kernel_skel
    unfold owns
    iintro ⟨⟨%f0, %hf0, H0⟩, ⟨%f1, %hf1, H1⟩, ⟨%ds0, %fs0, -, HS0⟩, Hk⟩
    obtain rfl := harg1.eq_unread hf0; obtain rfl := harg2.eq_unread hf1
    sl_exec (disch := first | exact hc0 | exact hc1 | exact hc2 | exact hc3)
    sl_step
    iapply Hk
    isplitl [H0]
    · iexists _; isplitr; · ipureintro; exact harg1.read_unread _
      iexact H0
    isplitl [H1]
    · iexists _; isplitr; · ipureintro; exact harg2.read_unread _
      iexact H1
    iexists _; iexact HS0

end Cert.Kernel.Gen

end
-- ==== Proof.WordBody.RunAccum.lean ====
/-
  The body at a point of the first half other than the first and the last: the accumulator is read, the
  point's block product added to it, and the sum stored whole.  The run needs the two streamed blocks and
  the accumulator at the contents the point before left; it returns the blocks as they were and the
  accumulator with that one store written.
-/
import proofs.«129456_g19327352832290_cont_8to1_132_5_alg».proof.Proof.WordBody.Cases

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The store the body leaves in the accumulator at a middle point of the first half, with the run that leaves it. -/
noncomputable def runAccum (c : Dev nD) (i : grid0.Coords) (arg1 : Memref sig .tc .vmem S2000x1024 .f32) (harg1 : arg1.IsWhole) (arg2 : Memref sig .tc .vmem S2000x128 .f32) (harg2 : arg2.IsWhole) (arg3 : Memref sig .tc .vmem S128x256 .bf16) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S2000x256 .f32) (harg8 : arg8.IsWhole) (arg9 : Memref sig .tc .vmem S1024x128 .f32) (harg9 : arg9.IsWhole) (arg10 : Memref sig .tc .vmem S1024x256 .bf16) (harg10 : arg10.IsWhole) (hc0 : ¬cond0_0 i) (hc1 : cond0_1 i) (hc2 : ¬cond0_2 i) (hc3 : ¬cond0_3 i)
    (x0 : Vec F S2000x1024 .f32) (x1 : Vec F S2000x128 .f32) (xs0 : Vec F S1024x128 .f32) :
    { LS0 : List (View.Piece (Elt F) S1024x128 .f32) //
      ∀ (E : Set ℕ) (K : PUnit → sProp 𝕄),
        iprop(owns (c : Thread nD τ) arg1 fullShare x0 ∗ owns (c : Thread nD τ) arg2 fullShare x1 ∗ owns (c : Thread nD τ) arg9 fullShare xs0
            ∗ (iprop(owns (c : Thread nD τ) arg1 fullShare x0 ∗ owns (c : Thread nD τ) arg2 fullShare x1 ∗ (∃ f, arg9.view.loc (c : Thread nD τ) ↦[arg9.view.set]{fullShare} arg9.view.writes (Elt F) f LS0)) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10) K } := by
  refine ⟨?_, fun E K => ?run⟩
  case run =>
    simp only [cc0__fused_kernel_eq_skeleton]; unfold cc0__fused_kernel_skel
    unfold owns
    iintro ⟨⟨%f0, %hf0, H0⟩, ⟨%f1, %hf1, H1⟩, ⟨%fs0, %hfs0, HS0⟩, Hk⟩
    obtain rfl := harg1.eq_unread hf0; obtain rfl := harg2.eq_unread hf1; obtain rfl := harg9.eq_unread hfs0
    sl_exec (disch := first | exact hc0 | exact hc1 | exact hc2 | exact hc3)
    sl_step
    iapply Hk
    isplitl [H0]
    · iexists _; isplitr; · ipureintro; exact harg1.read_unread _
      iexact H0
    isplitl [H1]
    · iexists _; isplitr; · ipureintro; exact harg2.read_unread _
      iexact H1
    iexists _; iexact HS0

end Cert.Kernel.Gen

end
-- ==== Proof.WordBody.RunMid.lean ====
/-
  The body at the last point of the first half: the accumulator is read, the last block's product added and
  the sum stored whole; then the finished accumulator is read back, multiplied by the weight, normalised row
  by row with the first gain and bias, and stored whole into the hidden-rows scratch.  The run needs the two
  streamed blocks, the weight, the first gain and bias, the accumulator at what the point before left and
  the hidden-rows scratch at any contents; it returns the inputs as they were and each scratch with its
  store written.
-/
import proofs.«129456_g19327352832290_cont_8to1_132_5_alg».proof.Proof.WordBody.Cases

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The stores the body leaves in the accumulator and in the hidden-rows scratch at point 24, with the run. -/
noncomputable def runMid (c : Dev nD) (i : grid0.Coords) (arg1 : Memref sig .tc .vmem S2000x1024 .f32) (harg1 : arg1.IsWhole) (arg2 : Memref sig .tc .vmem S2000x128 .f32) (harg2 : arg2.IsWhole) (arg3 : Memref sig .tc .vmem S128x256 .bf16) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S2000x256 .f32) (harg8 : arg8.IsWhole) (arg9 : Memref sig .tc .vmem S1024x128 .f32) (harg9 : arg9.IsWhole) (arg10 : Memref sig .tc .vmem S1024x256 .bf16) (harg10 : arg10.IsWhole) (hc0 : ¬cond0_0 i) (hc1 : cond0_1 i) (hc2 : cond0_2 i) (hc3 : ¬cond0_3 i)
    (x0 : Vec F S2000x1024 .f32) (x1 : Vec F S2000x128 .f32) (x2 : Vec F S128x256 .bf16) (x3 : Vec F S1x256 .f32) (x4 : Vec F S1x256 .f32) (xs0 : Vec F S1024x128 .f32) :
    { LS : List (View.Piece (Elt F) S1024x128 .f32) × List (View.Piece (Elt F) S1024x256 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg9 fullShare xs0 ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg9.view.loc (c : Thread nD τ) ↦[arg9.view.set]{fullShare} arg9.view.writes (Elt F) f LS.1) ∗ (∃ f, arg10.view.loc (c : Thread nD τ) ↦[arg10.view.set]{fullShare} arg10.view.writes (Elt F) f LS.2)) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10) K } := by
  refine ⟨⟨?_, ?_⟩, fun E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg9.eq_unread hfs0
    sl_exec (disch := first | exact hc0 | exact hc1 | exact hc2 | exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [HS0]; · iexists _; iexact HS0
    iexists _; iexact HS1

end Cert.Kernel.Gen

end
-- ==== Proof.WordBody.RunSpread.lean ====
/-
  The body at a point of the second half: the point's block of the incidence matrix is multiplied by the
  hidden rows, normalised row by row with the second gain and bias, rectified, and stored whole into the
  result's staging buffer.  The run needs that block, the second gain and bias, the hidden-rows scratch at
  its contents and the result's buffer at any contents; it returns the inputs and the hidden rows as they
  were and the result's buffer with that one store written.
-/
import proofs.«129456_g19327352832290_cont_8to1_132_5_alg».proof.Proof.WordBody.Cases

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The store the body leaves in the result's staging buffer at a point of the second half, with the run. -/
noncomputable def runSpread (c : Dev nD) (i : grid0.Coords) (arg1 : Memref sig .tc .vmem S2000x1024 .f32) (harg1 : arg1.IsWhole) (arg2 : Memref sig .tc .vmem S2000x128 .f32) (harg2 : arg2.IsWhole) (arg3 : Memref sig .tc .vmem S128x256 .bf16) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S2000x256 .f32) (harg8 : arg8.IsWhole) (arg9 : Memref sig .tc .vmem S1024x128 .f32) (harg9 : arg9.IsWhole) (arg10 : Memref sig .tc .vmem S1024x256 .bf16) (harg10 : arg10.IsWhole) (hc0 : ¬cond0_0 i) (hc1 : ¬cond0_1 i) (hc2 : ¬cond0_2 i) (hc3 : cond0_3 i)
    (x0 : Vec F S2000x1024 .f32) (x5 : Vec F S1x256 .f32) (x6 : Vec F S1x256 .f32) (xs1 : Vec F S1024x256 .bf16) :
    { LO : List (View.Piece (Elt F) S2000x256 .f32) //
      ∀ (E : Set ℕ) (K : PUnit → sProp 𝕄),
        iprop(owns (c : Thread nD τ) arg1 fullShare x0 ∗ owns (c : Thread nD τ) arg6 fullShare x5 ∗ owns (c : Thread nD τ) arg7 fullShare x6 ∗ owns (c : Thread nD τ) arg10 fullShare xs1 ∗ (∃ d, owns (c : Thread nD τ) arg8 fullShare d)
            ∗ (iprop(owns (c : Thread nD τ) arg1 fullShare x0 ∗ owns (c : Thread nD τ) arg6 fullShare x5 ∗ owns (c : Thread nD τ) arg7 fullShare x6 ∗ owns (c : Thread nD τ) arg10 fullShare xs1 ∗ (∃ f, arg8.view.loc (c : Thread nD τ) ↦[arg8.view.set]{fullShare} arg8.view.writes (Elt F) f LO)) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10) K } := by
  refine ⟨?_, fun E K => ?run⟩
  case run =>
    simp only [cc0__fused_kernel_eq_skeleton]; unfold cc0__fused_kernel_skel
    unfold owns
    iintro ⟨⟨%f0, %hf0, H0⟩, ⟨%f5, %hf5, H5⟩, ⟨%f6, %hf6, H6⟩, ⟨%fs1, %hfs1, HS1⟩, ⟨%d7, %f7, -, H7⟩, Hk⟩
    obtain rfl := harg1.eq_unread hf0; obtain rfl := harg6.eq_unread hf5; obtain rfl := harg7.eq_unread hf6; obtain rfl := harg10.eq_unread hfs1
    sl_exec (disch := first | exact hc0 | exact hc1 | exact hc2 | exact hc3)
    sl_step
    iapply Hk
    isplitl [H0]
    · iexists _; isplitr; · ipureintro; exact harg1.read_unread _
      iexact H0
    isplitl [H5]
    · iexists _; isplitr; · ipureintro; exact harg6.read_unread _
      iexact H5
    isplitl [H6]
    · iexists _; isplitr; · ipureintro; exact harg7.read_unread _
      iexact H6
    isplitl [HS1]
    · iexists _; isplitr; · ipureintro; exact harg10.read_unread _
      iexact HS1
    iexists _; iexact H7

end Cert.Kernel.Gen

end
-- ==== Proof.WordBody.Steps.lean ====
/-
  What the two scratch buffers and the result's staging buffer hold after each grid point, and the proof
  data of the pipeline built from it.

  The accumulator after point n (`accAt`): at the first point what the first case's stores leave; at a
  later point of the first half what that point's case leaves over the contents the point before left; in
  the second half it is no longer written, so it keeps what point 24 left.  The hidden rows (`latAt`) are
  written once, at point 24, from the finished accumulator, and kept; before that the scratch holds
  whatever it held at entry, which nothing names — the invariant owns it at some contents until then.
  The result's block at a point of the second half (`outAt`) is what that case's one store leaves.

  Each of these is the canonical contents of the case's list of stores: what the stores leave reads as
  that whatever the buffer held, because in every case the stores cover the whole buffer.
-/
import proofs.«129456_g19327352832290_cont_8to1_132_5_alg».proof.Proof.WordBody.RunFirst
import proofs.«129456_g19327352832290_cont_8to1_132_5_alg».proof.Proof.WordBody.RunAccum
import proofs.«129456_g19327352832290_cont_8to1_132_5_alg».proof.Proof.WordBody.RunMid
import proofs.«129456_g19327352832290_cont_8to1_132_5_alg».proof.Proof.WordBody.RunSpread

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The grid has fifty points. -/
theorem N_eq : cfg0.N = 50 := N_0

/-! ## The cases' hypotheses from a point's number -/

theorem c0_of {t : Fin cfg0.N} (h : t.val = 0) : cond0_0 (grid0.coords t) := (hcond0_0 t).mpr h
theorem nc0_of {t : Fin cfg0.N} (h : t.val ≠ 0) : ¬cond0_0 (grid0.coords t) := fun h' => h ((hcond0_0 t).mp h')
theorem c1_of {t : Fin cfg0.N} (h : t.val < 25) : cond0_1 (grid0.coords t) := (hcond0_1 t).mpr h
theorem nc1_of {t : Fin cfg0.N} (h : ¬t.val < 25) : ¬cond0_1 (grid0.coords t) := fun h' => h ((hcond0_1 t).mp h')
theorem c2_of {t : Fin cfg0.N} (h : t.val = 24) : cond0_2 (grid0.coords t) := (hcond0_2 t).mpr h
theorem nc2_of {t : Fin cfg0.N} (h : t.val ≠ 24) : ¬cond0_2 (grid0.coords t) := fun h' => h ((hcond0_2 t).mp h')
theorem c3_of {t : Fin cfg0.N} (h : 25 ≤ t.val) : cond0_3 (grid0.coords t) := (hcond0_3 t).mpr h
theorem nc3_of {t : Fin cfg0.N} (h : ¬25 ≤ t.val) : ¬cond0_3 (grid0.coords t) := fun h' => h ((hcond0_3 t).mp h')

/-! ## What each case leaves, at a point -/

/-- The accumulator after the first point. -/
def accFirst (c : Dev nD) (t : Fin cfg0.N) (h : t.val = 0) : Vec F S1024x128 .f32 :=
  View.canon (runFirst c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (c0_of h) (c1_of (by omega)) (nc2_of (by omega)) (nc3_of (by omega)) (iblk m c 0 t) (iblk m c 1 t)).1

/-- The accumulator after a middle point of the first half, over what the point before left (`xs`). -/
def accStep (c : Dev nD) (t : Fin cfg0.N) (h0 : t.val ≠ 0) (h1 : t.val < 24) (xs : Vec F S1024x128 .f32) : Vec F S1024x128 .f32 :=
  View.canon (runAccum c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (nc0_of h0) (c1_of (by omega)) (nc2_of (by omega)) (nc3_of (by omega)) (iblk m c 0 t) (iblk m c 1 t) xs).1

/-- The accumulator after point 24, over what point 23 left (`xs`). -/
def accLast (c : Dev nD) (t : Fin cfg0.N) (h : t.val = 24) (xs : Vec F S1024x128 .f32) : Vec F S1024x128 .f32 :=
  View.canon (runMid c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (nc0_of (by omega)) (c1_of (by omega)) (c2_of h) (nc3_of (by omega)) (iblk m c 0 t) (iblk m c 1 t) (iblk m c 2 t) (iblk m c 3 t) (iblk m c 4 t) xs).1.1

/-- The hidden rows after point 24, the accumulator having held `xs` after point 23. -/
def latMid (c : Dev nD) (t : Fin cfg0.N) (h : t.val = 24) (xs : Vec F S1024x128 .f32) : Vec F S1024x256 .bf16 :=
  View.canon (runMid c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (nc0_of (by omega)) (c1_of (by omega)) (c2_of h) (nc3_of (by omega)) (iblk m c 0 t) (iblk m c 1 t) (iblk m c 2 t) (iblk m c 3 t) (iblk m c 4 t) xs).1.2

/-- The result's block after a point of the second half, the hidden rows being `xl`. -/
def outStep (c : Dev nD) (t : Fin cfg0.N) (h : 25 ≤ t.val) (xl : Vec F S1024x256 .bf16) : Vec F S2000x256 .f32 :=
  View.canon (runSpread c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (nc0_of (by omega)) (nc1_of (by omega)) (nc2_of (by omega)) (c3_of h) (iblk m c 0 t) (iblk m c 5 t) (iblk m c 6 t) xl).1

/-! ## Point by point -/

/-- What the accumulator holds after the point numbered `n`. -/
def accAt (c : Dev nD) : (n : ℕ) → n < cfg0.N → Vec F S1024x128 .f32
  | 0, hn => accFirst m c ⟨0, hn⟩ rfl
  | n + 1, hn =>
    if h1 : n + 1 < 24 then accStep m c ⟨n + 1, hn⟩ (Nat.succ_ne_zero n) h1 (accAt c n (Nat.lt_of_succ_lt hn))
    else if h2 : n + 1 = 24 then accLast m c ⟨n + 1, hn⟩ h2 (accAt c n (Nat.lt_of_succ_lt hn))
    else accAt c n (Nat.lt_of_succ_lt hn)

theorem accAt_first (c : Dev nD) (t : Fin cfg0.N) (h : t.val = 0) : accAt m c t.val t.isLt = accFirst m c t h := by
  obtain ⟨n, hn⟩ := t
  cases n with
  | zero => rfl
  | succ n => exact absurd h (Nat.succ_ne_zero n)

theorem accAt_step (c : Dev nD) (t : Fin cfg0.N) (h0 : t.val ≠ 0) (h1 : t.val < 24) :
    accAt m c t.val t.isLt = accStep m c t h0 h1 (accAt m c (t.val - 1) (Nat.lt_of_le_of_lt (Nat.sub_le _ _) t.isLt)) := by
  obtain ⟨n, hn⟩ := t
  cases n with
  | zero => exact absurd rfl h0
  | succ n => exact (dif_pos h1).trans rfl

theorem accAt_last (c : Dev nD) (t : Fin cfg0.N) (h : t.val = 24) :
    accAt m c t.val t.isLt = accLast m c t h (accAt m c (t.val - 1) (Nat.lt_of_le_of_lt (Nat.sub_le _ _) t.isLt)) := by
  obtain ⟨n, hn⟩ := t
  cases n with
  | zero => exact absurd (show (0 : ℕ) = 24 from h) (by omega)
  | succ n => exact (dif_neg (show ¬n + 1 < 24 from fun h' => by have : n + 1 = 24 := h; omega)).trans ((dif_pos h).trans rfl)

theorem accAt_keep (c : Dev nD) (t : Fin cfg0.N) (h : 25 ≤ t.val) :
    accAt m c t.val t.isLt = accAt m c (t.val - 1) (Nat.lt_of_le_of_lt (Nat.sub_le _ _) t.isLt) := by
  obtain ⟨n, hn⟩ := t
  cases n with
  | zero => exact absurd (show 25 ≤ (0 : ℕ) from h) (by omega)
  | succ n =>
    have h' : 25 ≤ n + 1 := h
    exact (dif_neg (show ¬n + 1 < 24 by omega)).trans ((dif_neg (show ¬n + 1 = 24 by omega)).trans rfl)

/-- What the hidden-rows scratch holds after the point numbered `n`, from point 24 on (before that the
    value stated here is not used: the scratch still holds its entry contents). -/
def latAt (c : Dev nD) : (n : ℕ) → n < cfg0.N → Vec F S1024x256 .bf16
  | 0, _ => fun _ => Classical.choice (Elt.nonempty F _)
  | n + 1, hn =>
    if h2 : n + 1 = 24 then latMid m c ⟨n + 1, hn⟩ h2 (accAt m c n (Nat.lt_of_succ_lt hn))
    else latAt c n (Nat.lt_of_succ_lt hn)

theorem latAt_mid (c : Dev nD) (t : Fin cfg0.N) (h : t.val = 24) :
    latAt m c t.val t.isLt = latMid m c t h (accAt m c (t.val - 1) (Nat.lt_of_le_of_lt (Nat.sub_le _ _) t.isLt)) := by
  obtain ⟨n, hn⟩ := t
  cases n with
  | zero => exact absurd (show (0 : ℕ) = 24 from h) (by omega)
  | succ n => exact (dif_pos h).trans rfl

theorem latAt_keep (c : Dev nD) (t : Fin cfg0.N) (h : 25 ≤ t.val) :
    latAt m c t.val t.isLt = latAt m c (t.val - 1) (Nat.lt_of_le_of_lt (Nat.sub_le _ _) t.isLt) := by
  obtain ⟨n, hn⟩ := t
  cases n with
  | zero => exact absurd (show 25 ≤ (0 : ℕ) from h) (by omega)
  | succ n =>
    have h' : 25 ≤ n + 1 := h
    exact (dif_neg (show ¬n + 1 = 24 by omega)).trans rfl

/-- What the result's staging buffer holds after the body at point `t` of the second half (at a point of
    the first half the body leaves that buffer alone, and the value stated here is not used). -/
def outAt (c : Dev nD) (t : Fin cfg0.N) : Vec F S2000x256 .f32 :=
  if h : 25 ≤ t.val then outStep m c t h (latAt m c (t.val - 1) (Nat.lt_of_le_of_lt (Nat.sub_le _ _) t.isLt))
  else fun _ => Classical.choice (Elt.nonempty F _)

theorem outAt_spread (c : Dev nD) (t : Fin cfg0.N) (h : 25 ≤ t.val) :
    outAt m c t = outStep m c t h (latAt m c (t.val - 1) (Nat.lt_of_le_of_lt (Nat.sub_le _ _) t.isLt)) := dif_pos h

/-! ## The region invariant -/

/-- The hidden-rows scratch before the point numbered `n + 1`: named from point 24 on, at some contents before. -/
def latRes (c : Dev nD) (n : ℕ) (hn : n < cfg0.N) : sProp 𝕄 :=
  if 24 ≤ n then owns (c : Thread nD τ) scM0_1 fullShare (latAt m c n hn) else iprop(∃ d, owns (c : Thread nD τ) scM0_1 fullShare d)

theorem latRes_early (c : Dev nD) (n : ℕ) (hn : n < cfg0.N) (h : ¬24 ≤ n) :
    latRes m c n hn = iprop(∃ d, owns (c : Thread nD τ) scM0_1 fullShare d) := if_neg h

theorem latRes_late (c : Dev nD) (n : ℕ) (hn : n < cfg0.N) (h : 24 ≤ n) :
    latRes m c n hn = owns (c : Thread nD τ) scM0_1 fullShare (latAt m c n hn) := if_pos h

/-- The region invariant before the point numbered `n`: at entry the class's (each scratch at anything);
    afterwards the accumulator at what the point before left, the hidden rows by `latRes`, and the
    generator register at some state. -/
def PhiS (c : Dev nD) : (n : ℕ) → n ≤ cfg0.N → sProp 𝕄
  | 0, _ => Pipeline.ΦA spec0 c
  | n + 1, hn => iprop(iprop(owns (c : Thread nD τ) scM0_0 fullShare (accAt m c n hn) ∗ latRes m c n hn) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (accAt m c n hn) ∗ latRes m c n hn) ∗ (∃ r, prngReg c r)) := rfl

theorem PhiS_pos (c : Dev nD) (n : ℕ) (h : n ≤ cfg0.N) (hz : n ≠ 0) :
    PhiS m c n h = iprop(iprop(owns (c : Thread nD τ) scM0_0 fullShare (accAt m c (n - 1) (by omega)) ∗ latRes m c (n - 1) (by omega)) ∗ (∃ r, prngReg c r)) := by
  cases n with
  | zero => exact absurd rfl hz
  | succ n => rfl

/-! ## The pipeline's proof data -/

/-- The proof data of the one pipeline on core `c`: the arrays as the region finds them; after the body at a
    point each input's buffer at its block and the result's at `outAt`; the invariant `PhiS`; nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = outAt m c t := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

end Cert.Kernel.Gen

end
-- ==== Proof.WordBody.Covers.lean ====
/-
  In each case the stores the body leaves in a buffer cover that buffer whole (each store is of the whole
  buffer), so what they leave is their canonical contents whatever the buffer held.
-/
import proofs.«129456_g19327352832290_cont_8to1_132_5_alg».proof.Proof.WordBody.RunFirst
import proofs.«129456_g19327352832290_cont_8to1_132_5_alg».proof.Proof.WordBody.RunAccum
import proofs.«129456_g19327352832290_cont_8to1_132_5_alg».proof.Proof.WordBody.RunMid
import proofs.«129456_g19327352832290_cont_8to1_132_5_alg».proof.Proof.WordBody.RunSpread

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem coverFirst (c : Dev nD) (i : grid0.Coords) (arg1 : Memref sig .tc .vmem S2000x1024 .f32) (harg1 : arg1.IsWhole) (arg2 : Memref sig .tc .vmem S2000x128 .f32) (harg2 : arg2.IsWhole) (arg3 : Memref sig .tc .vmem S128x256 .bf16) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S2000x256 .f32) (harg8 : arg8.IsWhole) (arg9 : Memref sig .tc .vmem S1024x128 .f32) (harg9 : arg9.IsWhole) (arg10 : Memref sig .tc .vmem S1024x256 .bf16) (harg10 : arg10.IsWhole) (hc0 : cond0_0 i) (hc1 : cond0_1 i) (hc2 : ¬cond0_2 i) (hc3 : ¬cond0_3 i)
    (x0 : Vec F S2000x1024 .f32) (x1 : Vec F S2000x128 .f32) (y : S1024x128.Idx) :
    ∃ pc ∈ (runFirst c i arg1 harg1 arg2 harg2 arg3 harg3 arg4 harg4 arg5 harg5 arg6 harg6 arg7 harg7 arg8 harg8 arg9 harg9 arg10 harg10 hc0 hc1 hc2 hc3 x0 x1).1, y ∈ pc.1.set :=
  View.cover_of_tiledL (runFirst c i arg1 harg1 arg2 harg2 arg3 harg3 arg4 harg4 arg5 harg5 arg6 harg6 arg7 harg7 arg8 harg8 arg9 harg9 arg10 harg10 hc0 hc1 hc2 hc3 x0 x1).1 S1024x128.size (by sl_kernel_rfl) y

theorem coverAccum (c : Dev nD) (i : grid0.Coords) (arg1 : Memref sig .tc .vmem S2000x1024 .f32) (harg1 : arg1.IsWhole) (arg2 : Memref sig .tc .vmem S2000x128 .f32) (harg2 : arg2.IsWhole) (arg3 : Memref sig .tc .vmem S128x256 .bf16) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S2000x256 .f32) (harg8 : arg8.IsWhole) (arg9 : Memref sig .tc .vmem S1024x128 .f32) (harg9 : arg9.IsWhole) (arg10 : Memref sig .tc .vmem S1024x256 .bf16) (harg10 : arg10.IsWhole) (hc0 : ¬cond0_0 i) (hc1 : cond0_1 i) (hc2 : ¬cond0_2 i) (hc3 : ¬cond0_3 i)
    (x0 : Vec F S2000x1024 .f32) (x1 : Vec F S2000x128 .f32) (xs0 : Vec F S1024x128 .f32) (y : S1024x128.Idx) :
    ∃ pc ∈ (runAccum c i arg1 harg1 arg2 harg2 arg3 harg3 arg4 harg4 arg5 harg5 arg6 harg6 arg7 harg7 arg8 harg8 arg9 harg9 arg10 harg10 hc0 hc1 hc2 hc3 x0 x1 xs0).1, y ∈ pc.1.set :=
  View.cover_of_tiledL (runAccum c i arg1 harg1 arg2 harg2 arg3 harg3 arg4 harg4 arg5 harg5 arg6 harg6 arg7 harg7 arg8 harg8 arg9 harg9 arg10 harg10 hc0 hc1 hc2 hc3 x0 x1 xs0).1 S1024x128.size (by sl_kernel_rfl) y

theorem coverMidAcc (c : Dev nD) (i : grid0.Coords) (arg1 : Memref sig .tc .vmem S2000x1024 .f32) (harg1 : arg1.IsWhole) (arg2 : Memref sig .tc .vmem S2000x128 .f32) (harg2 : arg2.IsWhole) (arg3 : Memref sig .tc .vmem S128x256 .bf16) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S2000x256 .f32) (harg8 : arg8.IsWhole) (arg9 : Memref sig .tc .vmem S1024x128 .f32) (harg9 : arg9.IsWhole) (arg10 : Memref sig .tc .vmem S1024x256 .bf16) (harg10 : arg10.IsWhole) (hc0 : ¬cond0_0 i) (hc1 : cond0_1 i) (hc2 : cond0_2 i) (hc3 : ¬cond0_3 i)
    (x0 : Vec F S2000x1024 .f32) (x1 : Vec F S2000x128 .f32) (x2 : Vec F S128x256 .bf16) (x3 : Vec F S1x256 .f32) (x4 : Vec F S1x256 .f32) (xs0 : Vec F S1024x128 .f32) (y : S1024x128.Idx) :
    ∃ pc ∈ (runMid c i arg1 harg1 arg2 harg2 arg3 harg3 arg4 harg4 arg5 harg5 arg6 harg6 arg7 harg7 arg8 harg8 arg9 harg9 arg10 harg10 hc0 hc1 hc2 hc3 x0 x1 x2 x3 x4 xs0).1.1, y ∈ pc.1.set :=
  View.cover_of_tiledL (runMid c i arg1 harg1 arg2 harg2 arg3 harg3 arg4 harg4 arg5 harg5 arg6 harg6 arg7 harg7 arg8 harg8 arg9 harg9 arg10 harg10 hc0 hc1 hc2 hc3 x0 x1 x2 x3 x4 xs0).1.1 S1024x128.size (by sl_kernel_rfl) y

theorem coverMidLat (c : Dev nD) (i : grid0.Coords) (arg1 : Memref sig .tc .vmem S2000x1024 .f32) (harg1 : arg1.IsWhole) (arg2 : Memref sig .tc .vmem S2000x128 .f32) (harg2 : arg2.IsWhole) (arg3 : Memref sig .tc .vmem S128x256 .bf16) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S2000x256 .f32) (harg8 : arg8.IsWhole) (arg9 : Memref sig .tc .vmem S1024x128 .f32) (harg9 : arg9.IsWhole) (arg10 : Memref sig .tc .vmem S1024x256 .bf16) (harg10 : arg10.IsWhole) (hc0 : ¬cond0_0 i) (hc1 : cond0_1 i) (hc2 : cond0_2 i) (hc3 : ¬cond0_3 i)
    (x0 : Vec F S2000x1024 .f32) (x1 : Vec F S2000x128 .f32) (x2 : Vec F S128x256 .bf16) (x3 : Vec F S1x256 .f32) (x4 : Vec F S1x256 .f32) (xs0 : Vec F S1024x128 .f32) (y : S1024x256.Idx) :
    ∃ pc ∈ (runMid c i arg1 harg1 arg2 harg2 arg3 harg3 arg4 harg4 arg5 harg5 arg6 harg6 arg7 harg7 arg8 harg8 arg9 harg9 arg10 harg10 hc0 hc1 hc2 hc3 x0 x1 x2 x3 x4 xs0).1.2, y ∈ pc.1.set :=
  View.cover_of_tiledL (runMid c i arg1 harg1 arg2 harg2 arg3 harg3 arg4 harg4 arg5 harg5 arg6 harg6 arg7 harg7 arg8 harg8 arg9 harg9 arg10 harg10 hc0 hc1 hc2 hc3 x0 x1 x2 x3 x4 xs0).1.2 S1024x256.size (by sl_kernel_rfl) y

theorem coverSpread (c : Dev nD) (i : grid0.Coords) (arg1 : Memref sig .tc .vmem S2000x1024 .f32) (harg1 : arg1.IsWhole) (arg2 : Memref sig .tc .vmem S2000x128 .f32) (harg2 : arg2.IsWhole) (arg3 : Memref sig .tc .vmem S128x256 .bf16) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S2000x256 .f32) (harg8 : arg8.IsWhole) (arg9 : Memref sig .tc .vmem S1024x128 .f32) (harg9 : arg9.IsWhole) (arg10 : Memref sig .tc .vmem S1024x256 .bf16) (harg10 : arg10.IsWhole) (hc0 : ¬cond0_0 i) (hc1 : ¬cond0_1 i) (hc2 : ¬cond0_2 i) (hc3 : cond0_3 i)
    (x0 : Vec F S2000x1024 .f32) (x5 : Vec F S1x256 .f32) (x6 : Vec F S1x256 .f32) (xs1 : Vec F S1024x256 .bf16) (y : S2000x256.Idx) :
    ∃ pc ∈ (runSpread c i arg1 harg1 arg2 harg2 arg3 harg3 arg4 harg4 arg5 harg5 arg6 harg6 arg7 harg7 arg8 harg8 arg9 harg9 arg10 harg10 hc0 hc1 hc2 hc3 x0 x5 x6 xs1).1, y ∈ pc.1.set :=
  View.cover_of_tiledL (runSpread c i arg1 harg1 arg2 harg2 arg3 harg3 arg4 harg4 arg5 harg5 arg6 harg6 arg7 harg7 arg8 harg8 arg9 harg9 arg10 harg10 hc0 hc1 hc2 hc3 x0 x5 x6 xs1).1 S2000x256.size (by sl_kernel_rfl) y

end Cert.Kernel.Gen

end
-- ==== Proof.WordBody.Body.lean ====
/-
  The body obligation of the pipeline: at every grid point, from the region invariant and each window's
  staging buffer at what it then holds, the kernel body runs to the invariant of the next point and each
  buffer at what the proof data says the body leaves.  The point's number decides its case; in each case
  the case's run applies, the buffers it does not touch pass through, and each buffer it stores into is
  handed back at the canonical contents of the stores, which cover it.  At a point of the first half the
  result's staging buffer is idle and not written back: it is handed back exactly as it was found.
  Then the launch theorem gives the run of the whole program, and the frame claim's post follows from it.
-/
import proofs.«129456_g19327352832290_cont_8to1_132_5_alg».proof.Proof.WordBody.Steps
import proofs.«129456_g19327352832290_cont_8to1_132_5_alg».proof.Proof.WordBody.Covers

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, the windows one by one. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

/-- At a point of the first half the result's buffer is idle and not written back. -/
theorem leaves7_early (c : Dev nD) (t : Fin cfg0.N) (h : t.val < 25) :
    (dats m 0 c).leavesExact 7 t = iprop(∃ d, owns (c : Thread nD τ) (ms0_7 t) fullShare ((dats m 0 c).before 7 t d)) :=
  Dat.leavesExact_idle _ 7 t ((idle0_7 t).mpr h) (Bool.eq_false_iff.mpr fun hf => by have := (flush0_7 t).mp hf; omega)

/-- At a point of the second half the body stores the result's block. -/
theorem leaves7_late (c : Dev nD) (t : Fin cfg0.N) (h : 25 ≤ t.val) :
    (dats m 0 c).leavesExact 7 t = owns (c : Thread nD τ) (ms0_7 t) fullShare (outAt m c t) := by
  unfold Dat.leavesExact
  rw [show cfg0.idle 7 (grid0.coords t) = false from Bool.eq_false_iff.mpr fun hi => by have := (idle0_7 t).mp hi; omega, after0_7]

set_option maxHeartbeats 12800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl]
  rw [show (dats m 0 c).Φ t.succ = PhiS m c (t.val + 1) t.isLt from rfl, PhiS_succ]
  have hN : t.val < 50 := lt_of_lt_of_eq t.isLt N_eq
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  by_cases hA : t.val = 0
  · -- the first point
    rw [leaves7_early m c t (by omega), accAt_first m c t hA, latRes_early m c _ _ (by omega)]
    unfold accFirst
    rw [PhiS_castSucc m c t, PhiS_zero m c _ _ hA, PhiA0_eq]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, H7⟩
    iapply ((runFirst c (grid0.coords t) _ _ _ _ _ _ _ _ _ _ _ _ _ _ _ _ _ _ _ _ (c0_of hA) (c1_of (by omega)) (nc2_of (by omega)) (nc3_of (by omega)) (iblk m c 0 t) (iblk m c 1 t)).2 Set.univ _)
    isplitl [H0]; · iexact H0
    isplitl [H1]; · iexact H1
    isplitl [HS0]; · iexact HS0
    iintro ⟨H0, H1, ⟨%es0, HS0⟩⟩
    isplitl [HS0 HS1 Hg]
    · isplitl [HS0 HS1]
      · isplitl [HS0]
        · unfold owns; iexists _; isplitr
          swap; · iexact HS0
          ipureintro; exact View.read_writes_eq_canon _ _ _ (coverFirst c _ _ _ _ _ _ _ _ _ _ _ _ _ _ _ _ _ _ _ _ _ _ _ _ _ _ _)
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · by_cases hB : t.val < 24
    · -- a middle point of the first half
      rw [leaves7_early m c t (by omega), accAt_step m c t hA hB, latRes_early m c _ _ (by omega)]
      unfold accStep
      rw [PhiS_castSucc m c t, PhiS_pos m c _ _ hA, latRes_early m c _ _ (by omega)]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, H7⟩
      iapply ((runAccum c (grid0.coords t) _ _ _ _ _ _ _ _ _ _ _ _ _ _ _ _ _ _ _ _ (nc0_of hA) (c1_of (by omega)) (nc2_of (by omega)) (nc3_of (by omega)) (iblk m c 0 t) (iblk m c 1 t) (accAt m c (t.val - 1) (Nat.lt_of_le_of_lt (Nat.sub_le _ _) t.isLt))).2 Set.univ _)
      isplitl [H0]; · iexact H0
      isplitl [H1]; · iexact H1
      isplitl [HS0]; · iexact HS0
      iintro ⟨H0, H1, ⟨%es0, HS0⟩⟩
      isplitl [HS0 HS1 Hg]
      · isplitl [HS0 HS1]
        · isplitl [HS0]
          · unfold owns; iexists _; isplitr
            swap; · iexact HS0
            ipureintro; exact View.read_writes_eq_canon _ _ _ (coverAccum c _ _ _ _ _ _ _ _ _ _ _ _ _ _ _ _ _ _ _ _ _ _ _ _ _ _ _ _)
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · by_cases hC : t.val = 24
      · -- the last point of the first half
        rw [leaves7_early m c t (by omega), accAt_last m c t hC, latRes_late m c _ _ (by omega), latAt_mid m c t hC]
        unfold accLast latMid
        rw [PhiS_castSucc m c t, PhiS_pos m c _ _ hA, latRes_early m c _ _ (by omega)]
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, H7⟩
        iapply ((runMid c (grid0.coords t) _ _ _ _ _ _ _ _ _ _ _ _ _ _ _ _ _ _ _ _ (nc0_of hA) (c1_of (by omega)) (c2_of hC) (nc3_of (by omega)) (iblk m c 0 t) (iblk m c 1 t) (iblk m c 2 t) (iblk m c 3 t) (iblk m c 4 t) (accAt m c (t.val - 1) (Nat.lt_of_le_of_lt (Nat.sub_le _ _) t.isLt))).2 Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        iintro ⟨H0, H1, H2, H3, H4, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_eq_canon _ _ _ (coverMidAcc c _ _ _ _ _ _ _ _ _ _ _ _ _ _ _ _ _ _ _ _ _ _ _ _ _ _ _ _ _ _ _)
            unfold owns; iexists _; isplitr
            swap; · iexact HS1
            ipureintro; exact View.read_writes_eq_canon _ _ _ (coverMidLat c _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexact H7
      · -- a point of the second half
        have hD : 25 ≤ t.val := by omega
        rw [leaves7_late m c t hD, outAt_spread m c t hD, accAt_keep m c t hD, latRes_late m c _ _ (by omega), latAt_keep m c t hD]
        unfold outStep
        rw [PhiS_castSucc m c t, PhiS_pos m c _ _ hA, latRes_late m c _ _ (by omega)]
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((runSpread c (grid0.coords t) _ _ _ _ _ _ _ _ _ _ _ _ _ _ _ _ _ _ _ _ (nc0_of hA) (nc1_of (by omega)) (nc2_of (by omega)) (c3_of hD) (iblk m c 0 t) (iblk m c 5 t) (iblk m c 6 t) (latAt m c (t.val - 1) (Nat.lt_of_le_of_lt (Nat.sub_le _ _) t.isLt))).2 Set.univ _)
        isplitl [H0]; · iexact H0
        isplitl [H5]; · iexact H5
        isplitl [H6]; · iexact H6
        isplitl [HS1]; · iexact HS1
        isplitl [H7]; · iexists _; iexact H7
        iintro ⟨H0, H5, H6, HS1, ⟨%e7, H7⟩⟩
        isplitl [HS0 HS1 Hg]
        · isplitl [HS0 HS1]
          · isplitl [HS0]; · iexact HS0
            iexact HS1
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        unfold owns; iexists _; isplitr
        swap; · iexact H7
        ipureintro; exact View.read_writes_eq_canon _ _ _ (coverSpread c _ _ _ _ _ _ _ _ _ _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the class's back: the scratch buffers' named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  by_cases h : 24 ≤ t.val - 1
  · rw [latRes_late m c _ _ h]
    iintro ⟨⟨HS0, HS1⟩, Hg⟩
    isplitl [HS0 HS1]
    · isplitl [HS0]
      · iexists _; iexact HS0
      iexists _; iexact HS1
    iexact Hg
  · rw [latRes_early m c _ _ h]
    iintro ⟨⟨HS0, HS1⟩, Hg⟩
    isplitl [HS0 HS1]
    · isplitl [HS0]
      · iexists _; iexact HS0
      iexact HS1
    iexact Hg

theorem hout (c : Dev nD) : (dats m 0 c).Φ (Fin.last cfg0.N) ⊢ Pipeline.ΦA spec0 c :=
  Phi_out m c _ (by rw [Fin.val_last]; have : cfg0.N = 50 := N_eq; omega)

set_option backward.isDefEq.respectTransparency.types false in
/-- Every weakly fair execution of the program terminates, and every final state has every array of the
    pipeline at what the library computes from the proof data and every other unscoped buffer as the region
    found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame claim's post, at any instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

end Cert.Kernel.Gen

end
-- ==== Proof.IdealBody.Cases.lean ====
/-
  The grid has fifty points.  The body's four conditionals depend on the point alone, so each point is in
  one of four cases: the first point (the accumulator is zeroed, then the first block's product added), the
  points 1 to 23 (a block's product added), point 24 (the last block added, then the hidden rows computed
  from the finished accumulator), and the points 25 to 49 (one block of the result computed from the hidden
  rows).  Here: each condition as a fact about the point's number, when the result window is written back
  (exactly at the points of the last case) and where it is idle (exactly at the others), the staging
  buffers by name, and the region invariant split into the two scratch buffers and the generator register.
-/
import proofs.«129456_g19327352832290_cont_8to1_132_5_alg».proof.Proof.Gen.KernelIdeal.Frame
import proofs.«129456_g19327352832290_cont_8to1_132_5_alg».proof.Proof.Gen.KernelIdeal.Skeleton

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first conditional's condition: the point is the first. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val = 0 :=
  (by decide +kernel : ∀ t : Fin grid0.N, cond0_0 (grid0.coords t) ↔ t.val = 0)

/-- The second conditional's condition: the point is in the first half. -/
abbrev cond0_1 (i : grid0.Coords) : Prop := (Scalar.cmpi .ne (Scalar.extui (Scalar.cmpi .slt (BitVec.ofNat 32 (i 0).val) 25#32)) 0#32) = 1#1
theorem hcond0_1 : ∀ t : Fin cfg0.N, cond0_1 (grid0.coords t) ↔ t.val < 25 :=
  (by decide +kernel : ∀ t : Fin grid0.N, cond0_1 (grid0.coords t) ↔ t.val < 25)

/-- The third conditional's condition: the point is the last of the first half. -/
abbrev cond0_2 (i : grid0.Coords) : Prop := (Scalar.cmpi .ne (Scalar.extui (Scalar.cmpi .eq (BitVec.ofNat 32 (i 0).val) 24#32)) 0#32) = 1#1
theorem hcond0_2 : ∀ t : Fin cfg0.N, cond0_2 (grid0.coords t) ↔ t.val = 24 :=
  (by decide +kernel : ∀ t : Fin grid0.N, cond0_2 (grid0.coords t) ↔ t.val = 24)

/-- The fourth conditional's condition: the point is in the second half. -/
abbrev cond0_3 (i : grid0.Coords) : Prop := k0_cond4 i = 1#1
theorem hcond0_3 : ∀ t : Fin cfg0.N, cond0_3 (grid0.coords t) ↔ 25 ≤ t.val :=
  (by decide +kernel : ∀ t : Fin grid0.N, cond0_3 (grid0.coords t) ↔ 25 ≤ t.val)

/-- The result window is written back exactly after the points of the second half. -/
theorem flush0_7 : ∀ t : Fin cfg0.N, (cfg0.win 7).flush t = true ↔ 25 ≤ t.val :=
  (by decide +kernel : ∀ t : Fin grid0.N, win0_7.flush t = true ↔ 25 ≤ t.val)

/-- The result window is idle exactly at the points of the first half. -/
theorem idle0_7 : ∀ t : Fin cfg0.N, cfg0.idle 7 (grid0.coords t) = true ↔ t.val < 25 :=
  (by decide +kernel : ∀ t : Fin grid0.N, idle0 7 (grid0.coords t) = true ↔ t.val < 25)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel

/-- Each window's current staging buffer at a point, and that it is a whole buffer. -/
abbrev ms0_0 (t : Fin cfg0.N) : Memref sig .tc .vmem S2000x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2000x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x256 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S2000x256 .f32 := win0_7.stage (cfg0.slots t 7)
abbrev hs0_7 (t : Fin cfg0.N) : (ms0_7 t).IsWhole := hstage0_7 ((cfg0.slots t 7).cast nbuf0_7)

/-- The accumulator scratch and the hidden-rows scratch, as whole memrefs. -/
abbrev scM0_0 : Memref sig .tc .vmem S1024x128 .f32 := Memref.whole cc0_scratch0
abbrev scM0_1 : Memref sig .tc .vmem S1024x256 .bf16 := Memref.whole cc0_scratch1

/-- The region invariant at entry: each scratch buffer owned at some contents, and the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Gen

end
-- ==== Proof.IdealBody.RunFirst.lean ====
/-
  The body at the first point: the accumulator is stored whole with zeros, then read back, the first block's
  product added to it, and the sum stored whole.  The run needs the two streamed blocks and the accumulator
  scratch at any contents; it returns the blocks as they were and the accumulator with those two stores
  written, the later over the earlier.
-/
import proofs.«129456_g19327352832290_cont_8to1_132_5_alg».proof.Proof.IdealBody.Cases

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The stores the body leaves in the accumulator at the first point (last first), with the run that leaves them. -/
noncomputable def runFirst (c : Dev nD) (i : grid0.Coords) (arg1 : Memref sig .tc .vmem S2000x1024 .f32) (harg1 : arg1.IsWhole) (arg2 : Memref sig .tc .vmem S2000x128 .f32) (harg2 : arg2.IsWhole) (arg3 : Memref sig .tc .vmem S128x256 .bf16) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S2000x256 .f32) (harg8 : arg8.IsWhole) (arg9 : Memref sig .tc .vmem S1024x128 .f32) (harg9 : arg9.IsWhole) (arg10 : Memref sig .tc .vmem S1024x256 .bf16) (harg10 : arg10.IsWhole) (hc0 : cond0_0 i) (hc1 : cond0_1 i) (hc2 : ¬cond0_2 i) (hc3 : ¬cond0_3 i)
    (x0 : Vec F S2000x1024 .f32) (x1 : Vec F S2000x128 .f32) :
    { LS0 : List (View.Piece (Elt F) S1024x128 .f32) //
      ∀ (E : Set ℕ) (K : PUnit → sProp 𝕄),
        iprop(owns (c : Thread nD τ) arg1 fullShare x0 ∗ owns (c : Thread nD τ) arg2 fullShare x1 ∗ (∃ d, owns (c : Thread nD τ) arg9 fullShare d)
            ∗ (iprop(owns (c : Thread nD τ) arg1 fullShare x0 ∗ owns (c : Thread nD τ) arg2 fullShare x1 ∗ (∃ f, arg9.view.loc (c : Thread nD τ) ↦[arg9.view.set]{fullShare} arg9.view.writes (Elt F) f LS0)) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10) K } := by
  refine ⟨?_, fun E K => ?run⟩
  case run =>
    simp only [cc0__fused_kernel_eq_skeleton]; unfold cc0__fused_kernel_skel
    unfold owns
    iintro ⟨⟨%f0, %hf0, H0⟩, ⟨%f1, %hf1, H1⟩, ⟨%ds0, %fs0, -, HS0⟩, Hk⟩
    obtain rfl := harg1.eq_unread hf0; obtain rfl := harg2.eq_unread hf1
    sl_exec (disch := first | exact hc0 | exact hc1 | exact hc2 | exact hc3)
    sl_step
    iapply Hk
    isplitl [H0]
    · iexists _; isplitr; · ipureintro; exact harg1.read_unread _
      iexact H0
    isplitl [H1]
    · iexists _; isplitr; · ipureintro; exact harg2.read_unread _
      iexact H1
    iexists _; iexact HS0

end Cert.KernelIdeal.Gen

end
-- ==== Proof.IdealBody.RunAccum.lean ====
/-
  The body at a point of the first half other than the first and the last: the accumulator is read, the
  point's block product added to it, and the sum stored whole.  The run needs the two streamed blocks and
  the accumulator at the contents the point before left; it returns the blocks as they were and the
  accumulator with that one store written.
-/
import proofs.«129456_g19327352832290_cont_8to1_132_5_alg».proof.Proof.IdealBody.Cases

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The store the body leaves in the accumulator at a middle point of the first half, with the run that leaves it. -/
noncomputable def runAccum (c : Dev nD) (i : grid0.Coords) (arg1 : Memref sig .tc .vmem S2000x1024 .f32) (harg1 : arg1.IsWhole) (arg2 : Memref sig .tc .vmem S2000x128 .f32) (harg2 : arg2.IsWhole) (arg3 : Memref sig .tc .vmem S128x256 .bf16) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S2000x256 .f32) (harg8 : arg8.IsWhole) (arg9 : Memref sig .tc .vmem S1024x128 .f32) (harg9 : arg9.IsWhole) (arg10 : Memref sig .tc .vmem S1024x256 .bf16) (harg10 : arg10.IsWhole) (hc0 : ¬cond0_0 i) (hc1 : cond0_1 i) (hc2 : ¬cond0_2 i) (hc3 : ¬cond0_3 i)
    (x0 : Vec F S2000x1024 .f32) (x1 : Vec F S2000x128 .f32) (xs0 : Vec F S1024x128 .f32) :
    { LS0 : List (View.Piece (Elt F) S1024x128 .f32) //
      ∀ (E : Set ℕ) (K : PUnit → sProp 𝕄),
        iprop(owns (c : Thread nD τ) arg1 fullShare x0 ∗ owns (c : Thread nD τ) arg2 fullShare x1 ∗ owns (c : Thread nD τ) arg9 fullShare xs0
            ∗ (iprop(owns (c : Thread nD τ) arg1 fullShare x0 ∗ owns (c : Thread nD τ) arg2 fullShare x1 ∗ (∃ f, arg9.view.loc (c : Thread nD τ) ↦[arg9.view.set]{fullShare} arg9.view.writes (Elt F) f LS0)) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10) K } := by
  refine ⟨?_, fun E K => ?run⟩
  case run =>
    simp only [cc0__fused_kernel_eq_skeleton]; unfold cc0__fused_kernel_skel
    unfold owns
    iintro ⟨⟨%f0, %hf0, H0⟩, ⟨%f1, %hf1, H1⟩, ⟨%fs0, %hfs0, HS0⟩, Hk⟩
    obtain rfl := harg1.eq_unread hf0; obtain rfl := harg2.eq_unread hf1; obtain rfl := harg9.eq_unread hfs0
    sl_exec (disch := first | exact hc0 | exact hc1 | exact hc2 | exact hc3)
    sl_step
    iapply Hk
    isplitl [H0]
    · iexists _; isplitr; · ipureintro; exact harg1.read_unread _
      iexact H0
    isplitl [H1]
    · iexists _; isplitr; · ipureintro; exact harg2.read_unread _
      iexact H1
    iexists _; iexact HS0

end Cert.KernelIdeal.Gen

end
-- ==== Proof.IdealBody.RunMid.lean ====
/-
  The body at the last point of the first half: the accumulator is read, the last block's product added and
  the sum stored whole; then the finished accumulator is read back, multiplied by the weight, normalised row
  by row with the first gain and bias, and stored whole into the hidden-rows scratch.  The run needs the two
  streamed blocks, the weight, the first gain and bias, the accumulator at what the point before left and
  the hidden-rows scratch at any contents; it returns the inputs as they were and each scratch with its
  store written.
-/
import proofs.«129456_g19327352832290_cont_8to1_132_5_alg».proof.Proof.IdealBody.Cases

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The stores the body leaves in the accumulator and in the hidden-rows scratch at point 24, with the run. -/
noncomputable def runMid (c : Dev nD) (i : grid0.Coords) (arg1 : Memref sig .tc .vmem S2000x1024 .f32) (harg1 : arg1.IsWhole) (arg2 : Memref sig .tc .vmem S2000x128 .f32) (harg2 : arg2.IsWhole) (arg3 : Memref sig .tc .vmem S128x256 .bf16) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S2000x256 .f32) (harg8 : arg8.IsWhole) (arg9 : Memref sig .tc .vmem S1024x128 .f32) (harg9 : arg9.IsWhole) (arg10 : Memref sig .tc .vmem S1024x256 .bf16) (harg10 : arg10.IsWhole) (hc0 : ¬cond0_0 i) (hc1 : cond0_1 i) (hc2 : cond0_2 i) (hc3 : ¬cond0_3 i)
    (x0 : Vec F S2000x1024 .f32) (x1 : Vec F S2000x128 .f32) (x2 : Vec F S128x256 .bf16) (x3 : Vec F S1x256 .f32) (x4 : Vec F S1x256 .f32) (xs0 : Vec F S1024x128 .f32) :
    { LS : List (View.Piece (Elt F) S1024x128 .f32) × List (View.Piece (Elt F) S1024x256 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg9 fullShare xs0 ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg9.view.loc (c : Thread nD τ) ↦[arg9.view.set]{fullShare} arg9.view.writes (Elt F) f LS.1) ∗ (∃ f, arg10.view.loc (c : Thread nD τ) ↦[arg10.view.set]{fullShare} arg10.view.writes (Elt F) f LS.2)) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10) K } := by
  refine ⟨⟨?_, ?_⟩, fun E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg9.eq_unread hfs0
    sl_exec (disch := first | exact hc0 | exact hc1 | exact hc2 | exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [HS0]; · iexists _; iexact HS0
    iexists _; iexact HS1

end Cert.KernelIdeal.Gen

end
-- ==== Proof.IdealBody.RunSpread.lean ====
/-
  The body at a point of the second half: the point's block of the incidence matrix is multiplied by the
  hidden rows, normalised row by row with the second gain and bias, rectified, and stored whole into the
  result's staging buffer.  The run needs that block, the second gain and bias, the hidden-rows scratch at
  its contents and the result's buffer at any contents; it returns the inputs and the hidden rows as they
  were and the result's buffer with that one store written.
-/
import proofs.«129456_g19327352832290_cont_8to1_132_5_alg».proof.Proof.IdealBody.Cases

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The store the body leaves in the result's staging buffer at a point of the second half, with the run. -/
noncomputable def runSpread (c : Dev nD) (i : grid0.Coords) (arg1 : Memref sig .tc .vmem S2000x1024 .f32) (harg1 : arg1.IsWhole) (arg2 : Memref sig .tc .vmem S2000x128 .f32) (harg2 : arg2.IsWhole) (arg3 : Memref sig .tc .vmem S128x256 .bf16) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S2000x256 .f32) (harg8 : arg8.IsWhole) (arg9 : Memref sig .tc .vmem S1024x128 .f32) (harg9 : arg9.IsWhole) (arg10 : Memref sig .tc .vmem S1024x256 .bf16) (harg10 : arg10.IsWhole) (hc0 : ¬cond0_0 i) (hc1 : ¬cond0_1 i) (hc2 : ¬cond0_2 i) (hc3 : cond0_3 i)
    (x0 : Vec F S2000x1024 .f32) (x5 : Vec F S1x256 .f32) (x6 : Vec F S1x256 .f32) (xs1 : Vec F S1024x256 .bf16) :
    { LO : List (View.Piece (Elt F) S2000x256 .f32) //
      ∀ (E : Set ℕ) (K : PUnit → sProp 𝕄),
        iprop(owns (c : Thread nD τ) arg1 fullShare x0 ∗ owns (c : Thread nD τ) arg6 fullShare x5 ∗ owns (c : Thread nD τ) arg7 fullShare x6 ∗ owns (c : Thread nD τ) arg10 fullShare xs1 ∗ (∃ d, owns (c : Thread nD τ) arg8 fullShare d)
            ∗ (iprop(owns (c : Thread nD τ) arg1 fullShare x0 ∗ owns (c : Thread nD τ) arg6 fullShare x5 ∗ owns (c : Thread nD τ) arg7 fullShare x6 ∗ owns (c : Thread nD τ) arg10 fullShare xs1 ∗ (∃ f, arg8.view.loc (c : Thread nD τ) ↦[arg8.view.set]{fullShare} arg8.view.writes (Elt F) f LO)) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10) K } := by
  refine ⟨?_, fun E K => ?run⟩
  case run =>
    simp only [cc0__fused_kernel_eq_skeleton]; unfold cc0__fused_kernel_skel
    unfold owns
    iintro ⟨⟨%f0, %hf0, H0⟩, ⟨%f5, %hf5, H5⟩, ⟨%f6, %hf6, H6⟩, ⟨%fs1, %hfs1, HS1⟩, ⟨%d7, %f7, -, H7⟩, Hk⟩
    obtain rfl := harg1.eq_unread hf0; obtain rfl := harg6.eq_unread hf5; obtain rfl := harg7.eq_unread hf6; obtain rfl := harg10.eq_unread hfs1
    sl_exec (disch := first | exact hc0 | exact hc1 | exact hc2 | exact hc3)
    sl_step
    iapply Hk
    isplitl [H0]
    · iexists _; isplitr; · ipureintro; exact harg1.read_unread _
      iexact H0
    isplitl [H5]
    · iexists _; isplitr; · ipureintro; exact harg6.read_unread _
      iexact H5
    isplitl [H6]
    · iexists _; isplitr; · ipureintro; exact harg7.read_unread _
      iexact H6
    isplitl [HS1]
    · iexists _; isplitr; · ipureintro; exact harg10.read_unread _
      iexact HS1
    iexists _; iexact H7

end Cert.KernelIdeal.Gen

end
-- ==== Proof.IdealBody.Steps.lean ====
/-
  What the two scratch buffers and the result's staging buffer hold after each grid point, and the proof
  data of the pipeline built from it.

  The accumulator after point n (`accAt`): at the first point what the first case's stores leave; at a
  later point of the first half what that point's case leaves over the contents the point before left; in
  the second half it is no longer written, so it keeps what point 24 left.  The hidden rows (`latAt`) are
  written once, at point 24, from the finished accumulator, and kept; before that the scratch holds
  whatever it held at entry, which nothing names — the invariant owns it at some contents until then.
  The result's block at a point of the second half (`outAt`) is what that case's one store leaves.

  Each of these is the canonical contents of the case's list of stores: what the stores leave reads as
  that whatever the buffer held, because in every case the stores cover the whole buffer.
-/
import proofs.«129456_g19327352832290_cont_8to1_132_5_alg».proof.Proof.IdealBody.RunFirst
import proofs.«129456_g19327352832290_cont_8to1_132_5_alg».proof.Proof.IdealBody.RunAccum
import proofs.«129456_g19327352832290_cont_8to1_132_5_alg».proof.Proof.IdealBody.RunMid
import proofs.«129456_g19327352832290_cont_8to1_132_5_alg».proof.Proof.IdealBody.RunSpread

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The grid has fifty points. -/
theorem N_eq : cfg0.N = 50 := N_0

/-! ## The cases' hypotheses from a point's number -/

theorem c0_of {t : Fin cfg0.N} (h : t.val = 0) : cond0_0 (grid0.coords t) := (hcond0_0 t).mpr h
theorem nc0_of {t : Fin cfg0.N} (h : t.val ≠ 0) : ¬cond0_0 (grid0.coords t) := fun h' => h ((hcond0_0 t).mp h')
theorem c1_of {t : Fin cfg0.N} (h : t.val < 25) : cond0_1 (grid0.coords t) := (hcond0_1 t).mpr h
theorem nc1_of {t : Fin cfg0.N} (h : ¬t.val < 25) : ¬cond0_1 (grid0.coords t) := fun h' => h ((hcond0_1 t).mp h')
theorem c2_of {t : Fin cfg0.N} (h : t.val = 24) : cond0_2 (grid0.coords t) := (hcond0_2 t).mpr h
theorem nc2_of {t : Fin cfg0.N} (h : t.val ≠ 24) : ¬cond0_2 (grid0.coords t) := fun h' => h ((hcond0_2 t).mp h')
theorem c3_of {t : Fin cfg0.N} (h : 25 ≤ t.val) : cond0_3 (grid0.coords t) := (hcond0_3 t).mpr h
theorem nc3_of {t : Fin cfg0.N} (h : ¬25 ≤ t.val) : ¬cond0_3 (grid0.coords t) := fun h' => h ((hcond0_3 t).mp h')

/-! ## What each case leaves, at a point -/

/-- The accumulator after the first point. -/
def accFirst (c : Dev nD) (t : Fin cfg0.N) (h : t.val = 0) : Vec F S1024x128 .f32 :=
  View.canon (runFirst c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (c0_of h) (c1_of (by omega)) (nc2_of (by omega)) (nc3_of (by omega)) (iblk m c 0 t) (iblk m c 1 t)).1

/-- The accumulator after a middle point of the first half, over what the point before left (`xs`). -/
def accStep (c : Dev nD) (t : Fin cfg0.N) (h0 : t.val ≠ 0) (h1 : t.val < 24) (xs : Vec F S1024x128 .f32) : Vec F S1024x128 .f32 :=
  View.canon (runAccum c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (nc0_of h0) (c1_of (by omega)) (nc2_of (by omega)) (nc3_of (by omega)) (iblk m c 0 t) (iblk m c 1 t) xs).1

/-- The accumulator after point 24, over what point 23 left (`xs`). -/
def accLast (c : Dev nD) (t : Fin cfg0.N) (h : t.val = 24) (xs : Vec F S1024x128 .f32) : Vec F S1024x128 .f32 :=
  View.canon (runMid c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (nc0_of (by omega)) (c1_of (by omega)) (c2_of h) (nc3_of (by omega)) (iblk m c 0 t) (iblk m c 1 t) (iblk m c 2 t) (iblk m c 3 t) (iblk m c 4 t) xs).1.1

/-- The hidden rows after point 24, the accumulator having held `xs` after point 23. -/
def latMid (c : Dev nD) (t : Fin cfg0.N) (h : t.val = 24) (xs : Vec F S1024x128 .f32) : Vec F S1024x256 .bf16 :=
  View.canon (runMid c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (nc0_of (by omega)) (c1_of (by omega)) (c2_of h) (nc3_of (by omega)) (iblk m c 0 t) (iblk m c 1 t) (iblk m c 2 t) (iblk m c 3 t) (iblk m c 4 t) xs).1.2

/-- The result's block after a point of the second half, the hidden rows being `xl`. -/
def outStep (c : Dev nD) (t : Fin cfg0.N) (h : 25 ≤ t.val) (xl : Vec F S1024x256 .bf16) : Vec F S2000x256 .f32 :=
  View.canon (runSpread c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (nc0_of (by omega)) (nc1_of (by omega)) (nc2_of (by omega)) (c3_of h) (iblk m c 0 t) (iblk m c 5 t) (iblk m c 6 t) xl).1

/-! ## Point by point -/

/-- What the accumulator holds after the point numbered `n`. -/
def accAt (c : Dev nD) : (n : ℕ) → n < cfg0.N → Vec F S1024x128 .f32
  | 0, hn => accFirst m c ⟨0, hn⟩ rfl
  | n + 1, hn =>
    if h1 : n + 1 < 24 then accStep m c ⟨n + 1, hn⟩ (Nat.succ_ne_zero n) h1 (accAt c n (Nat.lt_of_succ_lt hn))
    else if h2 : n + 1 = 24 then accLast m c ⟨n + 1, hn⟩ h2 (accAt c n (Nat.lt_of_succ_lt hn))
    else accAt c n (Nat.lt_of_succ_lt hn)

theorem accAt_first (c : Dev nD) (t : Fin cfg0.N) (h : t.val = 0) : accAt m c t.val t.isLt = accFirst m c t h := by
  obtain ⟨n, hn⟩ := t
  cases n with
  | zero => rfl
  | succ n => exact absurd h (Nat.succ_ne_zero n)

theorem accAt_step (c : Dev nD) (t : Fin cfg0.N) (h0 : t.val ≠ 0) (h1 : t.val < 24) :
    accAt m c t.val t.isLt = accStep m c t h0 h1 (accAt m c (t.val - 1) (Nat.lt_of_le_of_lt (Nat.sub_le _ _) t.isLt)) := by
  obtain ⟨n, hn⟩ := t
  cases n with
  | zero => exact absurd rfl h0
  | succ n => exact (dif_pos h1).trans rfl

theorem accAt_last (c : Dev nD) (t : Fin cfg0.N) (h : t.val = 24) :
    accAt m c t.val t.isLt = accLast m c t h (accAt m c (t.val - 1) (Nat.lt_of_le_of_lt (Nat.sub_le _ _) t.isLt)) := by
  obtain ⟨n, hn⟩ := t
  cases n with
  | zero => exact absurd (show (0 : ℕ) = 24 from h) (by omega)
  | succ n => exact (dif_neg (show ¬n + 1 < 24 from fun h' => by have : n + 1 = 24 := h; omega)).trans ((dif_pos h).trans rfl)

theorem accAt_keep (c : Dev nD) (t : Fin cfg0.N) (h : 25 ≤ t.val) :
    accAt m c t.val t.isLt = accAt m c (t.val - 1) (Nat.lt_of_le_of_lt (Nat.sub_le _ _) t.isLt) := by
  obtain ⟨n, hn⟩ := t
  cases n with
  | zero => exact absurd (show 25 ≤ (0 : ℕ) from h) (by omega)
  | succ n =>
    have h' : 25 ≤ n + 1 := h
    exact (dif_neg (show ¬n + 1 < 24 by omega)).trans ((dif_neg (show ¬n + 1 = 24 by omega)).trans rfl)

/-- What the hidden-rows scratch holds after the point numbered `n`, from point 24 on (before that the
    value stated here is not used: the scratch still holds its entry contents). -/
def latAt (c : Dev nD) : (n : ℕ) → n < cfg0.N → Vec F S1024x256 .bf16
  | 0, _ => fun _ => Classical.choice (Elt.nonempty F _)
  | n + 1, hn =>
    if h2 : n + 1 = 24 then latMid m c ⟨n + 1, hn⟩ h2 (accAt m c n (Nat.lt_of_succ_lt hn))
    else latAt c n (Nat.lt_of_succ_lt hn)

theorem latAt_mid (c : Dev nD) (t : Fin cfg0.N) (h : t.val = 24) :
    latAt m c t.val t.isLt = latMid m c t h (accAt m c (t.val - 1) (Nat.lt_of_le_of_lt (Nat.sub_le _ _) t.isLt)) := by
  obtain ⟨n, hn⟩ := t
  cases n with
  | zero => exact absurd (show (0 : ℕ) = 24 from h) (by omega)
  | succ n => exact (dif_pos h).trans rfl

theorem latAt_keep (c : Dev nD) (t : Fin cfg0.N) (h : 25 ≤ t.val) :
    latAt m c t.val t.isLt = latAt m c (t.val - 1) (Nat.lt_of_le_of_lt (Nat.sub_le _ _) t.isLt) := by
  obtain ⟨n, hn⟩ := t
  cases n with
  | zero => exact absurd (show 25 ≤ (0 : ℕ) from h) (by omega)
  | succ n =>
    have h' : 25 ≤ n + 1 := h
    exact (dif_neg (show ¬n + 1 = 24 by omega)).trans rfl

/-- What the result's staging buffer holds after the body at point `t` of the second half (at a point of
    the first half the body leaves that buffer alone, and the value stated here is not used). -/
def outAt (c : Dev nD) (t : Fin cfg0.N) : Vec F S2000x256 .f32 :=
  if h : 25 ≤ t.val then outStep m c t h (latAt m c (t.val - 1) (Nat.lt_of_le_of_lt (Nat.sub_le _ _) t.isLt))
  else fun _ => Classical.choice (Elt.nonempty F _)

theorem outAt_spread (c : Dev nD) (t : Fin cfg0.N) (h : 25 ≤ t.val) :
    outAt m c t = outStep m c t h (latAt m c (t.val - 1) (Nat.lt_of_le_of_lt (Nat.sub_le _ _) t.isLt)) := dif_pos h

/-! ## The region invariant -/

/-- The hidden-rows scratch before the point numbered `n + 1`: named from point 24 on, at some contents before. -/
def latRes (c : Dev nD) (n : ℕ) (hn : n < cfg0.N) : sProp 𝕄 :=
  if 24 ≤ n then owns (c : Thread nD τ) scM0_1 fullShare (latAt m c n hn) else iprop(∃ d, owns (c : Thread nD τ) scM0_1 fullShare d)

theorem latRes_early (c : Dev nD) (n : ℕ) (hn : n < cfg0.N) (h : ¬24 ≤ n) :
    latRes m c n hn = iprop(∃ d, owns (c : Thread nD τ) scM0_1 fullShare d) := if_neg h

theorem latRes_late (c : Dev nD) (n : ℕ) (hn : n < cfg0.N) (h : 24 ≤ n) :
    latRes m c n hn = owns (c : Thread nD τ) scM0_1 fullShare (latAt m c n hn) := if_pos h

/-- The region invariant before the point numbered `n`: at entry the class's (each scratch at anything);
    afterwards the accumulator at what the point before left, the hidden rows by `latRes`, and the
    generator register at some state. -/
def PhiS (c : Dev nD) : (n : ℕ) → n ≤ cfg0.N → sProp 𝕄
  | 0, _ => Pipeline.ΦA spec0 c
  | n + 1, hn => iprop(iprop(owns (c : Thread nD τ) scM0_0 fullShare (accAt m c n hn) ∗ latRes m c n hn) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (accAt m c n hn) ∗ latRes m c n hn) ∗ (∃ r, prngReg c r)) := rfl

theorem PhiS_pos (c : Dev nD) (n : ℕ) (h : n ≤ cfg0.N) (hz : n ≠ 0) :
    PhiS m c n h = iprop(iprop(owns (c : Thread nD τ) scM0_0 fullShare (accAt m c (n - 1) (by omega)) ∗ latRes m c (n - 1) (by omega)) ∗ (∃ r, prngReg c r)) := by
  cases n with
  | zero => exact absurd rfl hz
  | succ n => rfl

/-! ## The pipeline's proof data -/

/-- The proof data of the one pipeline on core `c`: the arrays as the region finds them; after the body at a
    point each input's buffer at its block and the result's at `outAt`; the invariant `PhiS`; nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = outAt m c t := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

end Cert.KernelIdeal.Gen

end
-- ==== Proof.IdealBody.Covers.lean ====
/-
  In each case the stores the body leaves in a buffer cover that buffer whole (each store is of the whole
  buffer), so what they leave is their canonical contents whatever the buffer held.
-/
import proofs.«129456_g19327352832290_cont_8to1_132_5_alg».proof.Proof.IdealBody.RunFirst
import proofs.«129456_g19327352832290_cont_8to1_132_5_alg».proof.Proof.IdealBody.RunAccum
import proofs.«129456_g19327352832290_cont_8to1_132_5_alg».proof.Proof.IdealBody.RunMid
import proofs.«129456_g19327352832290_cont_8to1_132_5_alg».proof.Proof.IdealBody.RunSpread

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem coverFirst (c : Dev nD) (i : grid0.Coords) (arg1 : Memref sig .tc .vmem S2000x1024 .f32) (harg1 : arg1.IsWhole) (arg2 : Memref sig .tc .vmem S2000x128 .f32) (harg2 : arg2.IsWhole) (arg3 : Memref sig .tc .vmem S128x256 .bf16) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S2000x256 .f32) (harg8 : arg8.IsWhole) (arg9 : Memref sig .tc .vmem S1024x128 .f32) (harg9 : arg9.IsWhole) (arg10 : Memref sig .tc .vmem S1024x256 .bf16) (harg10 : arg10.IsWhole) (hc0 : cond0_0 i) (hc1 : cond0_1 i) (hc2 : ¬cond0_2 i) (hc3 : ¬cond0_3 i)
    (x0 : Vec F S2000x1024 .f32) (x1 : Vec F S2000x128 .f32) (y : S1024x128.Idx) :
    ∃ pc ∈ (runFirst c i arg1 harg1 arg2 harg2 arg3 harg3 arg4 harg4 arg5 harg5 arg6 harg6 arg7 harg7 arg8 harg8 arg9 harg9 arg10 harg10 hc0 hc1 hc2 hc3 x0 x1).1, y ∈ pc.1.set :=
  View.cover_of_tiledL (runFirst c i arg1 harg1 arg2 harg2 arg3 harg3 arg4 harg4 arg5 harg5 arg6 harg6 arg7 harg7 arg8 harg8 arg9 harg9 arg10 harg10 hc0 hc1 hc2 hc3 x0 x1).1 S1024x128.size (by sl_kernel_rfl) y

theorem coverAccum (c : Dev nD) (i : grid0.Coords) (arg1 : Memref sig .tc .vmem S2000x1024 .f32) (harg1 : arg1.IsWhole) (arg2 : Memref sig .tc .vmem S2000x128 .f32) (harg2 : arg2.IsWhole) (arg3 : Memref sig .tc .vmem S128x256 .bf16) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S2000x256 .f32) (harg8 : arg8.IsWhole) (arg9 : Memref sig .tc .vmem S1024x128 .f32) (harg9 : arg9.IsWhole) (arg10 : Memref sig .tc .vmem S1024x256 .bf16) (harg10 : arg10.IsWhole) (hc0 : ¬cond0_0 i) (hc1 : cond0_1 i) (hc2 : ¬cond0_2 i) (hc3 : ¬cond0_3 i)
    (x0 : Vec F S2000x1024 .f32) (x1 : Vec F S2000x128 .f32) (xs0 : Vec F S1024x128 .f32) (y : S1024x128.Idx) :
    ∃ pc ∈ (runAccum c i arg1 harg1 arg2 harg2 arg3 harg3 arg4 harg4 arg5 harg5 arg6 harg6 arg7 harg7 arg8 harg8 arg9 harg9 arg10 harg10 hc0 hc1 hc2 hc3 x0 x1 xs0).1, y ∈ pc.1.set :=
  View.cover_of_tiledL (runAccum c i arg1 harg1 arg2 harg2 arg3 harg3 arg4 harg4 arg5 harg5 arg6 harg6 arg7 harg7 arg8 harg8 arg9 harg9 arg10 harg10 hc0 hc1 hc2 hc3 x0 x1 xs0).1 S1024x128.size (by sl_kernel_rfl) y

theorem coverMidAcc (c : Dev nD) (i : grid0.Coords) (arg1 : Memref sig .tc .vmem S2000x1024 .f32) (harg1 : arg1.IsWhole) (arg2 : Memref sig .tc .vmem S2000x128 .f32) (harg2 : arg2.IsWhole) (arg3 : Memref sig .tc .vmem S128x256 .bf16) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S2000x256 .f32) (harg8 : arg8.IsWhole) (arg9 : Memref sig .tc .vmem S1024x128 .f32) (harg9 : arg9.IsWhole) (arg10 : Memref sig .tc .vmem S1024x256 .bf16) (harg10 : arg10.IsWhole) (hc0 : ¬cond0_0 i) (hc1 : cond0_1 i) (hc2 : cond0_2 i) (hc3 : ¬cond0_3 i)
    (x0 : Vec F S2000x1024 .f32) (x1 : Vec F S2000x128 .f32) (x2 : Vec F S128x256 .bf16) (x3 : Vec F S1x256 .f32) (x4 : Vec F S1x256 .f32) (xs0 : Vec F S1024x128 .f32) (y : S1024x128.Idx) :
    ∃ pc ∈ (runMid c i arg1 harg1 arg2 harg2 arg3 harg3 arg4 harg4 arg5 harg5 arg6 harg6 arg7 harg7 arg8 harg8 arg9 harg9 arg10 harg10 hc0 hc1 hc2 hc3 x0 x1 x2 x3 x4 xs0).1.1, y ∈ pc.1.set :=
  View.cover_of_tiledL (runMid c i arg1 harg1 arg2 harg2 arg3 harg3 arg4 harg4 arg5 harg5 arg6 harg6 arg7 harg7 arg8 harg8 arg9 harg9 arg10 harg10 hc0 hc1 hc2 hc3 x0 x1 x2 x3 x4 xs0).1.1 S1024x128.size (by sl_kernel_rfl) y

theorem coverMidLat (c : Dev nD) (i : grid0.Coords) (arg1 : Memref sig .tc .vmem S2000x1024 .f32) (harg1 : arg1.IsWhole) (arg2 : Memref sig .tc .vmem S2000x128 .f32) (harg2 : arg2.IsWhole) (arg3 : Memref sig .tc .vmem S128x256 .bf16) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S2000x256 .f32) (harg8 : arg8.IsWhole) (arg9 : Memref sig .tc .vmem S1024x128 .f32) (harg9 : arg9.IsWhole) (arg10 : Memref sig .tc .vmem S1024x256 .bf16) (harg10 : arg10.IsWhole) (hc0 : ¬cond0_0 i) (hc1 : cond0_1 i) (hc2 : cond0_2 i) (hc3 : ¬cond0_3 i)
    (x0 : Vec F S2000x1024 .f32) (x1 : Vec F S2000x128 .f32) (x2 : Vec F S128x256 .bf16) (x3 : Vec F S1x256 .f32) (x4 : Vec F S1x256 .f32) (xs0 : Vec F S1024x128 .f32) (y : S1024x256.Idx) :
    ∃ pc ∈ (runMid c i arg1 harg1 arg2 harg2 arg3 harg3 arg4 harg4 arg5 harg5 arg6 harg6 arg7 harg7 arg8 harg8 arg9 harg9 arg10 harg10 hc0 hc1 hc2 hc3 x0 x1 x2 x3 x4 xs0).1.2, y ∈ pc.1.set :=
  View.cover_of_tiledL (runMid c i arg1 harg1 arg2 harg2 arg3 harg3 arg4 harg4 arg5 harg5 arg6 harg6 arg7 harg7 arg8 harg8 arg9 harg9 arg10 harg10 hc0 hc1 hc2 hc3 x0 x1 x2 x3 x4 xs0).1.2 S1024x256.size (by sl_kernel_rfl) y

theorem coverSpread (c : Dev nD) (i : grid0.Coords) (arg1 : Memref sig .tc .vmem S2000x1024 .f32) (harg1 : arg1.IsWhole) (arg2 : Memref sig .tc .vmem S2000x128 .f32) (harg2 : arg2.IsWhole) (arg3 : Memref sig .tc .vmem S128x256 .bf16) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S2000x256 .f32) (harg8 : arg8.IsWhole) (arg9 : Memref sig .tc .vmem S1024x128 .f32) (harg9 : arg9.IsWhole) (arg10 : Memref sig .tc .vmem S1024x256 .bf16) (harg10 : arg10.IsWhole) (hc0 : ¬cond0_0 i) (hc1 : ¬cond0_1 i) (hc2 : ¬cond0_2 i) (hc3 : cond0_3 i)
    (x0 : Vec F S2000x1024 .f32) (x5 : Vec F S1x256 .f32) (x6 : Vec F S1x256 .f32) (xs1 : Vec F S1024x256 .bf16) (y : S2000x256.Idx) :
    ∃ pc ∈ (runSpread c i arg1 harg1 arg2 harg2 arg3 harg3 arg4 harg4 arg5 harg5 arg6 harg6 arg7 harg7 arg8 harg8 arg9 harg9 arg10 harg10 hc0 hc1 hc2 hc3 x0 x5 x6 xs1).1, y ∈ pc.1.set :=
  View.cover_of_tiledL (runSpread c i arg1 harg1 arg2 harg2 arg3 harg3 arg4 harg4 arg5 harg5 arg6 harg6 arg7 harg7 arg8 harg8 arg9 harg9 arg10 harg10 hc0 hc1 hc2 hc3 x0 x5 x6 xs1).1 S2000x256.size (by sl_kernel_rfl) y

end Cert.KernelIdeal.Gen

end
-- ==== Proof.IdealBody.Body.lean ====
/-
  The body obligation of the pipeline: at every grid point, from the region invariant and each window's
  staging buffer at what it then holds, the kernel body runs to the invariant of the next point and each
  buffer at what the proof data says the body leaves.  The point's number decides its case; in each case
  the case's run applies, the buffers it does not touch pass through, and each buffer it stores into is
  handed back at the canonical contents of the stores, which cover it.  At a point of the first half the
  result's staging buffer is idle and not written back: it is handed back exactly as it was found.
  Then the launch theorem gives the run of the whole program, and the frame claim's post follows from it.
-/
import proofs.«129456_g19327352832290_cont_8to1_132_5_alg».proof.Proof.IdealBody.Steps
import proofs.«129456_g19327352832290_cont_8to1_132_5_alg».proof.Proof.IdealBody.Covers

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, the windows one by one. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

/-- At a point of the first half the result's buffer is idle and not written back. -/
theorem leaves7_early (c : Dev nD) (t : Fin cfg0.N) (h : t.val < 25) :
    (dats m 0 c).leavesExact 7 t = iprop(∃ d, owns (c : Thread nD τ) (ms0_7 t) fullShare ((dats m 0 c).before 7 t d)) :=
  Dat.leavesExact_idle _ 7 t ((idle0_7 t).mpr h) (Bool.eq_false_iff.mpr fun hf => by have := (flush0_7 t).mp hf; omega)

/-- At a point of the second half the body stores the result's block. -/
theorem leaves7_late (c : Dev nD) (t : Fin cfg0.N) (h : 25 ≤ t.val) :
    (dats m 0 c).leavesExact 7 t = owns (c : Thread nD τ) (ms0_7 t) fullShare (outAt m c t) := by
  unfold Dat.leavesExact
  rw [show cfg0.idle 7 (grid0.coords t) = false from Bool.eq_false_iff.mpr fun hi => by have := (idle0_7 t).mp hi; omega, after0_7]

set_option maxHeartbeats 12800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl]
  rw [show (dats m 0 c).Φ t.succ = PhiS m c (t.val + 1) t.isLt from rfl, PhiS_succ]
  have hN : t.val < 50 := lt_of_lt_of_eq t.isLt N_eq
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  by_cases hA : t.val = 0
  · -- the first point
    rw [leaves7_early m c t (by omega), accAt_first m c t hA, latRes_early m c _ _ (by omega)]
    unfold accFirst
    rw [PhiS_castSucc m c t, PhiS_zero m c _ _ hA, PhiA0_eq]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, H7⟩
    iapply ((runFirst c (grid0.coords t) _ _ _ _ _ _ _ _ _ _ _ _ _ _ _ _ _ _ _ _ (c0_of hA) (c1_of (by omega)) (nc2_of (by omega)) (nc3_of (by omega)) (iblk m c 0 t) (iblk m c 1 t)).2 Set.univ _)
    isplitl [H0]; · iexact H0
    isplitl [H1]; · iexact H1
    isplitl [HS0]; · iexact HS0
    iintro ⟨H0, H1, ⟨%es0, HS0⟩⟩
    isplitl [HS0 HS1 Hg]
    · isplitl [HS0 HS1]
      · isplitl [HS0]
        · unfold owns; iexists _; isplitr
          swap; · iexact HS0
          ipureintro; exact View.read_writes_eq_canon _ _ _ (coverFirst c _ _ _ _ _ _ _ _ _ _ _ _ _ _ _ _ _ _ _ _ _ _ _ _ _ _ _)
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · by_cases hB : t.val < 24
    · -- a middle point of the first half
      rw [leaves7_early m c t (by omega), accAt_step m c t hA hB, latRes_early m c _ _ (by omega)]
      unfold accStep
      rw [PhiS_castSucc m c t, PhiS_pos m c _ _ hA, latRes_early m c _ _ (by omega)]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, H7⟩
      iapply ((runAccum c (grid0.coords t) _ _ _ _ _ _ _ _ _ _ _ _ _ _ _ _ _ _ _ _ (nc0_of hA) (c1_of (by omega)) (nc2_of (by omega)) (nc3_of (by omega)) (iblk m c 0 t) (iblk m c 1 t) (accAt m c (t.val - 1) (Nat.lt_of_le_of_lt (Nat.sub_le _ _) t.isLt))).2 Set.univ _)
      isplitl [H0]; · iexact H0
      isplitl [H1]; · iexact H1
      isplitl [HS0]; · iexact HS0
      iintro ⟨H0, H1, ⟨%es0, HS0⟩⟩
      isplitl [HS0 HS1 Hg]
      · isplitl [HS0 HS1]
        · isplitl [HS0]
          · unfold owns; iexists _; isplitr
            swap; · iexact HS0
            ipureintro; exact View.read_writes_eq_canon _ _ _ (coverAccum c _ _ _ _ _ _ _ _ _ _ _ _ _ _ _ _ _ _ _ _ _ _ _ _ _ _ _ _)
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · by_cases hC : t.val = 24
      · -- the last point of the first half
        rw [leaves7_early m c t (by omega), accAt_last m c t hC, latRes_late m c _ _ (by omega), latAt_mid m c t hC]
        unfold accLast latMid
        rw [PhiS_castSucc m c t, PhiS_pos m c _ _ hA, latRes_early m c _ _ (by omega)]
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, H7⟩
        iapply ((runMid c (grid0.coords t) _ _ _ _ _ _ _ _ _ _ _ _ _ _ _ _ _ _ _ _ (nc0_of hA) (c1_of (by omega)) (c2_of hC) (nc3_of (by omega)) (iblk m c 0 t) (iblk m c 1 t) (iblk m c 2 t) (iblk m c 3 t) (iblk m c 4 t) (accAt m c (t.val - 1) (Nat.lt_of_le_of_lt (Nat.sub_le _ _) t.isLt))).2 Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        iintro ⟨H0, H1, H2, H3, H4, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_eq_canon _ _ _ (coverMidAcc c _ _ _ _ _ _ _ _ _ _ _ _ _ _ _ _ _ _ _ _ _ _ _ _ _ _ _ _ _ _ _)
            unfold owns; iexists _; isplitr
            swap; · iexact HS1
            ipureintro; exact View.read_writes_eq_canon _ _ _ (coverMidLat c _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexact H7
      · -- a point of the second half
        have hD : 25 ≤ t.val := by omega
        rw [leaves7_late m c t hD, outAt_spread m c t hD, accAt_keep m c t hD, latRes_late m c _ _ (by omega), latAt_keep m c t hD]
        unfold outStep
        rw [PhiS_castSucc m c t, PhiS_pos m c _ _ hA, latRes_late m c _ _ (by omega)]
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((runSpread c (grid0.coords t) _ _ _ _ _ _ _ _ _ _ _ _ _ _ _ _ _ _ _ _ (nc0_of hA) (nc1_of (by omega)) (nc2_of (by omega)) (c3_of hD) (iblk m c 0 t) (iblk m c 5 t) (iblk m c 6 t) (latAt m c (t.val - 1) (Nat.lt_of_le_of_lt (Nat.sub_le _ _) t.isLt))).2 Set.univ _)
        isplitl [H0]; · iexact H0
        isplitl [H5]; · iexact H5
        isplitl [H6]; · iexact H6
        isplitl [HS1]; · iexact HS1
        isplitl [H7]; · iexists _; iexact H7
        iintro ⟨H0, H5, H6, HS1, ⟨%e7, H7⟩⟩
        isplitl [HS0 HS1 Hg]
        · isplitl [HS0 HS1]
          · isplitl [HS0]; · iexact HS0
            iexact HS1
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        unfold owns; iexists _; isplitr
        swap; · iexact H7
        ipureintro; exact View.read_writes_eq_canon _ _ _ (coverSpread c _ _ _ _ _ _ _ _ _ _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the class's back: the scratch buffers' named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  by_cases h : 24 ≤ t.val - 1
  · rw [latRes_late m c _ _ h]
    iintro ⟨⟨HS0, HS1⟩, Hg⟩
    isplitl [HS0 HS1]
    · isplitl [HS0]
      · iexists _; iexact HS0
      iexists _; iexact HS1
    iexact Hg
  · rw [latRes_early m c _ _ h]
    iintro ⟨⟨HS0, HS1⟩, Hg⟩
    isplitl [HS0 HS1]
    · isplitl [HS0]
      · iexists _; iexact HS0
      iexact HS1
    iexact Hg

theorem hout (c : Dev nD) : (dats m 0 c).Φ (Fin.last cfg0.N) ⊢ Pipeline.ΦA spec0 c :=
  Phi_out m c _ (by rw [Fin.val_last]; have : cfg0.N = 50 := N_eq; omega)

set_option backward.isDefEq.respectTransparency.types false in
/-- Every weakly fair execution of the program terminates, and every final state has every array of the
    pipeline at what the library computes from the proof data and every other unscoped buffer as the region
    found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame claim's post, at any instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

end Cert.KernelIdeal.Gen

end
-- ==== Proof.KernelFrames.lean ====
/-
  The claims that need only the kernels' frames: the word-level kernel and its idealization each run to
  the end with their argument arrays unchanged (the body obligation at every grid point, under the launch
  theorem of a pipelined region), and the idealization rewrote no operation, so it preserves the kernel trivially.
-/
import proofs.«129456_g19327352832290_cont_8to1_132_5_alg».proof.Defs
import proofs.«129456_g19327352832290_cont_8to1_132_5_alg».proof.Proof.Gen.Kernel
import proofs.«129456_g19327352832290_cont_8to1_132_5_alg».proof.Proof.Gen.KernelIdeal
import proofs.«129456_g19327352832290_cont_8to1_132_5_alg».proof.Proof.Gen.Pre_finite_inputs
import proofs.«129456_g19327352832290_cont_8to1_132_5_alg».proof.Proof.WordBody.Body
import proofs.«129456_g19327352832290_cont_8to1_132_5_alg».proof.Proof.IdealBody.Body

noncomputable section

namespace Cert.Proof.KernelFrames

open Idealize.ShloMosaic Idealize.SL.Sem

theorem frame_word : Cert.frame_Kernel := fun m ρ _ => Cert.Kernel.Gen.frame m ρ

theorem frame_ideal : Cert.frame_KernelIdeal := fun m ρ _ => Cert.KernelIdeal.Gen.frame m ρ

theorem preserves : Cert.preserves_Kernel_KernelIdeal := trivial

end Cert.Proof.KernelFrames

end
-- ==== Proof.HyperConvSpec.lean ====
/-
  The function both programs compute, on the extended reals.

  A two-layer propagation over a dense incidence matrix `a` (rows: nodes, columns: hyperedges):
  the node features `e` are summed into the hyperedges (`agg`: the product of `a` transposed with `e`),
  mapped through the weight `w` (`lin`), normalised along each hyperedge's row with gain and bias
  (`hidden`), spread back to the nodes (`spread`: the product of `a` with the hidden rows),
  normalised again and passed through the leaky rectifier (`out`).

  The row normalisation is stated twice: dividing by the square root of the variance plus epsilon
  (`normDiv`), and multiplying by the reciprocal square root of it (`normRsqrt`).  They agree on
  every extended real row: a product `x * x` is never negative there, so the variance is at least
  zero and the shifted variance is strictly positive (possibly `⊤`), and for `0 < t` dividing by
  `sqrt t` is multiplying by `rsqrt t` — at `t = ⊤` both give `0`.  No finiteness is used.

  The three float literals are kept as their binary words: 256 (the row length as the programs
  divide by it), the epsilon, the slope of the rectifier's negative side.
-/
import Idealize.ShloMosaic.PureOps.Ideal
import Idealize.ShloMosaic.PureOps.Float

noncomputable section

namespace Cert.HyperConv

open Idealize.ShloMosaic

/-- The row length the means divide by, as the programs write it: `256.0`. -/
abbrev width : EReal := Ideal.ofBits .f32 0x43800000#32
/-- The epsilon added to a variance: the float nearest `1e-5`. -/
abbrev eps : EReal := Ideal.ofBits .f32 0x3727C5AC#32
/-- The slope of the rectifier on the negative side: the float nearest `0.2`. -/
abbrev slope : EReal := Ideal.ofBits .f32 0x3E4CCCCD#32
/-- The zero the rectifier compares against. -/
abbrev zero : EReal := Ideal.ofBits .f32 0x00000000#32

variable {n : ℕ}

/-- The mean of a row: its sum divided by `width`. -/
def mean (x : Fin n → EReal) : EReal := Ideal.div (∑ j, x j) width

/-- The variance of a row: the mean of the squared deviations from the mean. -/
def var (x : Fin n → EReal) : EReal := Ideal.div (∑ j, (x j - mean x) * (x j - mean x)) width

/-- Row normalisation with gain `g` and bias `b`, dividing by the square root. -/
def normDiv (x g b : Fin n → EReal) (j : Fin n) : EReal :=
  Ideal.div (x j - mean x) (Ideal.sqrt (var x + eps)) * g j + b j

/-- Row normalisation with gain `g` and bias `b`, multiplying by the reciprocal square root. -/
def normRsqrt (x g b : Fin n → EReal) (j : Fin n) : EReal :=
  (x j - mean x) * Ideal.rsqrt (var x + eps) * g j + b j

/-- The leaky rectifier: `z` where `0 ≤ z`, else `slope * z`. -/
def leaky (z : EReal) : EReal := Scalar.select (Ideal.cmp .oge z zero) z (slope * z)

variable {N H D E : ℕ}

/-- Node features summed into the hyperedges: `(aᵀ e) h d = ∑ r, a r h * e r d`. -/
def agg (a : Fin N → Fin H → EReal) (e : Fin N → Fin D → EReal) (h : Fin H) (d : Fin D) : EReal :=
  ∑ r, a r h * e r d

/-- The linear layer: `(s w) h j = ∑ d, s h d * w d j`. -/
def lin (s : Fin H → Fin D → EReal) (w : Fin D → Fin E → EReal) (h : Fin H) (j : Fin E) : EReal :=
  ∑ d, s h d * w d j

/-- Hyperedge rows spread back to the nodes: `(a l) r j = ∑ h, a r h * l h j`. -/
def spread (a : Fin N → Fin H → EReal) (l : Fin H → Fin E → EReal) (r : Fin N) (j : Fin E) : EReal :=
  ∑ h, a r h * l h j

/-- The hidden hyperedge rows, normalised by division. -/
def hidden (a : Fin N → Fin H → EReal) (e : Fin N → Fin D → EReal) (w : Fin D → Fin E → EReal)
    (g1 b1 : Fin E → EReal) (h : Fin H) (j : Fin E) : EReal :=
  normDiv (fun j => lin (agg a e) w h j) g1 b1 j

/-- The result, normalised by division: what the reference spells. -/
def out (a : Fin N → Fin H → EReal) (e : Fin N → Fin D → EReal) (w : Fin D → Fin E → EReal)
    (g1 b1 g2 b2 : Fin E → EReal) (r : Fin N) (j : Fin E) : EReal :=
  leaky (normDiv (fun j => spread a (hidden a e w g1 b1) r j) g2 b2 j)

/-- The hidden hyperedge rows, normalised by the reciprocal square root. -/
def hiddenR (a : Fin N → Fin H → EReal) (e : Fin N → Fin D → EReal) (w : Fin D → Fin E → EReal)
    (g1 b1 : Fin E → EReal) (h : Fin H) (j : Fin E) : EReal :=
  normRsqrt (fun j => lin (agg a e) w h j) g1 b1 j

/-- The result, normalised by the reciprocal square root: what the kernel spells. -/
def outR (a : Fin N → Fin H → EReal) (e : Fin N → Fin D → EReal) (w : Fin D → Fin E → EReal)
    (g1 b1 g2 b2 : Fin E → EReal) (r : Fin N) (j : Fin E) : EReal :=
  leaky (normRsqrt (fun j => spread a (hiddenR a e w g1 b1) r j) g2 b2 j)

end Cert.HyperConv

end
-- ==== Proof.NormLaw.lean ====
/-
  The two spellings of the row normalisation agree on every extended real row.

  For `0 < t`, multiplying by the reciprocal square root of `t` is dividing by the square root of
  `t`: at a positive real `t` both are the product with `(√t)⁻¹` (the square root is not zero, so
  the division is the product with the inverse); at `t = ⊤` the reciprocal square root is `0`, the
  square root is `⊤` whose inverse is `0`, and `a * 0 = 0` for every extended real `a`.

  The shifted variance is strictly positive: a product `y * y` is never negative on the extended
  reals, a finite sum of nonnegatives is nonnegative, dividing by the positive real `256` keeps
  that, and the epsilon is a positive real.
-/
import proofs.«129456_g19327352832290_cont_8to1_132_5_alg».proof.Proof.HyperConvSpec

noncomputable section

namespace Cert.HyperConv

open Idealize.ShloMosaic

/-- The row length denotes the real `256`. -/
theorem width_eq : width = ((256 : ℝ) : EReal) := by
  simp [width, Ideal.ofBits, Ideal.ieee, -EReal.coe_mul]; norm_num

/-- The epsilon denotes a positive real. -/
theorem eps_pos : 0 < eps := by
  simp [eps, Ideal.ofBits, Ideal.ieee, -EReal.coe_mul]

/-- A square is never negative on the extended reals. -/
theorem mul_self_nonneg' (y : EReal) : 0 ≤ y * y :=
  EReal.mul_nonneg_iff.mpr ((le_total 0 y).imp (fun h => ⟨h, h⟩) (fun h => ⟨h, h⟩))

/-- Dividing a nonnegative extended real by the row length leaves it nonnegative. -/
theorem div_width_nonneg {s : EReal} (hs : 0 ≤ s) : 0 ≤ Ideal.div s width := by
  rw [width_eq, Ideal.div_coe (by norm_num)]
  refine EReal.mul_nonneg hs ?_
  rw [← EReal.coe_zero, EReal.coe_le_coe_iff]
  norm_num

/-- For `0 < t`, the product with the reciprocal square root is the quotient by the square root. -/
theorem rsqrt_mul_eq_div_sqrt (a t : EReal) (ht : 0 < t) :
    a * Ideal.rsqrt t = Ideal.div a (Ideal.sqrt t) := by
  induction t using EReal.rec with
  | bot => exact absurd ht (not_lt_bot)
  | top =>
    rw [Ideal.rsqrt_top, Ideal.sqrt_top, Ideal.div, if_neg EReal.top_ne_zero, EReal.inv_top]
  | coe r =>
    have hr : 0 < r := by exact_mod_cast ht
    have hs : Real.sqrt r ≠ 0 := (Real.sqrt_pos.mpr hr).ne'
    have hse : ((Real.sqrt r : ℝ) : EReal) ≠ 0 := by exact_mod_cast hs
    rw [Ideal.rsqrt_coe, if_neg (not_lt.mpr hr.le), if_neg hr.ne', Ideal.sqrt_coe,
      if_neg (not_lt.mpr hr.le), Ideal.div, if_neg hse, EReal.coe_inv]

variable {n : ℕ}

/-- The variance of a row is never negative. -/
theorem var_nonneg (x : Fin n → EReal) : 0 ≤ var x :=
  div_width_nonneg (Finset.sum_nonneg fun j _ => mul_self_nonneg' (x j - mean x))

/-- The shifted variance is strictly positive. -/
theorem var_eps_pos (x : Fin n → EReal) : 0 < var x + eps :=
  lt_of_lt_of_le eps_pos (le_add_of_nonneg_left (var_nonneg x))

/-- The two spellings of the row normalisation agree. -/
theorem normRsqrt_eq_normDiv (x g b : Fin n → EReal) (j : Fin n) :
    normRsqrt x g b j = normDiv x g b j := by
  unfold normRsqrt normDiv
  rw [rsqrt_mul_eq_div_sqrt _ _ (var_eps_pos x)]

variable {N H D E : ℕ}

/-- The hidden rows in the two spellings agree. -/
theorem hiddenR_eq_hidden (a : Fin N → Fin H → EReal) (e : Fin N → Fin D → EReal)
    (w : Fin D → Fin E → EReal) (g1 b1 : Fin E → EReal) :
    hiddenR a e w g1 b1 = hidden a e w g1 b1 := by
  funext h j
  exact normRsqrt_eq_normDiv _ g1 b1 j

/-- The results in the two spellings agree. -/
theorem outR_eq_out (a : Fin N → Fin H → EReal) (e : Fin N → Fin D → EReal)
    (w : Fin D → Fin E → EReal) (g1 b1 g2 b2 : Fin E → EReal) :
    outR a e w g1 b1 g2 b2 = out a e w g1 b1 g2 b2 := by
  funext r j
  unfold outR out
  rw [hiddenR_eq_hidden, normRsqrt_eq_normDiv]

end Cert.HyperConv

end
-- ==== Proof.RefStages.lean ====
/-
  The reference's straight line of host operations, composed as one function of the seven argument arrays.

  The composition is cut into named stages: the two matrix products that give the hyperedge rows, the row
  normalisation of a 1024-row and of a 50000-row array (mean, centred rows, variance, division by the square root,
  gain and bias), the product that spreads the rows back to the nodes, and the rectifier.  The last stretch of the
  program (the bias row's second broadcast, the final sum and the rectifier) is kept as one function `tailS` of the
  two arrays it reads, so that the run can be read back in two stretches.
-/
import proofs.«129456_g19327352832290_cont_8to1_132_5_alg».proof.Proof.Gen.ReferenceIdeal
import Idealize.ShloMosaic.PureOps.Ideal

noncomputable section

namespace Cert.ReferenceIdeal.RefValue

open Cert.ReferenceIdeal Cert.ReferenceIdeal.Gen Idealize.ShloMosaic

/-- The hyperedge rows before normalisation: the incidence matrix transposed, times the node features, times the weight. -/
def stX (a0 : FVec Ideal S50000x1024 .f32) (a1 : FVec Ideal S50000x128 .f32) (a2 : FVec Ideal S128x256 .f32) :
    FVec Ideal S1024x256 .f32 :=
  Host.dotGeneral dot_S1024x128_S128x256_S1024x256_1_0_0_1_n_n none
    (Host.dotGeneral dot_S1024x50000_S50000x128_S1024x128_1_0_0_1_n_n none
      (transpose S1024x50000 [1, 0] a0 transposes_S50000x1024_S1024x50000_1_0) a1) a2

/-! ## Row normalisation of a 1024-row array -/

/-- The row means, as a column. -/
def mean1 (x : FVec Ideal S1024x256 .f32) : FVec Ideal S1024x1 .f32 :=
  Host.divf
    (broadcastInDim S1024x1 ![0] bcast_S1024_S1024x1_0
      (Host.reduceAdd x (constant (F := Ideal) S_ .f32 0x00000000#32) reducesTo_S1024x256_S1024_d1 h_S_))
    (broadcastInDim S1024x1 ![] bcast_S_S1024x1 (constant (F := Ideal) S_ .f32 0x43800000#32))

/-- The rows with their means subtracted. -/
def cen1 (x : FVec Ideal S1024x256 .f32) : FVec Ideal S1024x256 .f32 :=
  subf x (broadcastInDim S1024x256 ![0, 1] bcast_S1024x1_S1024x256_0_1 (mean1 x))

/-- The row variances, as a column. -/
def var1 (x : FVec Ideal S1024x256 .f32) : FVec Ideal S1024x1 .f32 :=
  Host.divf
    (broadcastInDim S1024x1 ![0] bcast_S1024_S1024x1_0
      (Host.reduceAdd (mulf (cen1 x) (cen1 x)) (constant (F := Ideal) S_ .f32 0x00000000#32) reducesTo_S1024x256_S1024_d1 h_S_))
    (broadcastInDim S1024x1 ![] bcast_S_S1024x1 (constant (F := Ideal) S_ .f32 0x43800000#32))

/-- The normalised rows with gain and bias. -/
def ln1 (x : FVec Ideal S1024x256 .f32) (g b : FVec Ideal S256 .f32) : FVec Ideal S1024x256 .f32 :=
  addf
    (mulf
      (Host.divf (cen1 x)
        (broadcastInDim S1024x256 ![0, 1] bcast_S1024x1_S1024x256_0_1
          (Host.sqrt (addf (var1 x)
            (broadcastInDim S1024x1 ![] bcast_S_S1024x1 (constant (F := Ideal) S_ .f32 0x3727C5AC#32))))))
      (broadcastInDim S1024x256 ![0, 1] bcast_S1x256_S1024x256_0_1 (broadcastInDim S1x256 ![1] bcast_S256_S1x256_1 g)))
    (broadcastInDim S1024x256 ![0, 1] bcast_S1x256_S1024x256_0_1 (broadcastInDim S1x256 ![1] bcast_S256_S1x256_1 b))

/-! ## Row normalisation of a 50000-row array -/

/-- The row means, as a column. -/
def mean2 (x : FVec Ideal S50000x256 .f32) : FVec Ideal S50000x1 .f32 :=
  Host.divf
    (broadcastInDim S50000x1 ![0] bcast_S50000_S50000x1_0
      (Host.reduceAdd x (constant (F := Ideal) S_ .f32 0x00000000#32) reducesTo_S50000x256_S50000_d1 h_S_))
    (broadcastInDim S50000x1 ![] bcast_S_S50000x1 (constant (F := Ideal) S_ .f32 0x43800000#32))

/-- The rows with their means subtracted. -/
def cen2 (x : FVec Ideal S50000x256 .f32) : FVec Ideal S50000x256 .f32 :=
  subf x (broadcastInDim S50000x256 ![0, 1] bcast_S50000x1_S50000x256_0_1 (mean2 x))

/-- The row variances, as a column. -/
def var2 (x : FVec Ideal S50000x256 .f32) : FVec Ideal S50000x1 .f32 :=
  Host.divf
    (broadcastInDim S50000x1 ![0] bcast_S50000_S50000x1_0
      (Host.reduceAdd (mulf (cen2 x) (cen2 x)) (constant (F := Ideal) S_ .f32 0x00000000#32) reducesTo_S50000x256_S50000_d1 h_S_))
    (broadcastInDim S50000x1 ![] bcast_S_S50000x1 (constant (F := Ideal) S_ .f32 0x43800000#32))

/-- The normalised rows times the gain (the bias is added in the last stretch). -/
def pre2 (x : FVec Ideal S50000x256 .f32) (g : FVec Ideal S256 .f32) : FVec Ideal S50000x256 .f32 :=
  mulf
    (Host.divf (cen2 x)
      (broadcastInDim S50000x256 ![0, 1] bcast_S50000x1_S50000x256_0_1
        (Host.sqrt (addf (var2 x)
          (broadcastInDim S50000x1 ![] bcast_S_S50000x1 (constant (F := Ideal) S_ .f32 0x3727C5AC#32))))))
    (broadcastInDim S50000x256 ![0, 1] bcast_S1x256_S50000x256_0_1 (broadcastInDim S1x256 ![1] bcast_S256_S1x256_1 g))

/-- A vector of 256 laid out as one row. -/
def row (b : FVec Ideal S256 .f32) : FVec Ideal S1x256 .f32 :=
  broadcastInDim S1x256 ![1] bcast_S256_S1x256_1 b

/-- The hidden rows spread back to the nodes. -/
def spreadS (a0 : FVec Ideal S50000x1024 .f32) (l : FVec Ideal S1024x256 .f32) : FVec Ideal S50000x256 .f32 :=
  Host.dotGeneral dot_S50000x1024_S1024x256_S50000x256_1_0_0_1_n_n none a0 l

/-- The rectifier on an array `z`: `z` where it is at least zero, else the slope times `z`. -/
def leakyS (z : FVec Ideal S50000x256 .f32) : FVec Ideal S50000x256 .f32 :=
  select
    (cmpf .oge z (broadcastInDim S50000x256 ![] bcast_S_S50000x256 (constant (F := Ideal) S_ .f32 0x00000000#32)))
    z
    (mulf (broadcastInDim S50000x256 ![] bcast_S_S50000x256 (id (constant (F := Ideal) S_ .f32 0x3E4CCCCD#32))) z)

/-- The last stretch: the bias row repeated down the rows and added, then the rectifier. -/
def tailS (p : FVec Ideal S50000x256 .f32) (rw : FVec Ideal S1x256 .f32) : FVec Ideal S50000x256 .f32 :=
  leakyS (addf p (broadcastInDim S50000x256 ![0, 1] bcast_S1x256_S50000x256_0_1 rw))

/-- The product that the second normalisation reads: the incidence matrix times the hidden rows. -/
def stY (a0 : FVec Ideal S50000x1024 .f32) (a1 : FVec Ideal S50000x128 .f32) (a2 : FVec Ideal S128x256 .f32)
    (a3 a4 : FVec Ideal S256 .f32) : FVec Ideal S50000x256 .f32 :=
  spreadS a0 (ln1 (stX a0 a1 a2) a3 a4)

/-- The reference's result as a function of its seven arguments. -/
def refOut (a0 : FVec Ideal S50000x1024 .f32) (a1 : FVec Ideal S50000x128 .f32) (a2 : FVec Ideal S128x256 .f32)
    (a3 a4 a5 a6 : FVec Ideal S256 .f32) : FVec Ideal S50000x256 .f32 :=
  tailS (pre2 (stY a0 a1 a2 a3 a4) a5) (row a6)

end Cert.ReferenceIdeal.RefValue

end
-- ==== Proof.RefRun.lean ====
/-
  The reference program's run: its 63 host operations and the 7 of the rectifier it calls, as one list in program
  order (the callee's operations listed at the call over the call's buffers), the program equal to that list run in
  sequence, and the list's result read back in two stretches: the first sixty operations from any contents, then the
  last ten from any contents.
-/
import proofs.«129456_g19327352832290_cont_8to1_132_5_alg».proof.Proof.RefStages
import Idealize.ShloMosaic.Lib.StableHlo.Run
import Idealize.ShloMosaic.Lib.Pipeline.Frame

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The first sixty operations. -/
abbrev ops0 : List (HloOp τ sig (Elt F)) :=
  [ unary main_arg0 main_v0 ((transpose S1024x50000 [1, 0] · transposes_S50000x1024_S1024x50000_1_0) : (⟨S50000x1024, .f32⟩ : BufTy).Contents (Elt F) → (⟨S1024x50000, .f32⟩ : BufTy).Contents (Elt F)),
    binary main_v0 main_arg1 main_v1 ((fun l r => Host.dotGeneral dot_S1024x50000_S50000x128_S1024x128_1_0_0_1_n_n none l r) : (⟨S1024x50000, .f32⟩ : BufTy).Contents (Elt F) → (⟨S50000x128, .f32⟩ : BufTy).Contents (Elt F) → (⟨S1024x128, .f32⟩ : BufTy).Contents (Elt F)),
    binary main_v1 main_arg2 main_v2 ((fun l r => Host.dotGeneral dot_S1024x128_S128x256_S1024x256_1_0_0_1_n_n none l r) : (⟨S1024x128, .f32⟩ : BufTy).Contents (Elt F) → (⟨S128x256, .f32⟩ : BufTy).Contents (Elt F) → (⟨S1024x256, .f32⟩ : BufTy).Contents (Elt F)),
    nullary main_cst (constant S_ .f32 0x00000000#32),
    binary main_v2 main_cst main_v3 ((fun x v => Host.reduceAdd x v reducesTo_S1024x256_S1024_d1 h_S_) : (⟨S1024x256, .f32⟩ : BufTy).Contents (Elt F) → (⟨S_, .f32⟩ : BufTy).Contents (Elt F) → (⟨S1024, .f32⟩ : BufTy).Contents (Elt F)),
    unary main_v3 main_v4 (broadcastInDim S1024x1 ![0] bcast_S1024_S1024x1_0 : (⟨S1024, .f32⟩ : BufTy).Contents (Elt F) → (⟨S1024x1, .f32⟩ : BufTy).Contents (Elt F)),
    nullary main_cst_0 (constant S_ .f32 0x43800000#32),
    unary main_cst_0 main_v5 (broadcastInDim S1024x1 ![] bcast_S_S1024x1 : (⟨S_, .f32⟩ : BufTy).Contents (Elt F) → (⟨S1024x1, .f32⟩ : BufTy).Contents (Elt F)),
    binary main_v4 main_v5 main_v6 (Host.divf : (⟨S1024x1, .f32⟩ : BufTy).Contents (Elt F) → (⟨S1024x1, .f32⟩ : BufTy).Contents (Elt F) → (⟨S1024x1, .f32⟩ : BufTy).Contents (Elt F)),
    unary main_v6 main_v7 (broadcastInDim S1024x256 ![0, 1] bcast_S1024x1_S1024x256_0_1 : (⟨S1024x1, .f32⟩ : BufTy).Contents (Elt F) → (⟨S1024x256, .f32⟩ : BufTy).Contents (Elt F)),
    binary main_v2 main_v7 main_v8 (subf : (⟨S1024x256, .f32⟩ : BufTy).Contents (Elt F) → (⟨S1024x256, .f32⟩ : BufTy).Contents (Elt F) → (⟨S1024x256, .f32⟩ : BufTy).Contents (Elt F)),
    binary main_v8 main_v8 main_v9 (mulf : (⟨S1024x256, .f32⟩ : BufTy).Contents (Elt F) → (⟨S1024x256, .f32⟩ : BufTy).Contents (Elt F) → (⟨S1024x256, .f32⟩ : BufTy).Contents (Elt F)),
    nullary main_cst_1 (constant S_ .f32 0x00000000#32),
    binary main_v9 main_cst_1 main_v10 ((fun x v => Host.reduceAdd x v reducesTo_S1024x256_S1024_d1 h_S_) : (⟨S1024x256, .f32⟩ : BufTy).Contents (Elt F) → (⟨S_, .f32⟩ : BufTy).Contents (Elt F) → (⟨S1024, .f32⟩ : BufTy).Contents (Elt F)),
    unary main_v10 main_v11 (broadcastInDim S1024x1 ![0] bcast_S1024_S1024x1_0 : (⟨S1024, .f32⟩ : BufTy).Contents (Elt F) → (⟨S1024x1, .f32⟩ : BufTy).Contents (Elt F)),
    nullary main_cst_2 (constant S_ .f32 0x43800000#32),
    unary main_cst_2 main_v12 (broadcastInDim S1024x1 ![] bcast_S_S1024x1 : (⟨S_, .f32⟩ : BufTy).Contents (Elt F) → (⟨S1024x1, .f32⟩ : BufTy).Contents (Elt F)),
    binary main_v11 main_v12 main_v13 (Host.divf : (⟨S1024x1, .f32⟩ : BufTy).Contents (Elt F) → (⟨S1024x1, .f32⟩ : BufTy).Contents (Elt F) → (⟨S1024x1, .f32⟩ : BufTy).Contents (Elt F)),
    unary main_v6 main_v14 (broadcastInDim S1024x256 ![0, 1] bcast_S1024x1_S1024x256_0_1 : (⟨S1024x1, .f32⟩ : BufTy).Contents (Elt F) → (⟨S1024x256, .f32⟩ : BufTy).Contents (Elt F)),
    binary main_v2 main_v14 main_v15 (subf : (⟨S1024x256, .f32⟩ : BufTy).Contents (Elt F) → (⟨S1024x256, .f32⟩ : BufTy).Contents (Elt F) → (⟨S1024x256, .f32⟩ : BufTy).Contents (Elt F)),
    nullary main_cst_3 (constant S_ .f32 0x3727C5AC#32),
    unary main_cst_3 main_v16 (broadcastInDim S1024x1 ![] bcast_S_S1024x1 : (⟨S_, .f32⟩ : BufTy).Contents (Elt F) → (⟨S1024x1, .f32⟩ : BufTy).Contents (Elt F)),
    binary main_v13 main_v16 main_v17 (addf : (⟨S1024x1, .f32⟩ : BufTy).Contents (Elt F) → (⟨S1024x1, .f32⟩ : BufTy).Contents (Elt F) → (⟨S1024x1, .f32⟩ : BufTy).Contents (Elt F)),
    unary main_v17 main_v18 (Host.sqrt : (⟨S1024x1, .f32⟩ : BufTy).Contents (Elt F) → (⟨S1024x1, .f32⟩ : BufTy).Contents (Elt F)),
    unary main_v18 main_v19 (broadcastInDim S1024x256 ![0, 1] bcast_S1024x1_S1024x256_0_1 : (⟨S1024x1, .f32⟩ : BufTy).Contents (Elt F) → (⟨S1024x256, .f32⟩ : BufTy).Contents (Elt F)),
    binary main_v15 main_v19 main_v20 (Host.divf : (⟨S1024x256, .f32⟩ : BufTy).Contents (Elt F) → (⟨S1024x256, .f32⟩ : BufTy).Contents (Elt F) → (⟨S1024x256, .f32⟩ : BufTy).Contents (Elt F)),
    unary main_arg3 main_v21 (broadcastInDim S1x256 ![1] bcast_S256_S1x256_1 : (⟨S256, .f32⟩ : BufTy).Contents (Elt F) → (⟨S1x256, .f32⟩ : BufTy).Contents (Elt F)),
    unary main_v21 main_v22 (broadcastInDim S1024x256 ![0, 1] bcast_S1x256_S1024x256_0_1 : (⟨S1x256, .f32⟩ : BufTy).Contents (Elt F) → (⟨S1024x256, .f32⟩ : BufTy).Contents (Elt F)),
    binary main_v20 main_v22 main_v23 (mulf : (⟨S1024x256, .f32⟩ : BufTy).Contents (Elt F) → (⟨S1024x256, .f32⟩ : BufTy).Contents (Elt F) → (⟨S1024x256, .f32⟩ : BufTy).Contents (Elt F)),
    unary main_arg4 main_v24 (broadcastInDim S1x256 ![1] bcast_S256_S1x256_1 : (⟨S256, .f32⟩ : BufTy).Contents (Elt F) → (⟨S1x256, .f32⟩ : BufTy).Contents (Elt F)),
    unary main_v24 main_v25 (broadcastInDim S1024x256 ![0, 1] bcast_S1x256_S1024x256_0_1 : (⟨S1x256, .f32⟩ : BufTy).Contents (Elt F) → (⟨S1024x256, .f32⟩ : BufTy).Contents (Elt F)),
    binary main_v23 main_v25 main_v26 (addf : (⟨S1024x256, .f32⟩ : BufTy).Contents (Elt F) → (⟨S1024x256, .f32⟩ : BufTy).Contents (Elt F) → (⟨S1024x256, .f32⟩ : BufTy).Contents (Elt F)),
    binary main_arg0 main_v26 main_v27 ((fun l r => Host.dotGeneral dot_S50000x1024_S1024x256_S50000x256_1_0_0_1_n_n none l r) : (⟨S50000x1024, .f32⟩ : BufTy).Contents (Elt F) → (⟨S1024x256, .f32⟩ : BufTy).Contents (Elt F) → (⟨S50000x256, .f32⟩ : BufTy).Contents (Elt F)),
    nullary main_cst_4 (constant S_ .f32 0x00000000#32),
    binary main_v27 main_cst_4 main_v28 ((fun x v => Host.reduceAdd x v reducesTo_S50000x256_S50000_d1 h_S_) : (⟨S50000x256, .f32⟩ : BufTy).Contents (Elt F) → (⟨S_, .f32⟩ : BufTy).Contents (Elt F) → (⟨S50000, .f32⟩ : BufTy).Contents (Elt F)),
    unary main_v28 main_v29 (broadcastInDim S50000x1 ![0] bcast_S50000_S50000x1_0 : (⟨S50000, .f32⟩ : BufTy).Contents (Elt F) → (⟨S50000x1, .f32⟩ : BufTy).Contents (Elt F)),
    nullary main_cst_5 (constant S_ .f32 0x43800000#32),
    unary main_cst_5 main_v30 (broadcastInDim S50000x1 ![] bcast_S_S50000x1 : (⟨S_, .f32⟩ : BufTy).Contents (Elt F) → (⟨S50000x1, .f32⟩ : BufTy).Contents (Elt F)),
    binary main_v29 main_v30 main_v31 (Host.divf : (⟨S50000x1, .f32⟩ : BufTy).Contents (Elt F) → (⟨S50000x1, .f32⟩ : BufTy).Contents (Elt F) → (⟨S50000x1, .f32⟩ : BufTy).Contents (Elt F)),
    unary main_v31 main_v32 (broadcastInDim S50000x256 ![0, 1] bcast_S50000x1_S50000x256_0_1 : (⟨S50000x1, .f32⟩ : BufTy).Contents (Elt F) → (⟨S50000x256, .f32⟩ : BufTy).Contents (Elt F)),
    binary main_v27 main_v32 main_v33 (subf : (⟨S50000x256, .f32⟩ : BufTy).Contents (Elt F) → (⟨S50000x256, .f32⟩ : BufTy).Contents (Elt F) → (⟨S50000x256, .f32⟩ : BufTy).Contents (Elt F)),
    binary main_v33 main_v33 main_v34 (mulf : (⟨S50000x256, .f32⟩ : BufTy).Contents (Elt F) → (⟨S50000x256, .f32⟩ : BufTy).Contents (Elt F) → (⟨S50000x256, .f32⟩ : BufTy).Contents (Elt F)),
    nullary main_cst_6 (constant S_ .f32 0x00000000#32),
    binary main_v34 main_cst_6 main_v35 ((fun x v => Host.reduceAdd x v reducesTo_S50000x256_S50000_d1 h_S_) : (⟨S50000x256, .f32⟩ : BufTy).Contents (Elt F) → (⟨S_, .f32⟩ : BufTy).Contents (Elt F) → (⟨S50000, .f32⟩ : BufTy).Contents (Elt F)),
    unary main_v35 main_v36 (broadcastInDim S50000x1 ![0] bcast_S50000_S50000x1_0 : (⟨S50000, .f32⟩ : BufTy).Contents (Elt F) → (⟨S50000x1, .f32⟩ : BufTy).Contents (Elt F)),
    nullary main_cst_7 (constant S_ .f32 0x43800000#32),
    unary main_cst_7 main_v37 (broadcastInDim S50000x1 ![] bcast_S_S50000x1 : (⟨S_, .f32⟩ : BufTy).Contents (Elt F) → (⟨S50000x1, .f32⟩ : BufTy).Contents (Elt F)),
    binary main_v36 main_v37 main_v38 (Host.divf : (⟨S50000x1, .f32⟩ : BufTy).Contents (Elt F) → (⟨S50000x1, .f32⟩ : BufTy).Contents (Elt F) → (⟨S50000x1, .f32⟩ : BufTy).Contents (Elt F)),
    unary main_v31 main_v39 (broadcastInDim S50000x256 ![0, 1] bcast_S50000x1_S50000x256_0_1 : (⟨S50000x1, .f32⟩ : BufTy).Contents (Elt F) → (⟨S50000x256, .f32⟩ : BufTy).Contents (Elt F)),
    binary main_v27 main_v39 main_v40 (subf : (⟨S50000x256, .f32⟩ : BufTy).Contents (Elt F) → (⟨S50000x256, .f32⟩ : BufTy).Contents (Elt F) → (⟨S50000x256, .f32⟩ : BufTy).Contents (Elt F)),
    nullary main_cst_8 (constant S_ .f32 0x3727C5AC#32),
    unary main_cst_8 main_v41 (broadcastInDim S50000x1 ![] bcast_S_S50000x1 : (⟨S_, .f32⟩ : BufTy).Contents (Elt F) → (⟨S50000x1, .f32⟩ : BufTy).Contents (Elt F)),
    binary main_v38 main_v41 main_v42 (addf : (⟨S50000x1, .f32⟩ : BufTy).Contents (Elt F) → (⟨S50000x1, .f32⟩ : BufTy).Contents (Elt F) → (⟨S50000x1, .f32⟩ : BufTy).Contents (Elt F)),
    unary main_v42 main_v43 (Host.sqrt : (⟨S50000x1, .f32⟩ : BufTy).Contents (Elt F) → (⟨S50000x1, .f32⟩ : BufTy).Contents (Elt F)),
    unary main_v43 main_v44 (broadcastInDim S50000x256 ![0, 1] bcast_S50000x1_S50000x256_0_1 : (⟨S50000x1, .f32⟩ : BufTy).Contents (Elt F) → (⟨S50000x256, .f32⟩ : BufTy).Contents (Elt F)),
    binary main_v40 main_v44 main_v45 (Host.divf : (⟨S50000x256, .f32⟩ : BufTy).Contents (Elt F) → (⟨S50000x256, .f32⟩ : BufTy).Contents (Elt F) → (⟨S50000x256, .f32⟩ : BufTy).Contents (Elt F)),
    unary main_arg5 main_v46 (broadcastInDim S1x256 ![1] bcast_S256_S1x256_1 : (⟨S256, .f32⟩ : BufTy).Contents (Elt F) → (⟨S1x256, .f32⟩ : BufTy).Contents (Elt F)),
    unary main_v46 main_v47 (broadcastInDim S50000x256 ![0, 1] bcast_S1x256_S50000x256_0_1 : (⟨S1x256, .f32⟩ : BufTy).Contents (Elt F) → (⟨S50000x256, .f32⟩ : BufTy).Contents (Elt F)),
    binary main_v45 main_v47 main_v48 (mulf : (⟨S50000x256, .f32⟩ : BufTy).Contents (Elt F) → (⟨S50000x256, .f32⟩ : BufTy).Contents (Elt F) → (⟨S50000x256, .f32⟩ : BufTy).Contents (Elt F)),
    unary main_arg6 main_v49 (broadcastInDim S1x256 ![1] bcast_S256_S1x256_1 : (⟨S256, .f32⟩ : BufTy).Contents (Elt F) → (⟨S1x256, .f32⟩ : BufTy).Contents (Elt F)) ]

/-- The last ten operations: the bias row repeated, the sum, the slope, and the rectifier's seven over its call's buffers. -/
abbrev ops1 : List (HloOp τ sig (Elt F)) :=
  [ unary main_v49 main_v50 (broadcastInDim S50000x256 ![0, 1] bcast_S1x256_S50000x256_0_1 : (⟨S1x256, .f32⟩ : BufTy).Contents (Elt F) → (⟨S50000x256, .f32⟩ : BufTy).Contents (Elt F)),
    binary main_v48 main_v50 main_v51 (addf : (⟨S50000x256, .f32⟩ : BufTy).Contents (Elt F) → (⟨S50000x256, .f32⟩ : BufTy).Contents (Elt F) → (⟨S50000x256, .f32⟩ : BufTy).Contents (Elt F)),
    nullary main_cst_9 (constant S_ .f32 0x3E4CCCCD#32),
    TRef.nullary main_call0.cst (constant S_ .f32 0x00000000#32),
    TRef.unary main_call0.cst main_call0.v0 (broadcastInDim S50000x256 ![] bcast_S_S50000x256),
    TRef.binary (.of main_v51) main_call0.v0 main_call0.v1 (cmpf .oge),
    TRef.unary (.of main_cst_9) main_call0.v2 id,
    TRef.unary main_call0.v2 main_call0.v3 (broadcastInDim S50000x256 ![] bcast_S_S50000x256),
    TRef.binary main_call0.v3 (.of main_v51) main_call0.v4 mulf,
    TRef.ternary main_call0.v1 (.of main_v51) main_call0.v4 main_call0.call0.v0 select ]

/-- All seventy, in order. -/
abbrev ops : List (HloOp τ sig (Elt F)) := ops0 ++ ops1

set_option maxRecDepth 8192 in
set_option maxHeartbeats 4000000 in
theorem main_part0_eq (c : Dev nD) : main_part0 (F := F) c = seq ops0 := rfl

set_option maxRecDepth 8192 in
theorem main_part1_eq (c : Dev nD) : main_part1 (F := F) c = seq ops1 := by
  simp only [main_part1, fn_leaky_relu.body, fn_where.body, seq, bind_assoc, pure_bind]

set_option maxRecDepth 8192 in
theorem main_eq (c : Dev nD) : main (F := F) c = seq ops := by
  simp only [ops, seq_append, ← main_part0_eq c, ← main_part1_eq c]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops0_sub : (ops0 : List (HloOp τ sig (Elt F))).Forall fun op => op.bufs ⊆ tcRefs τ sig :=
  ⟨unary_bufs_sub .., binary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub ..⟩
set_option maxRecDepth 8192 in
theorem ops1_sub : (ops1 : List (HloOp τ sig (Elt F))).Forall fun op => op.bufs ⊆ tcRefs τ sig :=
  ⟨unary_bufs_sub .., binary_bufs_sub .., nullary_bufs_sub .., nullary_bufs_sub .., unary_bufs_sub .., binary_bufs_sub .., unary_bufs_sub .., unary_bufs_sub .., binary_bufs_sub .., ternary_bufs_sub ..⟩
theorem ops_sub : (ops : List (HloOp τ sig (Elt F))).Forall fun op => op.bufs ⊆ tcRefs τ sig :=
  List.forall_iff_forall_mem.mpr fun op h => by
    simp only [ops, List.mem_append] at h
    rcases h with h | h
    exacts [List.forall_iff_forall_mem.mp ops0_sub op h, List.forall_iff_forall_mem.mp ops1_sub op h]

/-- Every buffer after the seventy operations, from the launch memory. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## Which buffers each stretch writes -/

/-- The buffers the first sixty operations write. -/
abbrev W0 : List (Ref sig .tc) := [main_v0, main_v1, main_v2, main_cst, main_v3, main_v4, main_cst_0, main_v5, main_v6, main_v7, main_v8, main_v9, main_cst_1, main_v10, main_v11, main_cst_2, main_v12, main_v13, main_v14, main_v15, main_cst_3, main_v16, main_v17, main_v18, main_v19, main_v20, main_v21, main_v22, main_v23, main_v24, main_v25, main_v26, main_v27, main_cst_4, main_v28, main_v29, main_cst_5, main_v30, main_v31, main_v32, main_v33, main_v34, main_cst_6, main_v35, main_v36, main_cst_7, main_v37, main_v38, main_v39, main_v40, main_cst_8, main_v41, main_v42, main_v43, main_v44, main_v45, main_v46, main_v47, main_v48, main_v49]
/-- The buffers the last ten operations write. -/
abbrev W1 : List (Ref sig .tc) := [main_v50, main_v51, main_cst_9, main_call0_cst, main_call0_v0, main_call0_v1, main_call0_v2, main_call0_v3, main_call0_v4, main_v52]

set_option maxRecDepth 8192 in
theorem ops0_writes : (ops0 : List (HloOp τ sig (Elt F))).Forall fun op =>
    op.writes ⊆ (W0.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

set_option maxRecDepth 8192 in
theorem ops1_writes : (ops1 : List (HloOp τ sig (Elt F))).Forall fun op =>
    op.writes ⊆ (W1.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

/-- A buffer neither stretch writes keeps its contents through the seventy operations. -/
theorem after_ops_keep (V : Valuation τ sig (Elt F)) (r : Ref sig .tc) (h0 : r ∉ W0) (h1 : r ∉ W1) :
    after ops V (Proc.devRef .tc r) = V (Proc.devRef .tc r) := by
  rw [ops, after_append, after_of_writes_sub ops1 _ ops1_writes h1, after_of_writes_sub ops0 V ops0_writes h0]

/-! ## The two stretches read back, from any contents -/

set_option maxRecDepth 8192 in
/-- The last ten operations: the result is the last stretch's function of the two arrays it reads. -/
theorem after_ops1_v52 (V : Valuation τ sig (Elt Ideal)) :
    after (ops1 (F := Ideal)) V (main_v52 : DevRef τ sig) = tailS (V (main_v48 : DevRef τ sig)) (V (main_v49 : DevRef τ sig)) := by
  after_results_simp
  rfl

set_option maxRecDepth 8192 in
set_option maxHeartbeats 4000000 in
/-- The first sixty operations at the product's buffer: the normalised second layer times its gain. -/
theorem after_ops0_v48 (V : Valuation τ sig (Elt Ideal)) :
    after (ops0 (F := Ideal)) V (main_v48 : DevRef τ sig)
      = pre2 (stY (V (main_arg0 : DevRef τ sig)) (V (main_arg1 : DevRef τ sig)) (V (main_arg2 : DevRef τ sig)) (V (main_arg3 : DevRef τ sig)) (V (main_arg4 : DevRef τ sig))) (V (main_arg5 : DevRef τ sig)) := by
  after_results_simp
  unfold pre2 stY spreadS ln1 var1 cen1 mean1 stX var2 cen2 mean2
  rfl

set_option maxRecDepth 8192 in
set_option maxHeartbeats 4000000 in
/-- The first sixty operations at the bias row's buffer. -/
theorem after_ops0_v49 (V : Valuation τ sig (Elt Ideal)) :
    after (ops0 (F := Ideal)) V (main_v49 : DevRef τ sig) = row (V (main_arg6 : DevRef τ sig)) := by
  after_results_simp
  rfl

/-- The seventy operations at the result buffer. -/
theorem after_ops_v52 (V : Valuation τ sig (Elt Ideal)) :
    after (ops (F := Ideal)) V (main_v52 : DevRef τ sig)
      = refOut (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) := by
  rw [ops, after_append, after_ops1_v52, after_ops0_v48, after_ops0_v49]
  rfl

/-- On every device, from any memory with zero counters: every weakly fair execution of the reference terminates
    with the result buffer at `refOut` of the seven arguments' launch contents, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v52)
          = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
        ∧ (r.2.mem ((c.tc : Thread nD τ).loc main_arg0) = m ((c.tc : Thread nD τ).loc main_arg0)
          ∧ r.2.mem ((c.tc : Thread nD τ).loc main_arg1) = m ((c.tc : Thread nD τ).loc main_arg1)
          ∧ r.2.mem ((c.tc : Thread nD τ).loc main_arg2) = m ((c.tc : Thread nD τ).loc main_arg2)
          ∧ r.2.mem ((c.tc : Thread nD τ).loc main_arg3) = m ((c.tc : Thread nD τ).loc main_arg3)
          ∧ r.2.mem ((c.tc : Thread nD τ).loc main_arg4) = m ((c.tc : Thread nD τ).loc main_arg4)
          ∧ r.2.mem ((c.tc : Thread nD τ).loc main_arg5) = m ((c.tc : Thread nD τ).loc main_arg5)
          ∧ r.2.mem ((c.tc : Thread nD τ).loc main_arg6) = m ((c.tc : Thread nD τ).loc main_arg6))) :=
  (θ_run defs _ _).mono (fun _ h c => ⟨(h c main_v52).trans (after_ops_v52 (launchContents m c)),
      (h c main_arg0).trans (after_ops_keep (launchContents m c) main_arg0 (by decide) (by decide)),
      (h c main_arg1).trans (after_ops_keep (launchContents m c) main_arg1 (by decide) (by decide)),
      (h c main_arg2).trans (after_ops_keep (launchContents m c) main_arg2 (by decide) (by decide)),
      (h c main_arg3).trans (after_ops_keep (launchContents m c) main_arg3 (by decide) (by decide)),
      (h c main_arg4).trans (after_ops_keep (launchContents m c) main_arg4 (by decide) (by decide)),
      (h c main_arg5).trans (after_ops_keep (launchContents m c) main_arg5 (by decide) (by decide)),
      (h c main_arg6).trans (after_ops_keep (launchContents m c) main_arg6 (by decide) (by decide))⟩)
    (run_all m ρ)

end Cert.ReferenceIdeal.RefValue

end
-- ==== Proof.LibHostDot.lean ====
/-
  A host matrix product read at one entry.

  The host's `dot_general` of an M × K matrix with a K × N matrix — left contracting axis 1, right contracting axis 0, no
  batch axis: the plain product l · r — is at the ideal values the sum over the contraction coordinate k of
  l (i, k) · r (k, j): entry (i, j) is the dot product of row i of the left operand with column j of the right one.
  The statement is over any dimension record whose six lists are those, whatever name a printed record carries.
-/
import Idealize.ShloMosaic.Lib.ValueIdx
import Idealize.ShloMosaic.PureOps.Ideal.Laws

noncomputable section

open scoped BigOperators

namespace Idealize.ShloMosaic.HostDot

open Idealize.ShloMosaic Idealize.ShloMosaic.ValueIdx

/-- Entry (i, j) of an M × K by K × N host `dot_general` contracting the left operand's columns with the right
    operand's rows, at the ideal values: the dot product of the left operand's row i with the right operand's column j. -/
theorem dotGeneral_apply {M K N : Nat} {φ₁ φ₂ : FTy}
    (D : DotDims ⟨2, ![M, K]⟩ ⟨2, ![K, N]⟩ ⟨2, ![M, N]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (l : FVec Ideal ⟨2, ![M, K]⟩ φ₁) (r : FVec Ideal ⟨2, ![K, N]⟩ φ₂)
    (i : Fin M) (j : Fin N) :
    Host.dotGeneral D prec l r (ix2 i j) = ∑ k : Fin K, l (ix2 i k) * r (ix2 k j) := by
  obtain ⟨lc, rc, ln, rn, lb, rb, wf⟩ := D
  dsimp only at hlc hrc hln hrn hlb hrb
  subst hlc hrc hln hrn hlb hrb
  refine (Ideal.dotGeneral_apply _ prec .single l r (ix2 i j)).trans ?_
  rw [← Equiv.sum_comp (contrEquiv1 (⟨[1], [0], [0], [1], [], [], wf⟩ : DotDims ⟨2, ![M, K]⟩ ⟨2, ![K, N]⟩ ⟨2, ![M, N]⟩) K rfl rfl).symm]
  refine Finset.sum_congr rfl fun k _ => ?_
  have hk := contrEquiv1_symm_val (⟨[1], [0], [0], [1], [], [], wf⟩ : DotDims ⟨2, ![M, K]⟩ ⟨2, ![K, N]⟩ ⟨2, ![M, N]⟩) K rfl rfl k
  have el : DotDims.lhsIdx (⟨[1], [0], [0], [1], [], [], wf⟩ : DotDims ⟨2, ![M, K]⟩ ⟨2, ![K, N]⟩ ⟨2, ![M, N]⟩) (ix2 i j)
      ((contrEquiv1 (⟨[1], [0], [0], [1], [], [], wf⟩ : DotDims ⟨2, ![M, K]⟩ ⟨2, ![K, N]⟩ ⟨2, ![M, N]⟩) K rfl rfl).symm k) = ix2 i k :=
    funext fun a => Fin.ext (by
      match a with
      | ⟨0, _⟩ =>
        unfold DotDims.lhsIdx
        rw [dif_neg (by exact List.not_mem_nil), dif_pos (by exact List.mem_singleton.mpr rfl)]
        rfl
      | ⟨1, _⟩ => exact (DotDims.lhsIdx_val_of_single _ rfl _ _).trans hk)
  have er : DotDims.rhsIdx (⟨[1], [0], [0], [1], [], [], wf⟩ : DotDims ⟨2, ![M, K]⟩ ⟨2, ![K, N]⟩ ⟨2, ![M, N]⟩) (ix2 i j)
      ((contrEquiv1 (⟨[1], [0], [0], [1], [], [], wf⟩ : DotDims ⟨2, ![M, K]⟩ ⟨2, ![K, N]⟩ ⟨2, ![M, N]⟩) K rfl rfl).symm k) = ix2 k j :=
    funext fun a => Fin.ext (by
      match a with
      | ⟨0, _⟩ => exact (DotDims.rhsIdx_val_of_single _ rfl _ _).trans hk
      | ⟨1, _⟩ =>
        unfold DotDims.rhsIdx
        rw [dif_neg (by exact List.not_mem_nil), dif_pos (by exact List.mem_singleton.mpr rfl)]
        rfl)
  rw [el, er]

end Idealize.ShloMosaic.HostDot

end
-- ==== Proof.LibHostAffine.lean ====
/-
  Host (StableHLO) operations read at an index, at exact real arithmetic, for arrays of any extents:
  * a scalar constant broadcast to any shape;
  * a bias vector broadcast first to a [1, N] row (dims [1]) and then down M rows (dims [0, 1]);
  * x @ wᵀ + b: a dot_general of an [M, K] array with the transpose of an [N, K] array (contracting [1] × [0]) plus that
    broadcast bias, at (r, n), is Σ_k x(r,k)·w(n,k) + b(n);
  * the host's sum along axis 1 of an [a, b] array from an initial scalar, at row r, is the initial value plus Σ_d x(r,d).
-/
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws
import proofs.«129456_g19327352832290_cont_8to1_132_5_alg».proof.Proof.LibHostDot

open scoped BigOperators

noncomputable section

namespace Idealize.ShloMosaic.HostAffine

open Idealize.ShloMosaic Idealize.ShloMosaic.ValueIdx

/-- A scalar constant broadcast to any shape reads, everywhere, as the constant. -/
theorem bcast_const {t : Shape} (dims : Fin 0 → Fin t.rank) (h : (⟨0, ![]⟩ : Shape).BroadcastsInDim t dims) (b : BitVec 32) (j : t.Idx) :
    broadcastInDim t dims h (constant (F := Ideal) ⟨0, ![]⟩ .f32 b) j = Ideal.ofBits .f32 b :=
  (broadcastInDim_apply dims h _ j ix0 (fun a => a.elim0)).trans rfl

/-- A bias vector laid as a row (dims [1]) and repeated down M rows (dims [0, 1]) reads b(n) at (r, n). -/
theorem bias_bcast {M N : ℕ} (b : (⟨1, ![N]⟩ : Shape).Idx → EReal)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2)) (r : Fin M) (n : Fin N) :
    broadcastInDim ⟨2, ![M, N]⟩ ![0, 1] h2 (broadcastInDim ⟨2, ![1, N]⟩ ![1] h1 b) (ix2 r n) = b (ix1 n) := by
  refine (broadcastInDim_apply _ h2 _ (ix2 r n) (ix2 (0 : Fin 1) n) (fun a => ?_)).trans
    (broadcastInDim_apply _ h1 b (ix2 (0 : Fin 1) n) (ix1 n) (fun a => ?_))
  · match a with
    | ⟨0, _⟩ => rfl
    | ⟨1, _⟩ =>
      show n.val = if N = 1 then 0 else n.val
      split_ifs with hN
      · have := n.isLt; omega
      · rfl
  · match a with
    | ⟨0, _⟩ =>
      show n.val = if N = 1 then 0 else n.val
      split_ifs with hN
      · have := n.isLt; omega
      · rfl

/-- x @ wᵀ + b on the host, at (r, n): Σ_k x(r,k)·w(n,k) + b(n). -/
theorem affine_apply {M K N : ℕ} (D : DotDims ⟨2, ![M, K]⟩ ⟨2, ![K, N]⟩ ⟨2, ![M, N]⟩)
    (hlc : D.lhsContracting = [1]) (hrc : D.rhsContracting = [0]) (hln : D.lhsNonContracting = [0])
    (hrn : D.rhsNonContracting = [1]) (hlb : D.lhsBatch = []) (hrb : D.rhsBatch = [])
    (X : FVec Ideal ⟨2, ![M, K]⟩ .f32) (w : FVec Ideal ⟨2, ![N, K]⟩ .f32)
    (ht : (⟨2, ![N, K]⟩ : Shape).Transposes [1, 0] ⟨2, ![K, N]⟩) (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2)) (r : Fin M) (n : Fin N) :
    addf (Host.dotGeneral D none X (transpose ⟨2, ![K, N]⟩ [1, 0] w ht))
        (broadcastInDim ⟨2, ![M, N]⟩ ![0, 1] h2 (broadcastInDim ⟨2, ![1, N]⟩ ![1] h1 b)) (ix2 r n)
      = (∑ k : Fin K, X (ix2 r k) * w (ix2 n k)) + b (ix1 n) := by
  show _ + _ = _
  rw [HostDot.dotGeneral_apply D hlc hrc hln hrn hlb hrb, bias_bcast]
  congr 1
  exact Finset.sum_congr rfl fun k _ => congrArg (_ * ·) (transpose_ix2_apply w ht k n)

/-- The host's sum along axis 1 of an [a, b] array from an initial value, at row r. -/
theorem rowsum_apply {a b : ℕ} (x : FVec Ideal ⟨2, ![a, b]⟩ .f32) (init : (⟨0, ![]⟩ : Shape).Idx → EReal)
    (h' : (⟨2, ![a, b]⟩ : Shape).ReducesTo [1] ⟨1, ![a]⟩) (hu : 0 < (⟨0, ![]⟩ : Shape).numel) (r : Fin a) :
    Host.reduceAdd x init h' hu (ix1 r) = init (Shape.Idx.first hu) + ∑ d : Fin b, x (ix2 r d) := by
  have h : (⟨2, ![a, b]⟩ : Shape).Reduces [1] ⟨1, ![a]⟩ := let ⟨e, f⟩ := h'; ⟨e, Nat.one_pos, f⟩
  refine (Ideal.hostReduceAdd_single h' h x _ (ix1 r)).trans ?_
  refine congrArg (_ + ·) (Finset.sum_congr rfl fun d _ => congrArg x (funext fun ax => Fin.ext ?_))
  match ax with
  | ⟨0, _⟩ => rfl
  | ⟨1, _⟩ => rfl

end Idealize.ShloMosaic.HostAffine

end
-- ==== Proof.LibHostColumn.lean ====
/-
  Two column layouts read at an index, for any extents: a vector of length a laid out as an a × 1 column, and an
  a × 1 column repeated along b columns.  With a sum along the rows kept as a column these are how a row statistic
  (a mean, a variance) is carried back to every entry of its row.
-/
import Idealize.ShloMosaic.Lib.Pipeline.Value
import Idealize.ShloMosaic.Lib.ValueIdx

noncomputable section

namespace Idealize.ShloMosaic.HostColumn

open Idealize.ShloMosaic Idealize.ShloMosaic.ValueIdx

variable {α : Type}

/-- A vector of length `a` laid out as a column (dims [0]) reads, at `(r, 0)`, the vector at `r`. -/
theorem col_of_vec {a : ℕ} (v : (⟨1, ![a]⟩ : Shape).Idx → α)
    (h : (⟨1, ![a]⟩ : Shape).BroadcastsInDim ⟨2, ![a, 1]⟩ (![0] : Fin 1 → Fin 2)) (r : Fin a) (z : Fin 1) :
    broadcastInDim ⟨2, ![a, 1]⟩ ![0] h v (ix2 r z) = v (ix1 r) := by
  refine broadcastInDim_apply _ h v (ix2 r z) (ix1 r) (fun ax => ?_)
  match ax with
  | ⟨0, _⟩ =>
    show r.val = if a = 1 then 0 else r.val
    split_ifs with ha
    · have := r.isLt; omega
    · rfl

/-- An `a × 1` column repeated along `b` columns (dims [0, 1]) reads, at `(r, j)`, the column at `(r, 0)`. -/
theorem mat_of_col {a b : ℕ} (c : (⟨2, ![a, 1]⟩ : Shape).Idx → α)
    (h : (⟨2, ![a, 1]⟩ : Shape).BroadcastsInDim ⟨2, ![a, b]⟩ (![0, 1] : Fin 2 → Fin 2)) (r : Fin a) (j : Fin b) :
    broadcastInDim ⟨2, ![a, b]⟩ ![0, 1] h c (ix2 r j) = c (ix2 r (0 : Fin 1)) := by
  refine broadcastInDim_apply _ h c (ix2 r j) (ix2 r (0 : Fin 1)) (fun ax => ?_)
  match ax with
  | ⟨0, _⟩ =>
    show r.val = if a = 1 then 0 else r.val
    split_ifs with ha
    · have := r.isLt; omega
    · rfl
  | ⟨1, _⟩ =>
    show (0 : ℕ) = if (1 : ℕ) = 1 then 0 else j.val
    rfl

end Idealize.ShloMosaic.HostColumn

end
-- ==== Proof.RefRead.lean ====
/-
  The reference's composed function read at one entry of its result: each stage at an index, from the operations'
  definitions at the extended reals (a product of matrices a sum over the contracted coordinate, a sum along a row
  the sum of the row's entries from zero, a broadcast the entry it repeats, the pointwise operations themselves),
  and the stages composed: entry (r, j) of the result is the specification's `out` at (r, j) of the arguments read
  as functions of their coordinates.
-/
import proofs.«129456_g19327352832290_cont_8to1_132_5_alg».proof.Proof.RefStages
import proofs.«129456_g19327352832290_cont_8to1_132_5_alg».proof.Proof.HyperConvSpec
import proofs.«129456_g19327352832290_cont_8to1_132_5_alg».proof.Proof.LibHostAffine
import proofs.«129456_g19327352832290_cont_8to1_132_5_alg».proof.Proof.LibHostColumn
import Idealize.ShloMosaic.Lib.ValueIdx
import Idealize.ShloMosaic.Lib.ValueLayout
import Idealize.ShloMosaic.Lib.IdealHost
import Idealize.ShloMosaic.PureOps.Ideal.Laws

open scoped BigOperators

noncomputable section

namespace Cert.ReferenceIdeal.RefValue

open Cert.ReferenceIdeal Cert.ReferenceIdeal.Gen Idealize.ShloMosaic Idealize.ShloMosaic.ValueIdx

/-- The host's square root at an index is the extended reals' square root of the entry. -/
theorem hostSqrt_apply {s : Shape} {φ : FTy} (a : FVec Ideal s φ) (i : s.Idx) : Host.sqrt a i = Ideal.sqrt (a i) := rfl

/-! ## The matrix products -/

set_option maxRecDepth 16384 in
theorem stX_apply (a0 : FVec Ideal S50000x1024 .f32) (a1 : FVec Ideal S50000x128 .f32) (a2 : FVec Ideal S128x256 .f32)
    (h : Fin 1024) (j : Fin 256) :
    stX a0 a1 a2 (ix2 h j)
      = HyperConv.lin (HyperConv.agg (fun r h => a0 (ix2 r h)) (fun r d => a1 (ix2 r d))) (fun d j => a2 (ix2 d j)) h j := by
  unfold stX HyperConv.lin HyperConv.agg
  rw [HostDot.dotGeneral_apply dot_S1024x128_S128x256_S1024x256_1_0_0_1_n_n rfl rfl rfl rfl rfl rfl]
  refine Finset.sum_congr rfl fun d _ => ?_
  rw [HostDot.dotGeneral_apply dot_S1024x50000_S50000x128_S1024x128_1_0_0_1_n_n rfl rfl rfl rfl rfl rfl]
  have e : ∀ r : Fin 50000,
      transpose S1024x50000 [1, 0] a0 transposes_S50000x1024_S1024x50000_1_0 (ix2 h r) = a0 (ix2 r h) :=
    fun r => transpose_ix2_apply a0 _ h r
  simp only [e]

set_option maxRecDepth 16384 in
theorem spreadS_apply (a0 : FVec Ideal S50000x1024 .f32) (l : FVec Ideal S1024x256 .f32) (r : Fin 50000) (j : Fin 256) :
    spreadS a0 l (ix2 r j) = HyperConv.spread (fun r h => a0 (ix2 r h)) (fun h j => l (ix2 h j)) r j := by
  unfold spreadS HyperConv.spread
  rw [HostDot.dotGeneral_apply dot_S50000x1024_S1024x256_S50000x256_1_0_0_1_n_n rfl rfl rfl rfl rfl rfl]

/-! ## Row normalisation of a 1024-row array, read at an index -/

theorem mean1_apply (x : FVec Ideal S1024x256 .f32) (r : Fin 1024) (z : Fin 1) :
    mean1 x (ix2 r z) = HyperConv.mean (fun d : Fin 256 => x (ix2 r d)) := by
  unfold mean1 HyperConv.mean
  rw [hostDivf_apply, HostColumn.col_of_vec, HostAffine.bcast_const, HostAffine.rowsum_apply, constant_apply,
    Ideal.ofBits_zero_f32, zero_add]

theorem cen1_apply (x : FVec Ideal S1024x256 .f32) (r : Fin 1024) (j : Fin 256) :
    cen1 x (ix2 r j) = x (ix2 r j) - HyperConv.mean (fun d : Fin 256 => x (ix2 r d)) := by
  unfold cen1
  rw [subf_apply, HostColumn.mat_of_col, mean1_apply]

theorem var1_apply (x : FVec Ideal S1024x256 .f32) (r : Fin 1024) (z : Fin 1) :
    var1 x (ix2 r z) = HyperConv.var (fun d : Fin 256 => x (ix2 r d)) := by
  unfold var1 HyperConv.var
  rw [hostDivf_apply, HostColumn.col_of_vec, HostAffine.bcast_const, HostAffine.rowsum_apply, constant_apply,
    Ideal.ofBits_zero_f32, zero_add]
  refine congrArg (Ideal.div · _) (Finset.sum_congr rfl fun d _ => ?_)
  rw [mulf_apply, cen1_apply]

theorem ln1_apply (x : FVec Ideal S1024x256 .f32) (g b : FVec Ideal S256 .f32) (r : Fin 1024) (j : Fin 256) :
    ln1 x g b (ix2 r j)
      = HyperConv.normDiv (fun d : Fin 256 => x (ix2 r d)) (fun d => g (ix1 d)) (fun d => b (ix1 d)) j := by
  unfold ln1 HyperConv.normDiv
  rw [addf_apply, mulf_apply, hostDivf_apply, cen1_apply, HostColumn.mat_of_col, hostSqrt_apply, addf_apply, var1_apply,
    HostAffine.bcast_const, HostAffine.bias_bcast, HostAffine.bias_bcast]

/-! ## Row normalisation of a 50000-row array, read at an index -/

theorem mean2_apply (x : FVec Ideal S50000x256 .f32) (r : Fin 50000) (z : Fin 1) :
    mean2 x (ix2 r z) = HyperConv.mean (fun d : Fin 256 => x (ix2 r d)) := by
  unfold mean2 HyperConv.mean
  rw [hostDivf_apply, HostColumn.col_of_vec, HostAffine.bcast_const, HostAffine.rowsum_apply, constant_apply,
    Ideal.ofBits_zero_f32, zero_add]

theorem cen2_apply (x : FVec Ideal S50000x256 .f32) (r : Fin 50000) (j : Fin 256) :
    cen2 x (ix2 r j) = x (ix2 r j) - HyperConv.mean (fun d : Fin 256 => x (ix2 r d)) := by
  unfold cen2
  rw [subf_apply, HostColumn.mat_of_col, mean2_apply]

theorem var2_apply (x : FVec Ideal S50000x256 .f32) (r : Fin 50000) (z : Fin 1) :
    var2 x (ix2 r z) = HyperConv.var (fun d : Fin 256 => x (ix2 r d)) := by
  unfold var2 HyperConv.var
  rw [hostDivf_apply, HostColumn.col_of_vec, HostAffine.bcast_const, HostAffine.rowsum_apply, constant_apply,
    Ideal.ofBits_zero_f32, zero_add]
  refine congrArg (Ideal.div · _) (Finset.sum_congr rfl fun d _ => ?_)
  rw [mulf_apply, cen2_apply]

theorem pre2_apply (x : FVec Ideal S50000x256 .f32) (g : FVec Ideal S256 .f32) (r : Fin 50000) (j : Fin 256) :
    pre2 x g (ix2 r j)
      = Ideal.div (x (ix2 r j) - HyperConv.mean (fun d : Fin 256 => x (ix2 r d)))
          (Ideal.sqrt (HyperConv.var (fun d : Fin 256 => x (ix2 r d)) + HyperConv.eps)) * g (ix1 j) := by
  unfold pre2
  rw [mulf_apply, hostDivf_apply, cen2_apply, HostColumn.mat_of_col, hostSqrt_apply, addf_apply, var2_apply,
    HostAffine.bcast_const, HostAffine.bias_bcast]

/-! ## The rectifier and the last stretch -/

theorem leakyS_apply (z : FVec Ideal S50000x256 .f32) (i : S50000x256.Idx) : leakyS z i = HyperConv.leaky (z i) := by
  unfold leakyS HyperConv.leaky
  rw [select_apply, cmpf_apply, mulf_apply, id_eq, HostAffine.bcast_const, HostAffine.bcast_const]
  rfl

theorem tailS_apply (x : FVec Ideal S50000x256 .f32) (g b : FVec Ideal S256 .f32) (r : Fin 50000) (j : Fin 256) :
    tailS (pre2 x g) (row b) (ix2 r j)
      = HyperConv.leaky (HyperConv.normDiv (fun d : Fin 256 => x (ix2 r d)) (fun d => g (ix1 d)) (fun d => b (ix1 d)) j) := by
  unfold tailS row HyperConv.normDiv
  rw [leakyS_apply, addf_apply, pre2_apply, HostAffine.bias_bcast]

/-! ## The stages composed -/

theorem stY_apply (a0 : FVec Ideal S50000x1024 .f32) (a1 : FVec Ideal S50000x128 .f32) (a2 : FVec Ideal S128x256 .f32)
    (a3 a4 : FVec Ideal S256 .f32) (r : Fin 50000) (j : Fin 256) :
    stY a0 a1 a2 a3 a4 (ix2 r j)
      = HyperConv.spread (fun r h => a0 (ix2 r h))
          (HyperConv.hidden (fun r h => a0 (ix2 r h)) (fun r d => a1 (ix2 r d)) (fun d j => a2 (ix2 d j))
            (fun j => a3 (ix1 j)) (fun j => a4 (ix1 j))) r j := by
  unfold stY
  rw [spreadS_apply]
  unfold HyperConv.spread HyperConv.hidden
  refine Finset.sum_congr rfl fun h _ => congrArg (_ * ·) ?_
  show ln1 (stX a0 a1 a2) a3 a4 (ix2 h j) = _
  rw [ln1_apply]
  exact congrArg (fun f => HyperConv.normDiv f (fun d => a3 (ix1 d)) (fun d => a4 (ix1 d)) j)
    (funext fun d => stX_apply a0 a1 a2 h d)

/-- Entry (r, j) of the reference's result is the specification's `out` at (r, j). -/
theorem refOut_apply (a0 : FVec Ideal S50000x1024 .f32) (a1 : FVec Ideal S50000x128 .f32) (a2 : FVec Ideal S128x256 .f32)
    (a3 a4 a5 a6 : FVec Ideal S256 .f32) (r : Fin 50000) (j : Fin 256) :
    refOut a0 a1 a2 a3 a4 a5 a6 (ValueIdx.ix2 r j)
      = Cert.HyperConv.out (fun r h => a0 (ValueIdx.ix2 r h)) (fun r d => a1 (ValueIdx.ix2 r d))
          (fun d j => a2 (ValueIdx.ix2 d j)) (fun j => a3 (ValueIdx.ix1 j)) (fun j => a4 (ValueIdx.ix1 j))
          (fun j => a5 (ValueIdx.ix1 j)) (fun j => a6 (ValueIdx.ix1 j)) r j := by
  unfold refOut HyperConv.out
  rw [tailS_apply]
  exact congrArg (fun f => HyperConv.leaky (HyperConv.normDiv f (fun d => a5 (ix1 d)) (fun d => a6 (ix1 d)) j))
    (funext fun d => stY_apply a0 a1 a2 a3 a4 r d)

end Cert.ReferenceIdeal.RefValue

end
-- ==== Proof.IdealBody.Args.lean ====
/-
  The seven argument arrays as the region finds them, read by coordinates: the incidence matrix, the node
  features, the weight, and the two gains and biases.
-/
import proofs.«129456_g19327352832290_cont_8to1_132_5_alg».proof.Proof.Gen.KernelIdeal
import proofs.«129456_g19327352832290_cont_8to1_132_5_alg».proof.Proof.HyperConvSpec
import Idealize.ShloMosaic.Lib.ValueIdx

noncomputable section

namespace Cert.KernelIdeal.Result

open Idealize.ShloMosaic Idealize.SL.Sem Cert.KernelIdeal

variable (m : (ℓ : Loc nD τ sig) → Buf (Elt Ideal) ℓ) (c : Dev nD)

/-- The incidence matrix. -/
def adjOf : Fin 50000 → Fin 1024 → EReal := fun r h => (m ((c.tc : Thread nD τ).loc main_arg0) : FVec Ideal S50000x1024 .f32) (ValueIdx.ix2 r h)
/-- The node features. -/
def embOf : Fin 50000 → Fin 128 → EReal := fun r d => (m ((c.tc : Thread nD τ).loc main_arg1) : FVec Ideal S50000x128 .f32) (ValueIdx.ix2 r d)
/-- The weight. -/
def wOf : Fin 128 → Fin 256 → EReal := fun d j => (m ((c.tc : Thread nD τ).loc main_arg2) : FVec Ideal S128x256 .f32) (ValueIdx.ix2 d j)
/-- The first gain and bias, the second gain and bias. -/
def g1Of : Fin 256 → EReal := fun j => (m ((c.tc : Thread nD τ).loc main_arg3) : FVec Ideal S256 .f32) (ValueIdx.ix1 j)
def b1Of : Fin 256 → EReal := fun j => (m ((c.tc : Thread nD τ).loc main_arg4) : FVec Ideal S256 .f32) (ValueIdx.ix1 j)
def g2Of : Fin 256 → EReal := fun j => (m ((c.tc : Thread nD τ).loc main_arg5) : FVec Ideal S256 .f32) (ValueIdx.ix1 j)
def b2Of : Fin 256 → EReal := fun j => (m ((c.tc : Thread nD τ).loc main_arg6) : FVec Ideal S256 .f32) (ValueIdx.ix1 j)

/-- The kernel's result array as one function of the argument arrays. -/
def kerOut (a0 : FVec Ideal S50000x1024 .f32) (a1 : FVec Ideal S50000x128 .f32) (a2 : FVec Ideal S128x256 .f32) (a3 a4 a5 a6 : FVec Ideal S256 .f32) : FVec Ideal S50000x256 .f32 :=
  fun i => Cert.HyperConv.outR (fun r h => a0 (ValueIdx.ix2 r h)) (fun r d => a1 (ValueIdx.ix2 r d)) (fun d j => a2 (ValueIdx.ix2 d j)) (fun j => a3 (ValueIdx.ix1 j)) (fun j => a4 (ValueIdx.ix1 j)) (fun j => a5 (ValueIdx.ix1 j)) (fun j => a6 (ValueIdx.ix1 j)) (i 0) (i 1)

/-- Read by coordinates it is the specification at the arrays' coordinate functions. -/
theorem kerOut_apply (r : Fin 50000) (j : Fin 256) :
    kerOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (ValueIdx.ix2 r j)
      = Cert.HyperConv.outR (adjOf m c) (embOf m c) (wOf m c) (g1Of m c) (b1Of m c) (g2Of m c) (b2Of m c) r j := rfl

end Cert.KernelIdeal.Result

end
-- ==== Proof.IdealBody.RunOfFinal.lean ====
/-
  From the result array's final contents to the run in the shape the claim states: the frame run ends with
  every window's array at what the proof data computes, so once the result window's array is known to end
  at the one function `kerOut` of the arguments, the program's run ends with the result at `kerOut` and
  the seven argument arrays unchanged — the two streamed ones because an input window's array ends as the
  region found it, the other five because no window stages them.
-/
import proofs.«129456_g19327352832290_cont_8to1_132_5_alg».proof.Proof.IdealBody.Body
import proofs.«129456_g19327352832290_cont_8to1_132_5_alg».proof.Proof.IdealBody.Args

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Cert.KernelIdeal

/-- The run of the idealized kernel, given the result array's final contents. -/
theorem run_of_final (m : (ℓ : Loc nD τ sig) → Buf (Elt Ideal) ℓ) (ρ : Dev nD → PrngReg)
    (hfinal : ∀ c : Dev nD, (dats m 0 c).arrAt 7 cfg0.N = Result.kerOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) :
    θ_run (defs (F := Ideal)) (onTc (τ := τ) (main (F := Ideal))) ⟨m, fun _ => 0, ρ⟩ (fun r => ∀ c : Dev nD,
      r.2.mem ((c.tc : Thread nD τ).loc main_v5) = Result.kerOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))) :=
  (θ_run defs _ _).mono (fun _ h c => ⟨((h c).1 7).trans (hfinal c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩)
    (run_main m ρ)

end Cert.KernelIdeal.Gen

end
-- ==== Proof.IdealBody.StepValues.lean ====
/-
  The stores each case leaves are the kernel body's own stored values, as the generated skeleton names
  them: every store is of a whole buffer, so what a list of them leaves is the last store's value, and a
  load of a whole buffer reads its contents — the accumulator read back after the zeroing store reads the
  zeros, and read back after the last block's store reads the finished sum.  So, point by point: the
  accumulator after the first point is the first block's product added to zeros; after a later point of
  the first half the point's block product added to what the point before left; the hidden rows are the
  third stored value of the finished accumulator; and the result's block at a point of the second half is
  the fourth stored value of that point's block of the incidence matrix and the hidden rows.
-/
import proofs.«129456_g19327352832290_cont_8to1_132_5_alg».proof.Proof.IdealBody.Steps
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

private theorem zeros2 : (![0, 0] : Fin 2 → ℕ) = fun _ => 0 := by funext a; fin_cases a <;> rfl

theorem firstPieces_eq (c : Dev nD) (i : grid0.Coords) (arg1 : Memref sig .tc .vmem S2000x1024 .f32) (harg1 : arg1.IsWhole) (arg2 : Memref sig .tc .vmem S2000x128 .f32) (harg2 : arg2.IsWhole) (arg3 : Memref sig .tc .vmem S128x256 .bf16) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S2000x256 .f32) (harg8 : arg8.IsWhole) (arg9 : Memref sig .tc .vmem S1024x128 .f32) (harg9 : arg9.IsWhole) (arg10 : Memref sig .tc .vmem S1024x256 .bf16) (harg10 : arg10.IsWhole) (hc0 : cond0_0 i) (hc1 : cond0_1 i) (hc2 : ¬cond0_2 i) (hc3 : ¬cond0_3 i)
    (x0 : Vec F S2000x1024 .f32) (x1 : Vec F S2000x128 .f32) :
    View.canon (runFirst c i arg1 harg1 arg2 harg2 arg3 harg3 arg4 harg4 arg5 harg5 arg6 harg6 arg7 harg7 arg8 harg8 arg9 harg9 arg10 harg10 hc0 hc1 hc2 hc3 x0 x1).1 = k0_pay2 x0 x1 (k0_pay1 (F := F)) := by
  unfold runFirst; dsimp only; sl_unfold_words
  rw [View.canon_cons_unit_zero zeros2, View.readCov_unit_zero _ zeros2]
  simp only [View.readAt_eq_ld, harg1.read_unread, harg2.read_unread, View.ld_unit_zero (S := S2000x1024) zeros2, View.ld_unit_zero (S := S2000x128) zeros2]

theorem accumPieces_eq (c : Dev nD) (i : grid0.Coords) (arg1 : Memref sig .tc .vmem S2000x1024 .f32) (harg1 : arg1.IsWhole) (arg2 : Memref sig .tc .vmem S2000x128 .f32) (harg2 : arg2.IsWhole) (arg3 : Memref sig .tc .vmem S128x256 .bf16) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S2000x256 .f32) (harg8 : arg8.IsWhole) (arg9 : Memref sig .tc .vmem S1024x128 .f32) (harg9 : arg9.IsWhole) (arg10 : Memref sig .tc .vmem S1024x256 .bf16) (harg10 : arg10.IsWhole) (hc0 : ¬cond0_0 i) (hc1 : cond0_1 i) (hc2 : ¬cond0_2 i) (hc3 : ¬cond0_3 i)
    (x0 : Vec F S2000x1024 .f32) (x1 : Vec F S2000x128 .f32) (xs0 : Vec F S1024x128 .f32) :
    View.canon (runAccum c i arg1 harg1 arg2 harg2 arg3 harg3 arg4 harg4 arg5 harg5 arg6 harg6 arg7 harg7 arg8 harg8 arg9 harg9 arg10 harg10 hc0 hc1 hc2 hc3 x0 x1 xs0).1 = k0_pay2 x0 x1 xs0 := by
  unfold runAccum; dsimp only; sl_unfold_words
  rw [View.canon_unit_zero zeros2]
  simp only [View.readAt_eq_ld, harg1.read_unread, harg2.read_unread, harg9.read_unread, View.ld_unit_zero (S := S2000x1024) zeros2, View.ld_unit_zero (S := S2000x128) zeros2, View.ld_unit_zero (S := S1024x128) zeros2]

theorem midAccPieces_eq (c : Dev nD) (i : grid0.Coords) (arg1 : Memref sig .tc .vmem S2000x1024 .f32) (harg1 : arg1.IsWhole) (arg2 : Memref sig .tc .vmem S2000x128 .f32) (harg2 : arg2.IsWhole) (arg3 : Memref sig .tc .vmem S128x256 .bf16) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S2000x256 .f32) (harg8 : arg8.IsWhole) (arg9 : Memref sig .tc .vmem S1024x128 .f32) (harg9 : arg9.IsWhole) (arg10 : Memref sig .tc .vmem S1024x256 .bf16) (harg10 : arg10.IsWhole) (hc0 : ¬cond0_0 i) (hc1 : cond0_1 i) (hc2 : cond0_2 i) (hc3 : ¬cond0_3 i)
    (x0 : Vec F S2000x1024 .f32) (x1 : Vec F S2000x128 .f32) (x2 : Vec F S128x256 .bf16) (x3 : Vec F S1x256 .f32) (x4 : Vec F S1x256 .f32) (xs0 : Vec F S1024x128 .f32) :
    View.canon (runMid c i arg1 harg1 arg2 harg2 arg3 harg3 arg4 harg4 arg5 harg5 arg6 harg6 arg7 harg7 arg8 harg8 arg9 harg9 arg10 harg10 hc0 hc1 hc2 hc3 x0 x1 x2 x3 x4 xs0).1.1 = k0_pay2 x0 x1 xs0 := by
  unfold runMid; dsimp only; sl_unfold_words
  rw [View.canon_unit_zero zeros2]
  simp only [View.readAt_eq_ld, harg1.read_unread, harg2.read_unread, harg9.read_unread, View.ld_unit_zero (S := S2000x1024) zeros2, View.ld_unit_zero (S := S2000x128) zeros2, View.ld_unit_zero (S := S1024x128) zeros2]

theorem midLatPieces_eq (c : Dev nD) (i : grid0.Coords) (arg1 : Memref sig .tc .vmem S2000x1024 .f32) (harg1 : arg1.IsWhole) (arg2 : Memref sig .tc .vmem S2000x128 .f32) (harg2 : arg2.IsWhole) (arg3 : Memref sig .tc .vmem S128x256 .bf16) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S2000x256 .f32) (harg8 : arg8.IsWhole) (arg9 : Memref sig .tc .vmem S1024x128 .f32) (harg9 : arg9.IsWhole) (arg10 : Memref sig .tc .vmem S1024x256 .bf16) (harg10 : arg10.IsWhole) (hc0 : ¬cond0_0 i) (hc1 : cond0_1 i) (hc2 : cond0_2 i) (hc3 : ¬cond0_3 i)
    (x0 : Vec F S2000x1024 .f32) (x1 : Vec F S2000x128 .f32) (x2 : Vec F S128x256 .bf16) (x3 : Vec F S1x256 .f32) (x4 : Vec F S1x256 .f32) (xs0 : Vec F S1024x128 .f32) :
    View.canon (runMid c i arg1 harg1 arg2 harg2 arg3 harg3 arg4 harg4 arg5 harg5 arg6 harg6 arg7 harg7 arg8 harg8 arg9 harg9 arg10 harg10 hc0 hc1 hc2 hc3 x0 x1 x2 x3 x4 xs0).1.2 = k0_pay3 (k0_pay2 x0 x1 xs0) x2 x3 x4 := by
  unfold runMid; dsimp only; sl_unfold_words
  rw [View.canon_unit_zero zeros2, View.readCov_unit_zero _ zeros2]
  simp only [View.readAt_eq_ld, harg1.read_unread, harg2.read_unread, harg3.read_unread, harg4.read_unread, harg5.read_unread, harg9.read_unread, View.ld_unit_zero (S := S2000x1024) zeros2, View.ld_unit_zero (S := S2000x128) zeros2, View.ld_unit_zero (S := S1024x128) zeros2, View.ld_unit_zero (S := S128x256) zeros2, View.ld_unit_zero (S := S1x256) zeros2]

theorem spreadPieces_eq (c : Dev nD) (i : grid0.Coords) (arg1 : Memref sig .tc .vmem S2000x1024 .f32) (harg1 : arg1.IsWhole) (arg2 : Memref sig .tc .vmem S2000x128 .f32) (harg2 : arg2.IsWhole) (arg3 : Memref sig .tc .vmem S128x256 .bf16) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S2000x256 .f32) (harg8 : arg8.IsWhole) (arg9 : Memref sig .tc .vmem S1024x128 .f32) (harg9 : arg9.IsWhole) (arg10 : Memref sig .tc .vmem S1024x256 .bf16) (harg10 : arg10.IsWhole) (hc0 : ¬cond0_0 i) (hc1 : ¬cond0_1 i) (hc2 : ¬cond0_2 i) (hc3 : cond0_3 i)
    (x0 : Vec F S2000x1024 .f32) (x5 : Vec F S1x256 .f32) (x6 : Vec F S1x256 .f32) (xs1 : Vec F S1024x256 .bf16) :
    View.canon (runSpread c i arg1 harg1 arg2 harg2 arg3 harg3 arg4 harg4 arg5 harg5 arg6 harg6 arg7 harg7 arg8 harg8 arg9 harg9 arg10 harg10 hc0 hc1 hc2 hc3 x0 x5 x6 xs1).1 = k0_pay4 x0 xs1 x5 x6 := by
  unfold runSpread; dsimp only; sl_unfold_words
  rw [View.canon_unit_zero zeros2]
  simp only [View.readAt_eq_ld, harg1.read_unread, harg6.read_unread, harg7.read_unread, harg10.read_unread, View.ld_unit_zero (S := S2000x1024) zeros2, View.ld_unit_zero (S := S1024x256) zeros2, View.ld_unit_zero (S := S1x256) zeros2]

/-! ## Point by point -/

/-- The accumulator after the first point: the first block's product added to zeros. -/
theorem accAt_zero (c : Dev nD) (h : 0 < cfg0.N) :
    accAt m c 0 h = k0_pay2 (iblk m c 0 ⟨0, h⟩) (iblk m c 1 ⟨0, h⟩) (k0_pay1 (F := F)) := by
  show accFirst m c ⟨0, h⟩ rfl = _
  unfold accFirst; exact firstPieces_eq ..

/-- The accumulator after a later point of the first half: the point's block product added to what the
    point before left. -/
theorem accAt_succ (c : Dev nD) (n : ℕ) (hn : n + 1 < cfg0.N) (h : n + 1 < 25) :
    accAt m c (n + 1) hn = k0_pay2 (iblk m c 0 ⟨n + 1, hn⟩) (iblk m c 1 ⟨n + 1, hn⟩) (accAt m c n (Nat.lt_of_succ_lt hn)) := by
  by_cases h1 : n + 1 < 24
  · rw [show accAt m c (n + 1) hn = accStep m c ⟨n + 1, hn⟩ (Nat.succ_ne_zero n) h1 (accAt m c n (Nat.lt_of_succ_lt hn)) from dif_pos h1]
    unfold accStep; exact accumPieces_eq ..
  · have h2 : n + 1 = 24 := by omega
    rw [show accAt m c (n + 1) hn = accLast m c ⟨n + 1, hn⟩ h2 (accAt m c n (Nat.lt_of_succ_lt hn)) from (dif_neg h1).trans (dif_pos h2)]
    unfold accLast; exact midAccPieces_eq ..

/-- In the second half the accumulator is no longer written. -/
theorem accAt_late (c : Dev nD) (n : ℕ) (hn : n + 1 < cfg0.N) (h : 25 ≤ n + 1) :
    accAt m c (n + 1) hn = accAt m c n (Nat.lt_of_succ_lt hn) :=
  (dif_neg (show ¬n + 1 < 24 by omega)).trans (dif_neg (show ¬n + 1 = 24 by omega))

/-- The hidden rows, written at point 24: the third stored value of the finished accumulator. -/
theorem latAt_24 (c : Dev nD) (h : 24 < cfg0.N) :
    latAt m c 24 h = k0_pay3 (accAt m c 24 h) (iblk m c 2 ⟨24, h⟩) (iblk m c 3 ⟨24, h⟩) (iblk m c 4 ⟨24, h⟩) := by
  rw [show latAt m c 24 h = latMid m c ⟨24, h⟩ rfl (accAt m c 23 (Nat.lt_of_succ_lt h)) from dif_pos rfl,
    accAt_succ m c 23 h (by omega)]
  unfold latMid; exact midLatPieces_eq ..

/-- and kept afterwards. -/
theorem latAt_late (c : Dev nD) (n : ℕ) (hn : n + 1 < cfg0.N) (h : 25 ≤ n + 1) :
    latAt m c (n + 1) hn = latAt m c n (Nat.lt_of_succ_lt hn) :=
  dif_neg (show ¬n + 1 = 24 by omega)

/-- So from point 24 on the hidden rows are what point 24 left. -/
theorem latAt_of_le (c : Dev nD) (n : ℕ) (hn : n < cfg0.N) (h : 24 ≤ n) :
    latAt m c n hn = latAt m c 24 (Nat.lt_of_le_of_lt h hn) := by
  induction n with
  | zero => omega
  | succ k ih =>
    by_cases hk : k + 1 = 24
    · obtain rfl : k = 23 := by omega
      rfl
    · rw [latAt_late m c k hn (by omega), ih (Nat.lt_of_succ_lt hn) (by omega)]

/-- The result's block at a point of the second half: the fourth stored value of the point's block of the
    incidence matrix, the hidden rows, the second gain and bias. -/
theorem outAt_eq (c : Dev nD) (t : Fin cfg0.N) (h : 25 ≤ t.val) :
    outAt m c t = k0_pay4 (iblk m c 0 t) (latAt m c 24 (by have := N_eq; omega)) (iblk m c 5 t) (iblk m c 6 t) := by
  rw [outAt_spread m c t h, latAt_of_le m c (t.val - 1) _ (by omega)]
  unfold outStep; exact spreadPieces_eq ..

end Cert.KernelIdeal.Gen

end
-- ==== Proof.IdealBody.BlockIndex.lean ====
/-
  Which rows of the arrays a grid point's blocks hold.  The incidence matrix and the node features are
  streamed in 25 blocks of 2000 rows.  In the first half of the grid point t holds block t of each; in
  the second half point t holds block 49 - t of the incidence matrix and writes block 49 - t of the result.
-/
import Mathlib.Data.Fin.Basic
import Mathlib.Tactic

namespace Cert.KernelIdeal.Result

/-- The block of the incidence matrix (and, in the second half, of the result) at the point numbered `t`. -/
def blockAt (t : ℕ) : ℕ := if t < 25 then t else 49 - t

theorem blockAt_lt (t : ℕ) (ht : t < 50) : blockAt t < 25 := by unfold blockAt; split <;> omega

theorem blockAt_early (t : ℕ) (ht : t < 25) : blockAt t = t := if_pos ht

theorem blockAt_late (t : ℕ) (ht : ¬t < 25) : blockAt t = 49 - t := if_neg ht

/-- Row `r` of block `b` as a row of the whole array. -/
def rowOf (b : ℕ) (hb : b < 25) (r : Fin 2000) : Fin 50000 := ⟨2000 * b + r.val, by have := r.isLt; omega⟩

@[simp] theorem rowOf_val (b : ℕ) (hb : b < 25) (r : Fin 2000) : (rowOf b hb r).val = 2000 * b + r.val := rfl

end Cert.KernelIdeal.Result
-- ==== Proof.IdealBody.BlockReads.lean ====
/-
  Each window's block at a grid point, read at a coordinate, is an entry of an argument array.

  The incidence matrix's window holds rows 2000 b … 2000 b + 1999 of it, b the point's block number (the
  point's own number in the first half of the grid, counted down from 49 in the second); the node features'
  window holds the same rows of the features in the first half.  A block's entry sits in its array, on each
  axis, at the block index times the block's extent plus the entry's own coordinate, and the printed index
  maps are decided once over the fifty points.  The weight's window holds the whole weight, which the program
  first changes to the narrower format — the identity on the extended reals —, and each gain's and bias's window
  holds the whole vector recast as a one-row matrix, whose entry (0, j) is the vector's entry j.
-/
import proofs.«129456_g19327352832290_cont_8to1_132_5_alg».proof.Proof.Gen.KernelIdeal.Frame
import proofs.«129456_g19327352832290_cont_8to1_132_5_alg».proof.Proof.IdealBody.BlockIndex
import proofs.«129456_g19327352832290_cont_8to1_132_5_alg».proof.Proof.IdealBody.Args
import Idealize.ShloMosaic.Lib.ValueIdx
import Idealize.ShloMosaic.Lib.Pipeline.Value
import Idealize.ShloMosaic.Lib.StableHlo.Run

set_option maxRecDepth 16384

noncomputable section

open scoped BigOperators

namespace Cert.KernelIdeal.Result

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ) (c : Dev nD)

/-! ## The printed index maps, decided over the grid -/

theorem idx0 : ∀ t : Fin cfg0.N, win0_0.index t (0 : Fin 2) = (if t.val < 25 then t.val else 49 - t.val) ∧ win0_0.index t (1 : Fin 2) = 0 :=
  (by decide +kernel : ∀ t : Fin grid0.N, _)
theorem idx1 : ∀ t : Fin cfg0.N, win0_1.index t (0 : Fin 2) = (if t.val < 25 then t.val else 0) ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)

/-! ## The two streamed arrays -/

/-- The incidence matrix's block at a point: the rows of the point's block number. -/
theorem adj_block (t : Fin cfg0.N) (r : Fin 2000) (h : Fin 1024) :
    iblk m c 0 t (ix2 r h) = adjOf m c (rowOf (blockAt t.val) (blockAt_lt t.val (lt_of_lt_of_eq t.isLt N_0)) r) h := by
  obtain ⟨e0, e1⟩ := idx0 t
  unfold iblk adjOf
  rw [View.read_apply]
  show V m c main_arg0 _ = m (c.tc.loc main_arg0) _
  rw [V_main_arg0]
  congr 1
  funext a
  apply Fin.ext
  match a with
  | ⟨0, _⟩ =>
    show win0_0.index t 0 * 2000 + 1 * r.val = 2000 * blockAt t.val + r.val
    rw [e0]; unfold blockAt; omega
  | ⟨1, _⟩ => show win0_0.index t 1 * 1024 + 1 * h.val = h.val; rw [e1]; omega

/-- The node features' block at a point of the first half: the rows of the point's own number. -/
theorem emb_block (t : Fin cfg0.N) (ht : t.val < 25) (r : Fin 2000) (d : Fin 128) :
    iblk m c 1 t (ix2 r d) = embOf m c (rowOf t.val ht r) d := by
  obtain ⟨e0, e1⟩ := idx1 t
  unfold iblk embOf
  rw [View.read_apply]
  show V m c main_arg1 _ = m (c.tc.loc main_arg1) _
  rw [V_main_arg1]
  congr 1
  funext a
  apply Fin.ext
  match a with
  | ⟨0, _⟩ =>
    show win0_1.index t 0 * 2000 + 1 * r.val = 2000 * t.val + r.val
    rw [e0, if_pos ht]; omega
  | ⟨1, _⟩ => show win0_1.index t 1 * 128 + 1 * d.val = d.val; rw [e1]; omega

/-! ## The arrays the program prepares before the grid -/

/-- The weight's window's array is the weight changed to the narrower format. -/
theorem V_main_v0 : @Eq (S128x256.Idx → EReal) (V m c main_v0)
    (truncf (F := Ideal) (s := S128x256) (φ := .f32) .bf16 (m ((c : Thread nD τ).loc main_arg2)) bitsLt_bf16_f32) := by
  dsimp only [V, hostOps0]; after_results <;> rfl

theorem V_main_v1 : @Eq (S1x256.Idx → EReal) (V m c main_v1)
    (shapeCast S1x256 (m ((c : Thread nD τ).loc main_arg3) : S256.Idx → EReal) shapeCasts_S256_S1x256) := by
  dsimp only [V, hostOps0]; after_results <;> rfl

theorem V_main_v2 : @Eq (S1x256.Idx → EReal) (V m c main_v2)
    (shapeCast S1x256 (m ((c : Thread nD τ).loc main_arg4) : S256.Idx → EReal) shapeCasts_S256_S1x256) := by
  dsimp only [V, hostOps0]; after_results <;> rfl

theorem V_main_v3 : @Eq (S1x256.Idx → EReal) (V m c main_v3)
    (shapeCast S1x256 (m ((c : Thread nD τ).loc main_arg5) : S256.Idx → EReal) shapeCasts_S256_S1x256) := by
  dsimp only [V, hostOps0]; after_results <;> rfl

theorem V_main_v4 : @Eq (S1x256.Idx → EReal) (V m c main_v4)
    (shapeCast S1x256 (m ((c : Thread nD τ).loc main_arg6) : S256.Idx → EReal) shapeCasts_S256_S1x256) := by
  dsimp only [V, hostOps0]; after_results <;> rfl

/-- A vector recast as a one-row matrix, read at (0, j), is the vector at j. -/
theorem row_apply (v : S256.Idx → EReal) (j : Fin 256) :
    shapeCast S1x256 v shapeCasts_S256_S1x256 (ix2 (0 : Fin 1) j) = v (ix1 j) := by
  refine shapeCast_apply v shapeCasts_S256_S1x256 (ix2 (0 : Fin 1) j) (ix1 j) ?_
  rw [Shape.rowMajor_val_one, Shape.rowMajor_val_two]
  show j.val = 0 * 256 + j.val
  omega

/-- The weight's block at any point: the whole weight. -/
theorem w_block (t : Fin cfg0.N) (d : Fin 128) (j : Fin 256) : iblk m c 2 t (ix2 d j) = wOf m c d j := by
  obtain ⟨e0, e1⟩ := idx2 t
  unfold iblk wOf
  rw [View.read_apply]
  show V m c main_v0 _ = _
  rw [V_main_v0]
  show m (c.tc.loc main_arg2) _ = m (c.tc.loc main_arg2) _
  congr 1
  funext a
  apply Fin.ext
  match a with
  | ⟨0, _⟩ => show win0_2.index t 0 * 128 + 1 * d.val = d.val; rw [e0]; omega
  | ⟨1, _⟩ => show win0_2.index t 1 * 256 + 1 * j.val = j.val; rw [e1]; omega

/-- The first gain's block at any point: the whole vector. -/
theorem g1_block (t : Fin cfg0.N) (j : Fin 256) :
    iblk m c 3 t (ix2 (0 : Fin 1) j) = g1Of m c j := by
  obtain ⟨e0, e1⟩ := idx3 t
  unfold iblk
  rw [View.read_apply]
  show V m c main_v1 _ = _
  rw [V_main_v1]
  refine Eq.trans ?_ (row_apply _ j)
  congr 1
  funext a
  apply Fin.ext
  match a with
  | ⟨0, _⟩ => show win0_3.index t 0 * 1 + 1 * 0 = 0; rw [e0]
  | ⟨1, _⟩ => show win0_3.index t 1 * 256 + 1 * j.val = j.val; rw [e1]; omega

/-- The first bias's block at any point: the whole vector. -/
theorem b1_block (t : Fin cfg0.N) (j : Fin 256) :
    iblk m c 4 t (ix2 (0 : Fin 1) j) = b1Of m c j := by
  obtain ⟨e0, e1⟩ := idx4 t
  unfold iblk
  rw [View.read_apply]
  show V m c main_v2 _ = _
  rw [V_main_v2]
  refine Eq.trans ?_ (row_apply _ j)
  congr 1
  funext a
  apply Fin.ext
  match a with
  | ⟨0, _⟩ => show win0_4.index t 0 * 1 + 1 * 0 = 0; rw [e0]
  | ⟨1, _⟩ => show win0_4.index t 1 * 256 + 1 * j.val = j.val; rw [e1]; omega

/-- The second gain's block at any point: the whole vector. -/
theorem g2_block (t : Fin cfg0.N) (j : Fin 256) :
    iblk m c 5 t (ix2 (0 : Fin 1) j) = g2Of m c j := by
  obtain ⟨e0, e1⟩ := idx5 t
  unfold iblk
  rw [View.read_apply]
  show V m c main_v3 _ = _
  rw [V_main_v3]
  refine Eq.trans ?_ (row_apply _ j)
  congr 1
  funext a
  apply Fin.ext
  match a with
  | ⟨0, _⟩ => show win0_5.index t 0 * 1 + 1 * 0 = 0; rw [e0]
  | ⟨1, _⟩ => show win0_5.index t 1 * 256 + 1 * j.val = j.val; rw [e1]; omega

/-- The second bias's block at any point: the whole vector. -/
theorem b2_block (t : Fin cfg0.N) (j : Fin 256) :
    iblk m c 6 t (ix2 (0 : Fin 1) j) = b2Of m c j := by
  obtain ⟨e0, e1⟩ := idx6 t
  unfold iblk
  rw [View.read_apply]
  show V m c main_v4 _ = _
  rw [V_main_v4]
  refine Eq.trans ?_ (row_apply _ j)
  congr 1
  funext a
  apply Fin.ext
  match a with
  | ⟨0, _⟩ => show win0_6.index t 0 * 1 + 1 * 0 = 0; rw [e0]
  | ⟨1, _⟩ => show win0_6.index t 1 * 256 + 1 * j.val = j.val; rw [e1]; omega

end Cert.KernelIdeal.Result

end
-- ==== Proof.LibFirstAxesMatmul.lean ====
/-
  A matrix product that contracts the FIRST axis of both operands, read at one entry.

  The matrix unit's contraction with dimension numbers "contraction × rows times contraction × columns"
  (left contracting axis 0, right contracting axis 0, no batch axis: the left operand is read transposed),
  accumulated into the zero splat, is at the ideal values the product of the left operand's transpose with the
  right operand: entry (i, j) is the sum over the contraction coordinate k of l (k, i) · r (k, j).  The statement
  is over any dimension record whose six lists are those of this product, so it applies to a printed record
  whatever name it carries.
-/
import Idealize.ShloMosaic.Lib.ValueIdx
import Idealize.ShloMosaic.PureOps.Ideal.Laws

noncomputable section

open scoped BigOperators

namespace Idealize.ShloMosaic.FirstAxesMatmul

open Idealize.ShloMosaic Idealize.ShloMosaic.ValueIdx

/-- Entry (i, j) of a K×M by K×N `tpu.matmul` contracting both first axes into the zero accumulator, at the ideal
    values: the sum over the K contraction coordinates of the left operand's column entry times the right
    operand's column entry. -/
theorem matmul_zero_apply {M K N : Nat} {φ₁ φ₂ : FTy}
    (D : DotDims ⟨2, ![K, M]⟩ ⟨2, ![K, N]⟩ ⟨2, ![M, N]⟩)
    (hlc : D.lhsContracting = [0]) (hrc : D.rhsContracting = [0]) (hln : D.lhsNonContracting = [1])
    (hrn : D.rhsNonContracting = [1]) (hlb : D.lhsBatch = []) (hrb : D.rhsBatch = [])
    (prec : Option ContractPrecision) (l : FVec Ideal ⟨2, ![K, M]⟩ φ₁) (r : FVec Ideal ⟨2, ![K, N]⟩ φ₂)
    (i : Fin M) (j : Fin N) :
    matmul D prec l r (constant ⟨2, ![M, N]⟩ .f32 0x00000000#32) (ix2 i j)
      = ∑ k : Fin K, l (ix2 k i) * r (ix2 k j) := by
  obtain ⟨lc, rc, ln, rn, lb, rb, wf⟩ := D
  dsimp only at hlc hrc hln hrn hlb hrb
  subst hlc hrc hln hrn hlb hrb
  refine (Ideal.matmul_constant_zero_apply _ prec l r (ix2 i j)).trans ?_
  rw [← Equiv.sum_comp (contrEquiv1 (⟨[0], [0], [1], [1], [], [], wf⟩ : DotDims ⟨2, ![K, M]⟩ ⟨2, ![K, N]⟩ ⟨2, ![M, N]⟩) K rfl rfl).symm]
  refine Finset.sum_congr rfl fun k _ => ?_
  have hk := contrEquiv1_symm_val (⟨[0], [0], [1], [1], [], [], wf⟩ : DotDims ⟨2, ![K, M]⟩ ⟨2, ![K, N]⟩ ⟨2, ![M, N]⟩) K rfl rfl k
  have el : DotDims.lhsIdx (⟨[0], [0], [1], [1], [], [], wf⟩ : DotDims ⟨2, ![K, M]⟩ ⟨2, ![K, N]⟩ ⟨2, ![M, N]⟩) (ix2 i j)
      ((contrEquiv1 (⟨[0], [0], [1], [1], [], [], wf⟩ : DotDims ⟨2, ![K, M]⟩ ⟨2, ![K, N]⟩ ⟨2, ![M, N]⟩) K rfl rfl).symm k) = ix2 k i :=
    funext fun a => Fin.ext (by
      match a with
      | ⟨0, _⟩ => exact (DotDims.lhsIdx_val_of_single _ rfl _ _).trans hk
      | ⟨1, _⟩ =>
        unfold DotDims.lhsIdx
        rw [dif_neg (by exact List.not_mem_nil), dif_pos (by exact List.mem_singleton.mpr rfl)]
        rfl)
  have er : DotDims.rhsIdx (⟨[0], [0], [1], [1], [], [], wf⟩ : DotDims ⟨2, ![K, M]⟩ ⟨2, ![K, N]⟩ ⟨2, ![M, N]⟩) (ix2 i j)
      ((contrEquiv1 (⟨[0], [0], [1], [1], [], [], wf⟩ : DotDims ⟨2, ![K, M]⟩ ⟨2, ![K, N]⟩ ⟨2, ![M, N]⟩) K rfl rfl).symm k) = ix2 k j :=
    funext fun a => Fin.ext (by
      match a with
      | ⟨0, _⟩ => exact (DotDims.rhsIdx_val_of_single _ rfl _ _).trans hk
      | ⟨1, _⟩ =>
        unfold DotDims.rhsIdx
        rw [dif_neg (by exact List.not_mem_nil), dif_pos (by exact List.mem_singleton.mpr rfl)]
        rfl)
  rw [el, er]

end Idealize.ShloMosaic.FirstAxesMatmul

end
-- ==== Proof.IdealBody.StoredValues12.lean ====
/-
  The kernel body's first two stored values read at an index, on the extended reals.

  The first is the zero block the accumulator starts from.  The second is one accumulation step: the
  accumulator plus the product of the incidence block, transposed, with the feature block — entry (h, d) is
  the accumulator's entry plus the sum over the block's rows r of a (r, h) · e (r, d).  The change of format
  before the product is the identity on the extended reals.
-/
import proofs.«129456_g19327352832290_cont_8to1_132_5_alg».proof.Proof.Gen.KernelIdeal.Skeleton
import proofs.«129456_g19327352832290_cont_8to1_132_5_alg».proof.Proof.HyperConvSpec
import proofs.«129456_g19327352832290_cont_8to1_132_5_alg».proof.Proof.LibFirstAxesMatmul
import Idealize.ShloMosaic.Lib.Pipeline.Value

noncomputable section

open scoped BigOperators

namespace Cert.KernelIdeal.StoredValues

open Idealize.ShloMosaic Idealize.ShloMosaic.ValueIdx Cert.KernelIdeal Cert.KernelIdeal.Gen

/-- The block the accumulator is initialised with is zero everywhere. -/
theorem pay1_apply (h : Fin 1024) (d : Fin 128) : k0_pay1 (F := Ideal) (ix2 h d) = 0 := by
  unfold k0_pay1
  rw [shapeCast_self]
  exact Ideal.ofBits_zero_f32

/-- One accumulation step at (h, d): the accumulator there plus the sum over the block's rows of the products. -/
theorem pay2_apply (x0 : Vec Ideal S2000x1024 .f32) (x1 : Vec Ideal S2000x128 .f32) (s : Vec Ideal S1024x128 .f32)
    (h : Fin 1024) (d : Fin 128) :
    k0_pay2 x0 x1 s (ix2 h d) = s (ix2 h d) + ∑ r : Fin 2000, x0 (ix2 r h) * x1 (ix2 r d) := by
  unfold k0_pay2
  rw [shapeCast_self]
  exact congrArg (s (ix2 h d) + ·)
    (FirstAxesMatmul.matmul_zero_apply dot_S2000x1024_S2000x128_S1024x128_0_0_1_1_n_n rfl rfl rfl rfl rfl rfl none
      (truncf .bf16 x0 bitsLt_bf16_f32) (truncf .bf16 x1 bitsLt_bf16_f32) h d)

end Cert.KernelIdeal.StoredValues

end
-- ==== Proof.LibPlainMatmul.lean ====
/-
  A plain matrix product read at one entry.

  The matrix unit's contraction with dimension numbers "rows × contraction times contraction × columns"
  (left contracting axis 1, right contracting axis 0, no batch axis), accumulated into the zero splat, is at the
  ideal values the textbook product: entry (i, j) is the sum over the contraction coordinate k of
  l (i, k) · r (k, j).  The statement is over any dimension record whose six lists are those of the plain
  product, so it applies to a printed record whatever name it carries.
-/
import Idealize.ShloMosaic.Lib.ValueIdx
import Idealize.ShloMosaic.PureOps.Ideal.Laws

noncomputable section

open scoped BigOperators

namespace Idealize.ShloMosaic.PlainMatmul

open Idealize.ShloMosaic Idealize.ShloMosaic.ValueIdx

/-- Entry (i, j) of an M×K by K×N `tpu.matmul` into the zero accumulator, at the ideal values: the sum over the
    K contraction coordinates of the left operand's row entry times the right operand's column entry. -/
theorem matmul_zero_apply {M K N : Nat} {φ₁ φ₂ : FTy}
    (D : DotDims ⟨2, ![M, K]⟩ ⟨2, ![K, N]⟩ ⟨2, ![M, N]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (l : FVec Ideal ⟨2, ![M, K]⟩ φ₁) (r : FVec Ideal ⟨2, ![K, N]⟩ φ₂)
    (i : Fin M) (j : Fin N) :
    matmul D prec l r (constant ⟨2, ![M, N]⟩ .f32 0x00000000#32) (ix2 i j)
      = ∑ k : Fin K, l (ix2 i k) * r (ix2 k j) := by
  obtain ⟨lc, rc, ln, rn, lb, rb, wf⟩ := D
  dsimp only at hlc hrc hln hrn hlb hrb
  subst hlc hrc hln hrn hlb hrb
  refine (Ideal.matmul_constant_zero_apply _ prec l r (ix2 i j)).trans ?_
  rw [← Equiv.sum_comp (contrEquiv1 (⟨[1], [0], [0], [1], [], [], wf⟩ : DotDims ⟨2, ![M, K]⟩ ⟨2, ![K, N]⟩ ⟨2, ![M, N]⟩) K rfl rfl).symm]
  refine Finset.sum_congr rfl fun k _ => ?_
  have hk := contrEquiv1_symm_val (⟨[1], [0], [0], [1], [], [], wf⟩ : DotDims ⟨2, ![M, K]⟩ ⟨2, ![K, N]⟩ ⟨2, ![M, N]⟩) K rfl rfl k
  have el : DotDims.lhsIdx (⟨[1], [0], [0], [1], [], [], wf⟩ : DotDims ⟨2, ![M, K]⟩ ⟨2, ![K, N]⟩ ⟨2, ![M, N]⟩) (ix2 i j)
      ((contrEquiv1 (⟨[1], [0], [0], [1], [], [], wf⟩ : DotDims ⟨2, ![M, K]⟩ ⟨2, ![K, N]⟩ ⟨2, ![M, N]⟩) K rfl rfl).symm k) = ix2 i k :=
    funext fun a => Fin.ext (by
      match a with
      | ⟨0, _⟩ =>
        unfold DotDims.lhsIdx
        rw [dif_neg (by exact List.not_mem_nil), dif_pos (by exact List.mem_singleton.mpr rfl)]
        rfl
      | ⟨1, _⟩ => exact (DotDims.lhsIdx_val_of_single _ rfl _ _).trans hk)
  have er : DotDims.rhsIdx (⟨[1], [0], [0], [1], [], [], wf⟩ : DotDims ⟨2, ![M, K]⟩ ⟨2, ![K, N]⟩ ⟨2, ![M, N]⟩) (ix2 i j)
      ((contrEquiv1 (⟨[1], [0], [0], [1], [], [], wf⟩ : DotDims ⟨2, ![M, K]⟩ ⟨2, ![K, N]⟩ ⟨2, ![M, N]⟩) K rfl rfl).symm k) = ix2 k j :=
    funext fun a => Fin.ext (by
      match a with
      | ⟨0, _⟩ => exact (DotDims.rhsIdx_val_of_single _ rfl _ _).trans hk
      | ⟨1, _⟩ =>
        unfold DotDims.rhsIdx
        rw [dif_neg (by exact List.not_mem_nil), dif_pos (by exact List.mem_singleton.mpr rfl)]
        rfl)
  rw [el, er]

end Idealize.ShloMosaic.PlainMatmul

end
-- ==== Proof.LibKeptColumn.lean ====
/-
  Two layout facts about a column kept after a row reduction (a sum with the reduced axis kept as a unit axis):
  a vector of length a cast to an [a, 1] column, and an [a, 1] column spread along the rows of an [a, b] array, each read
  at an index.
-/
import Idealize.ShloMosaic.Lib.Pipeline.Value
import Idealize.ShloMosaic.Lib.ValueIdx

noncomputable section

namespace Idealize.ShloMosaic.KeptColumn

open Idealize.ShloMosaic Idealize.ShloMosaic.ValueIdx

variable {α : Type}

/-- An `[a]` array cast to an `[a, 1]` column reads, at `(i, u)`, the operand at `i`, whatever the unit coordinate `u`:
    both indices have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`: the unit axis is read at 0,
    the row axis at `p` (when `a = 1` the only row is row 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.KeptColumn

end
-- ==== Proof.LibSumsAtIndex.lean ====
/-
  Reductions and re-laid arrays read at an index given by coordinates, at the ideal values.

  A sum along the columns of an [a, b] array is, at row r, the sum over d of the entries (r, d); a sum along its rows is,
  at column j, the sum over r of the entries (r, j) (for the vector unit's reduction, which starts from nothing, and for
  the host's, which starts from an initial value). An [a, 1] column read as a vector of length a, and an [a, 1, b] array
  read as an [a, b] matrix, keep every element at its row-major position. A sum over the indices of a vector is the sum
  over its coordinate.
-/
import Idealize.ShloMosaic.Lib.Pipeline.Value
import Idealize.ShloMosaic.Lib.ValueIdx
import Idealize.ShloMosaic.PureOps.Ideal.Laws

noncomputable section

open scoped BigOperators

namespace Idealize.ShloMosaic.SumsAtIndex

open Idealize.ShloMosaic Idealize.ShloMosaic.ValueIdx

/-- The vector unit's sum along axis 1 of an [a, b] array, at row r: the sum of row r. -/
theorem rowsum_apply {a b : ℕ} (src : FVec Ideal ⟨2, ![a, b]⟩ .f32) (acc : BitVec FTy.f32.bits)
    (h : (⟨2, ![a, b]⟩ : Shape).Reduces [1] ⟨1, ![a]⟩) (hφ : FKind.Formats .f32) (hacc : acc = FKind.add.neutral .f32 hφ) (r : Fin a) :
    multiReduction .add [1] ⟨1, ![a]⟩ src acc h hφ hacc (ix1 r) = ∑ d : Fin b, src (ix2 r d) := by
  refine (Ideal.multiReduction_add_single src acc h hφ hacc (ix1 r)).trans ?_
  refine Finset.sum_congr rfl fun d _ => congrArg src (funext fun ax => Fin.ext ?_)
  match ax with
  | ⟨0, _⟩ => rfl
  | ⟨1, _⟩ => rfl

/-- The vector unit's sum along axis 0 of an [a, b] array, at column j: the sum of column j. -/
theorem colsum_apply {a b : ℕ} (src : FVec Ideal ⟨2, ![a, b]⟩ .f32) (acc : BitVec FTy.f32.bits)
    (h : (⟨2, ![a, b]⟩ : Shape).Reduces [0] ⟨1, ![b]⟩) (hφ : FKind.Formats .f32) (hacc : acc = FKind.add.neutral .f32 hφ) (j : Fin b) :
    multiReduction .add [0] ⟨1, ![b]⟩ src acc h hφ hacc (ix1 j) = ∑ r : Fin a, src (ix2 r j) := by
  refine (Ideal.multiReduction_add_single src acc h hφ hacc (ix1 j)).trans ?_
  refine Finset.sum_congr rfl fun r _ => congrArg src (funext fun ax => Fin.ext ?_)
  match ax with
  | ⟨0, _⟩ => rfl
  | ⟨1, _⟩ => rfl

/-- The host's sum along axis 0 of an [a, b] array from an initial value, at column j. -/
theorem hostColsum_apply {a b : ℕ} (x : (⟨2, ![a, b]⟩ : Shape).Idx → EReal) (init : EReal)
    (h' : (⟨2, ![a, b]⟩ : Shape).ReducesTo [0] ⟨1, ![b]⟩) (h : (⟨2, ![a, b]⟩ : Shape).Reduces [0] ⟨1, ![b]⟩) (j : Fin b) :
    Ideal.hostReduceAdd h' x init (ix1 j) = init + ∑ r : Fin a, x (ix2 r j) := by
  refine (Ideal.hostReduceAdd_single h' h x init (ix1 j)).trans ?_
  refine congrArg (init + ·) (Finset.sum_congr rfl fun r _ => congrArg x (funext fun ax => Fin.ext ?_))
  match ax with
  | ⟨0, _⟩ => rfl
  | ⟨1, _⟩ => rfl

/-- A sum over the indices of a vector of length a is the sum over its coordinate. -/
theorem sum_idx1 {M : Type*} [AddCommMonoid M] {a : ℕ} (f : (⟨1, ![a]⟩ : Shape).Idx → M) : ∑ i, f i = ∑ k : Fin a, f (ix1 k) := by
  let e : Fin a ≃ (⟨1, ![a]⟩ : Shape).Idx :=
    { toFun := fun k => ix1 k, invFun := fun i => i 0, left_inv := fun _ => rfl, right_inv := fun i => (eq_ix1 i).symm }
  exact (Equiv.sum_comp e f).symm

/-- The host's sum of a whole vector of length a from an initial value. -/
theorem hostTotal_apply {a : ℕ} (x : (⟨1, ![a]⟩ : Shape).Idx → EReal) (init : EReal)
    (h' : (⟨1, ![a]⟩ : Shape).ReducesTo [0] ⟨0, ![]⟩) (i : (⟨0, ![]⟩ : Shape).Idx) :
    Ideal.hostReduceAdd h' x init i = init + ∑ k : Fin a, x (ix1 k) := by
  rw [Ideal.hostReduceAdd_total h' (fun b => b.elim0) x init i, sum_idx1]

/-- An [a, 1] column read as a vector: entry i is the column's entry (i, 0). -/
theorem shapeCast_a1_a_apply {α : Type} {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- An [a, 1, b] array read as an [a, b] matrix: entry (i, j) is the array's entry (i, 0, j). -/
theorem shapeCast_a1b_ab_apply {α : Type} {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

end Idealize.ShloMosaic.SumsAtIndex

end
-- ==== Proof.IdealBody.NormBlock.lean ====
/-
  The kernel's row normalisation of an [a, n] block, read at an index, on the extended reals.

  The kernel normalises a block `z` row by row: the column of row sums divided by the row length is the
  column of means; the block minus that column spread along the rows is the centred block; the column of
  row sums of its squares divided by the row length is the column of variances; the reciprocal square
  root of that column plus the epsilon, spread along the rows, multiplies the centred block; a gain row
  and a bias row, spread down the rows, scale and shift the result.  Read at (p, q) this is the row
  normalisation, in its reciprocal-square-root spelling, of row p of `z` at q.  The rectifier applied
  to each entry afterwards is the leaky rectifier of that entry.
-/
import Idealize.ShloMosaic.Lib.ValueIdx
import Idealize.ShloMosaic.Lib.Pipeline.Value
import Idealize.ShloMosaic.Lib.ValueLayout
import Idealize.ShloMosaic.PureOps.Ideal.Laws
import proofs.«129456_g19327352832290_cont_8to1_132_5_alg».proof.Proof.HyperConvSpec
import proofs.«129456_g19327352832290_cont_8to1_132_5_alg».proof.Proof.LibKeptColumn
import proofs.«129456_g19327352832290_cont_8to1_132_5_alg».proof.Proof.LibSumsAtIndex

noncomputable section

open scoped BigOperators

namespace Cert.KernelIdeal.StoredValues

open Idealize.ShloMosaic Idealize.ShloMosaic.ValueIdx Cert.HyperConv

section Block

variable {a n : ℕ} (z : FVec Ideal ⟨2, ![a, n]⟩ .f32) (g b : FVec Ideal ⟨2, ![1, n]⟩ .f32)
  (hr : (⟨2, ![a, n]⟩ : Shape).Reduces [1] ⟨1, ![a]⟩)
  (hc : (⟨1, ![a]⟩ : Shape).ShapeCasts ⟨2, ![a, 1]⟩)
  (hcol : (⟨2, ![a, 1]⟩ : Shape).Broadcasts ⟨2, ![a, n]⟩)
  (hrow : (⟨2, ![1, n]⟩ : Shape).Broadcasts ⟨2, ![a, n]⟩)
  (hs : (⟨2, ![1, n]⟩ : Shape).ShapeCasts ⟨2, ![1, n]⟩)
  (hφ : FKind.Formats .f32) (hacc : (0x00000000#32 : BitVec FTy.f32.bits) = FKind.add.neutral .f32 hφ)

/-- The column of row means: each row's sum, kept as a column, divided by the row length. -/
def meanCol : FVec Ideal ⟨2, ![a, 1]⟩ .f32 :=
  divf (shapeCast ⟨2, ![a, 1]⟩ (multiReduction .add [1] ⟨1, ![a]⟩ z 0x00000000#32 hr hφ hacc) hc)
    (broadcast ⟨2, ![a, 1]⟩ (Scalar.ofBits .f32 0x43800000#32))

/-- The centred block: each entry minus its row's mean. -/
def centred : FVec Ideal ⟨2, ![a, n]⟩ .f32 :=
  subf z (broadcastTo ⟨2, ![a, n]⟩ (meanCol z hr hc hφ hacc) hcol)

/-- The column of row variances: each row's sum of squared deviations divided by the row length. -/
def varCol : FVec Ideal ⟨2, ![a, 1]⟩ .f32 :=
  divf (shapeCast ⟨2, ![a, 1]⟩ (multiReduction .add [1] ⟨1, ![a]⟩
      (mulf (centred z hr hc hcol hφ hacc) (centred z hr hc hcol hφ hacc)) 0x00000000#32 hr hφ hacc) hc)
    (broadcast ⟨2, ![a, 1]⟩ (Scalar.ofBits .f32 0x43800000#32))

/-- The column of reciprocal square roots of the shifted variances. -/
def rstdCol : FVec Ideal ⟨2, ![a, 1]⟩ .f32 :=
  rsqrt (addf (varCol z hr hc hcol hφ hacc) (broadcast ⟨2, ![a, 1]⟩ (Scalar.ofBits .f32 0x3727C5AC#32)))

/-- The normalised block: centred, scaled by the reciprocal square roots, by the gain row, shifted by the bias row. -/
def normBlock : FVec Ideal ⟨2, ![a, n]⟩ .f32 :=
  addf
    (mulf
      (mulf (centred z hr hc hcol hφ hacc) (broadcastTo ⟨2, ![a, n]⟩ (rstdCol z hr hc hcol hφ hacc) hcol))
      (broadcastTo ⟨2, ![a, n]⟩ (shapeCast ⟨2, ![1, n]⟩ g hs) hrow))
    (broadcastTo ⟨2, ![a, n]⟩ (shapeCast ⟨2, ![1, n]⟩ b hs) hrow)

/-- The mean column at row p is the mean of row p. -/
theorem meanCol_apply (p : Fin a) (u : Fin 1) :
    meanCol z hr hc hφ hacc (ix2 p u) = mean (fun q => z (ix2 p q)) := by
  unfold meanCol
  rw [divf_apply, KeptColumn.shapeCast_a_a1_apply, SumsAtIndex.rowsum_apply]
  rfl

/-- The centred block at (p, q) is the entry minus the mean of row p. -/
theorem centred_apply (p : Fin a) (q : Fin n) :
    centred z hr hc hcol hφ hacc (ix2 p q) = z (ix2 p q) - mean (fun q => z (ix2 p q)) := by
  unfold centred
  rw [subf_apply, KeptColumn.broadcastTo_a1_ab_apply, meanCol_apply]

/-- The variance column at row p is the variance of row p. -/
theorem varCol_apply (p : Fin a) (u : Fin 1) :
    varCol z hr hc hcol hφ hacc (ix2 p u) = var (fun q => z (ix2 p q)) := by
  unfold varCol
  rw [divf_apply, KeptColumn.shapeCast_a_a1_apply, SumsAtIndex.rowsum_apply]
  unfold var
  refine congrArg (fun t => Ideal.div t _) (Finset.sum_congr rfl fun d _ => ?_)
  rw [mulf_apply, centred_apply]

/-- The reciprocal square root column at row p. -/
theorem rstdCol_apply (p : Fin a) (u : Fin 1) :
    rstdCol z hr hc hcol hφ hacc (ix2 p u) = Ideal.rsqrt (var (fun q => z (ix2 p q)) + eps) := by
  unfold rstdCol
  show Ideal.rsqrt (addf (varCol z hr hc hcol hφ hacc) (broadcast ⟨2, ![a, 1]⟩ (Scalar.ofBits .f32 0x3727C5AC#32)) (ix2 p u)) = _
  rw [addf_apply, varCol_apply]
  rfl

/-- The normalised block at (p, q) is the row normalisation of row p at q, with the gain and bias rows' entries at q. -/
theorem normBlock_apply (p : Fin a) (q : Fin n) :
    normBlock z g b hr hc hcol hrow hs hφ hacc (ix2 p q)
      = normRsqrt (fun q => z (ix2 p q)) (fun q => g (ix2 (0 : Fin 1) q)) (fun q => b (ix2 (0 : Fin 1) q)) q := by
  unfold normBlock
  rw [addf_apply, mulf_apply, mulf_apply, centred_apply, KeptColumn.broadcastTo_a1_ab_apply, rstdCol_apply,
    broadcastTo_1b_ab_apply, broadcastTo_1b_ab_apply, shapeCast_self, shapeCast_self]
  rfl

end Block

/-- The rectifier as the kernel spells it — the entry where it is at least zero, the slope times it elsewhere —
    read at an index, is the leaky rectifier of the entry. -/
theorem leaky_select_apply {s : Shape} (v : FVec Ideal s .f32) (i : s.Idx) :
    select (cmpf .oge v (broadcast s (Scalar.ofBits .f32 0x00000000#32))) v
        (mulf (broadcast s (Scalar.ofBits .f32 0x3E4CCCCD#32)) v) i
      = leaky (v i) := rfl

end Cert.KernelIdeal.StoredValues

end
-- ==== Proof.IdealBody.StoredValues34.lean ====
/-
  The kernel body's last two stored values read at an index, on the extended reals.

  The third is the hidden block: the accumulator times the weight, normalised row by row with the first gain
  and bias rows — entry (h, j) is the row normalisation, in its reciprocal-square-root spelling, of row h of the
  linear layer's result.  The fourth is an output block: the incidence block times the hidden rows, normalised
  with the second gain and bias rows, through the leaky rectifier.  The changes of format before a product and
  before the hidden block is stored are the identity on the extended reals.
-/
import proofs.«129456_g19327352832290_cont_8to1_132_5_alg».proof.Proof.Gen.KernelIdeal.Skeleton
import proofs.«129456_g19327352832290_cont_8to1_132_5_alg».proof.Proof.HyperConvSpec
import proofs.«129456_g19327352832290_cont_8to1_132_5_alg».proof.Proof.LibPlainMatmul
import proofs.«129456_g19327352832290_cont_8to1_132_5_alg».proof.Proof.IdealBody.NormBlock

noncomputable section

open scoped BigOperators

namespace Cert.KernelIdeal.StoredValues

open Idealize.ShloMosaic Idealize.ShloMosaic.ValueIdx Cert.KernelIdeal Cert.KernelIdeal.Gen

/-- The hidden block at (h, j): the row normalisation of row h of the accumulator times the weight. -/
theorem pay3_apply (s : Vec Ideal S1024x128 .f32) (w : Vec Ideal S128x256 .bf16) (g b : Vec Ideal S1x256 .f32)
    (h : Fin 1024) (j : Fin 256) :
    k0_pay3 s w g b (ix2 h j)
      = Cert.HyperConv.normRsqrt
          (fun j => Cert.HyperConv.lin (fun h d => s (ix2 h d)) (fun d j => w (ix2 d j)) h j)
          (fun j => g (ix2 (0 : Fin 1) j)) (fun j => b (ix2 (0 : Fin 1) j)) j := by
  unfold k0_pay3
  refine (congrFun (shapeCast_self _ shapeCasts_S1024x256_S1024x256) (ix2 h j)).trans ?_
  show normBlock
      (matmul dot_S1024x128_S128x256_S1024x256_1_0_0_1_n_n none (truncf .bf16 s bitsLt_bf16_f32)
        (shapeCast S128x256 w shapeCasts_S128x256_S128x256) (constant S1024x256 .f32 0x00000000#32))
      g b reduces_S1024x256_S1024 shapeCasts_S1024_S1024x1 broadcasts_S1024x1_S1024x256 broadcasts_S1x256_S1024x256
      shapeCasts_S1x256_S1x256 (.inl rfl) rfl (ix2 h j) = _
  refine (normBlock_apply _ g b _ _ _ _ _ _ _ h j).trans ?_
  refine congrArg (fun x => Cert.HyperConv.normRsqrt x _ _ j) (funext fun q => ?_)
  refine (PlainMatmul.matmul_zero_apply dot_S1024x128_S128x256_S1024x256_1_0_0_1_n_n rfl rfl rfl rfl rfl rfl none
    (truncf .bf16 s bitsLt_bf16_f32) (shapeCast S128x256 w shapeCasts_S128x256_S128x256) h q).trans ?_
  rw [shapeCast_self]
  rfl

/-- An output block at (r, j): the leaky rectifier of the row normalisation of row r of the incidence block times
    the hidden rows. -/
theorem pay4_apply (x0 : Vec Ideal S2000x1024 .f32) (l : Vec Ideal S1024x256 .bf16) (g b : Vec Ideal S1x256 .f32)
    (r : Fin 2000) (j : Fin 256) :
    k0_pay4 x0 l g b (ix2 r j)
      = Cert.HyperConv.leaky (Cert.HyperConv.normRsqrt
          (fun j => Cert.HyperConv.spread (fun r h => x0 (ix2 r h)) (fun h j => l (ix2 h j)) r j)
          (fun j => g (ix2 (0 : Fin 1) j)) (fun j => b (ix2 (0 : Fin 1) j)) j) := by
  unfold k0_pay4
  show Cert.HyperConv.leaky (normBlock
      (matmul dot_S2000x1024_S1024x256_S2000x256_1_0_0_1_n_n none (truncf .bf16 x0 bitsLt_bf16_f32) l
        (constant S2000x256 .f32 0x00000000#32))
      g b reduces_S2000x256_S2000 shapeCasts_S2000_S2000x1 broadcasts_S2000x1_S2000x256 broadcasts_S1x256_S2000x256
      shapeCasts_S1x256_S1x256 (.inl rfl) rfl (ix2 r j)) = _
  refine (congrArg Cert.HyperConv.leaky (normBlock_apply _ g b _ _ _ _ _ _ _ r j)).trans ?_
  refine congrArg (fun x => Cert.HyperConv.leaky (Cert.HyperConv.normRsqrt x _ _ j)) (funext fun q => ?_)
  exact PlainMatmul.matmul_zero_apply dot_S2000x1024_S1024x256_S2000x256_1_0_0_1_n_n rfl rfl rfl rfl rfl rfl none
    (truncf .bf16 x0 bitsLt_bf16_f32) l r q

end Cert.KernelIdeal.StoredValues

end
-- ==== Proof.IdealBody.StoredValues.lean ====
/-
  The kernel body's four stored values read at an index, on the extended reals: the zero block and the
  accumulation step (the first two), the hidden block and the output block (the last two).
-/
import proofs.«129456_g19327352832290_cont_8to1_132_5_alg».proof.Proof.IdealBody.StoredValues12
import proofs.«129456_g19327352832290_cont_8to1_132_5_alg».proof.Proof.IdealBody.StoredValues34
-- ==== Proof.LibFinSums.lean ====
/-
  Finite sums re-indexed.

  Four facts about sums in a commutative monoid, none of which needs more than commutativity and associativity of the
  addition (so they hold on the extended reals at the infinities too): a sum over `m · n` consecutive naturals is the
  sum over `m` blocks of `n`; a sum over the indices of a vector is the sum over its coordinate; a sum over the
  indices of an [a, 1, b] array is the double sum over its first and last coordinates; and three nested finite sums
  may be read in the opposite nesting order.
-/
import Idealize.ShloMosaic.PureOps.Ideal
import Idealize.ShloMosaic.Lib.ValueIdx

namespace Idealize.ShloMosaic.FinSums

open Idealize.ShloMosaic Idealize.ShloMosaic.ValueIdx

/-- A sum over `N = m · n` consecutive naturals is the sum over `m` blocks of `n`. -/
theorem sum_blocks {M : Type*} [AddCommMonoid M] (m n N : ℕ) (h : N = m * n) (f : ℕ → M) :
    ∑ r : Fin N, f r.val = ∑ i : Fin m, ∑ j : Fin n, f (i.val * n + j.val) := by
  subst h
  rw [← finProdFinEquiv.sum_comp, Fintype.sum_prod_type]
  refine Finset.sum_congr rfl fun i _ => Finset.sum_congr rfl fun j _ => ?_
  refine congrArg f ?_
  show j.val + n * i.val = i.val * n + j.val
  rw [Nat.mul_comm, Nat.add_comm]

/-- A sum over the indices of a vector is the sum over its one coordinate. -/
theorem sum_rank1 {M : Type*} [AddCommMonoid M] {n : ℕ} (f : (⟨1, ![n]⟩ : Shape).Idx → M) :
    ∑ j, f j = ∑ r : Fin n, f (ix1 r) :=
  Fintype.sum_equiv ⟨fun j => (j 0 : Fin n), ix1, fun j => (eq_ix1 j).symm, fun _ => rfl⟩ f (fun r => f (ix1 r))
    fun j => congrArg f (eq_ix1 j)

/-- A sum over the indices of an [a, 1, b] array is the double sum over its first and last coordinates. -/
theorem sum_a1b {M : Type*} [AddCommMonoid M] {a b : ℕ} (f : (⟨3, ![a, 1, b]⟩ : Shape).Idx → M) :
    ∑ j, f j = ∑ i : Fin a, ∑ k : Fin b, f (ix3 i (0 : Fin 1) k) := by
  have hj : ∀ j : (⟨3, ![a, 1, b]⟩ : Shape).Idx, j = ix3 (j 0 : Fin a) (0 : Fin 1) (j 2 : Fin b) := fun j =>
    funext fun ax => by
      match ax with
      | ⟨0, _⟩ => rfl
      | ⟨1, _⟩ => exact Subsingleton.elim (α := Fin 1) _ _
      | ⟨2, _⟩ => rfl
  rw [← Fintype.sum_prod_type' (f := fun (i : Fin a) (k : Fin b) => f (ix3 i (0 : Fin 1) k))]
  exact Fintype.sum_equiv ⟨fun j => ((j 0 : Fin a), (j 2 : Fin b)), fun p => ix3 p.1 (0 : Fin 1) p.2,
      fun j => (hj j).symm, fun _ => rfl⟩ f (fun p => f (ix3 p.1 (0 : Fin 1) p.2)) fun j => congrArg f (hj j)

/-- Three nested finite sums read in the opposite nesting order. -/
theorem sum_rotate {M : Type*} [AddCommMonoid M] {A B C : Type*} [Fintype A] [Fintype B] [Fintype C]
    (g : C → B → A → M) : ∑ a : A, ∑ b : B, ∑ c : C, g c b a = ∑ c : C, ∑ b : B, ∑ a : A, g c b a :=
  calc ∑ a : A, ∑ b : B, ∑ c : C, g c b a
      = ∑ b : B, ∑ a : A, ∑ c : C, g c b a := Finset.sum_comm
    _ = ∑ b : B, ∑ c : C, ∑ a : A, g c b a := Finset.sum_congr rfl fun _ _ => Finset.sum_comm
    _ = ∑ c : C, ∑ b : B, ∑ a : A, g c b a := Finset.sum_comm

end Idealize.ShloMosaic.FinSums
-- ==== Proof.IdealBody.PointValues.lean ====
/-
  What the scratch buffers and the result's block hold, point by point, as functions of the argument arrays.

  After the point numbered n of the first half the accumulator's entry (h, d) is the sum, over the first n + 1
  blocks of 2000 rows, of the products a (r, h) · e (r, d): each point adds its block's product to what the point
  before left, and the first adds it to zeros.  After point 24 all 25 blocks are in, and the sum over 25 blocks
  of 2000 rows is the sum over the 50000 rows — only commutativity and associativity of the addition on the
  extended reals — so the accumulator is the aggregation of the features into the hyperedges.  The hidden rows
  are then the row normalisation of the linear layer of that, and a block of the result at a point of the second
  half is the rectified row normalisation of its rows of the incidence matrix spread over the hidden rows.
-/
import proofs.«129456_g19327352832290_cont_8to1_132_5_alg».proof.Proof.IdealBody.StepValues
import proofs.«129456_g19327352832290_cont_8to1_132_5_alg».proof.Proof.IdealBody.BlockIndex
import proofs.«129456_g19327352832290_cont_8to1_132_5_alg».proof.Proof.IdealBody.Args
import proofs.«129456_g19327352832290_cont_8to1_132_5_alg».proof.Proof.IdealBody.BlockReads
import proofs.«129456_g19327352832290_cont_8to1_132_5_alg».proof.Proof.IdealBody.StoredValues
import proofs.«129456_g19327352832290_cont_8to1_132_5_alg».proof.Proof.LibFinSums

noncomputable section

open scoped BigOperators

namespace Cert.KernelIdeal.Result

open Idealize.ShloMosaic Idealize.ShloMosaic.ValueIdx Idealize.SL.Sem
open Cert.KernelIdeal Cert.KernelIdeal.Gen Cert.KernelIdeal.StoredValues Cert.HyperConv

/-! ## The stored values over variables, with what their operands read -/

section Values

variable {N : ℕ} (adj : Fin N → Fin 1024 → EReal) (emb : Fin N → Fin 128 → EReal)

/-- One accumulation step at (h, d), the blocks' entries and the accumulator's entry being known. -/
theorem step_value (x0 : Vec Ideal S2000x1024 .f32) (x1 : Vec Ideal S2000x128 .f32) (s : Vec Ideal S1024x128 .f32)
    (h : Fin 1024) (d : Fin 128) (row : Fin 2000 → Fin N) (S : EReal)
    (hx0 : ∀ r, x0 (ix2 r h) = adj (row r) h) (hx1 : ∀ r, x1 (ix2 r d) = emb (row r) d) (hs : s (ix2 h d) = S) :
    k0_pay2 x0 x1 s (ix2 h d) = S + ∑ r : Fin 2000, adj (row r) h * emb (row r) d := by
  rw [pay2_apply, hs]
  exact congrArg (S + ·) (Finset.sum_congr rfl fun r _ => by rw [hx0, hx1])

/-- The hidden block at (h, j), the accumulator being the aggregation and the weight, gain and bias blocks read. -/
theorem hidden_value (s : Vec Ideal S1024x128 .f32) (w : Vec Ideal S128x256 .bf16) (g b : Vec Ideal S1x256 .f32)
    (W : Fin 128 → Fin 256 → EReal) (G B : Fin 256 → EReal) (h : Fin 1024) (j : Fin 256)
    (hs : ∀ h d, s (ix2 h d) = agg adj emb h d) (hw : ∀ d j, w (ix2 d j) = W d j)
    (hg : ∀ j, g (ix2 (0 : Fin 1) j) = G j) (hb : ∀ j, b (ix2 (0 : Fin 1) j) = B j) :
    k0_pay3 s w g b (ix2 h j) = hiddenR adj emb W G B h j := by
  rw [pay3_apply]
  unfold hiddenR
  simp only [hs, hw, hg, hb]

/-- An output block at (r, j), its incidence rows, the hidden rows, the gain and bias blocks read. -/
theorem out_value (x0 : Vec Ideal S2000x1024 .f32) (l : Vec Ideal S1024x256 .bf16) (g b : Vec Ideal S1x256 .f32)
    (W : Fin 128 → Fin 256 → EReal) (G1 B1 G2 B2 : Fin 256 → EReal) (row : Fin 2000 → Fin N) (r : Fin 2000) (j : Fin 256)
    (hx0 : ∀ r h, x0 (ix2 r h) = adj (row r) h) (hl : ∀ h j, l (ix2 h j) = hiddenR adj emb W G1 B1 h j)
    (hg : ∀ j, g (ix2 (0 : Fin 1) j) = G2 j) (hb : ∀ j, b (ix2 (0 : Fin 1) j) = B2 j) :
    k0_pay4 x0 l g b (ix2 r j) = outR adj emb W G1 B1 G2 B2 (row r) j := by
  rw [pay4_apply]
  unfold outR spread
  simp only [hx0, hl, hg, hb]

end Values

/-! ## The sum over 25 blocks of 2000 rows -/

section Rows

variable (f : Fin 50000 → EReal)

/-- A function of the rows, read at a natural number (zero off the rows). -/
def atRow (k : ℕ) : EReal := if hk : k < 50000 then f ⟨k, hk⟩ else 0

theorem atRow_val (i : Fin 50000) : atRow f i.val = f i := dif_pos i.isLt

theorem atRow_rowOf (b : ℕ) (hb : b < 25) (r : Fin 2000) : atRow f (b * 2000 + r.val) = f (rowOf b hb r) := by
  rw [← atRow_val f (rowOf b hb r), rowOf_val, Nat.mul_comm]

/-- The sum over the first 25 blocks of 2000 rows is the sum over all 50000 rows. -/
theorem sum_blocks_rows :
    ∑ b ∈ Finset.range 25, ∑ r : Fin 2000, atRow f (b * 2000 + r.val) = ∑ i : Fin 50000, f i := by
  rw [Finset.sum_range (fun b => ∑ r : Fin 2000, atRow f (b * 2000 + r.val)),
    ← FinSums.sum_blocks 25 2000 50000 rfl (atRow f)]
  exact Finset.sum_congr rfl fun i _ => atRow_val f i

end Rows

/-! ## Point by point -/

section Points

variable (m : (ℓ : Loc nD τ sig) → Buf (Elt Ideal) ℓ) (c : Dev nD)

/-- After the point numbered n of the first half the accumulator holds the products' sum over the first n + 1 blocks. -/
theorem acc_partial (h : Fin 1024) (d : Fin 128) (n : ℕ) (hn : n < cfg0.N) (h25 : n < 25) :
    accAt m c n hn (ix2 h d)
      = ∑ b ∈ Finset.range (n + 1), ∑ r : Fin 2000,
          atRow (fun i => adjOf m c i h * embOf m c i d) (b * 2000 + r.val) := by
  induction n with
  | zero =>
    rw [accAt_zero m c hn]
    refine (step_value (adjOf m c) (embOf m c) _ _ _ h d (rowOf 0 h25) 0 (fun r => ?_) (fun r => emb_block m c ⟨0, hn⟩ h25 r d)
      (pay1_apply h d)).trans ?_
    · exact adj_block m c ⟨0, hn⟩ r h
    · rw [zero_add, Finset.sum_range_one]
      exact Finset.sum_congr rfl fun r _ => (atRow_rowOf (fun i => adjOf m c i h * embOf m c i d) 0 h25 r).symm
  | succ k ih =>
    rw [accAt_succ m c k hn h25]
    refine (step_value (adjOf m c) (embOf m c) _ _ _ h d (rowOf (k + 1) h25) _ (fun r => ?_)
      (fun r => emb_block m c ⟨k + 1, hn⟩ h25 r d) (ih (Nat.lt_of_succ_lt hn) (Nat.lt_of_succ_lt h25))).trans ?_
    · refine (adj_block m c ⟨k + 1, hn⟩ r h).trans ?_
      exact congrArg (fun i => adjOf m c i h) (Fin.ext (by simp only [rowOf_val, blockAt_early (k + 1) h25]))
    · rw [Finset.sum_range_succ (fun b => ∑ r : Fin 2000, atRow (fun i => adjOf m c i h * embOf m c i d) (b * 2000 + r.val)) (k + 1)]
      exact congrArg (_ + ·) (Finset.sum_congr rfl fun r _ =>
        (atRow_rowOf (fun i => adjOf m c i h * embOf m c i d) (k + 1) h25 r).symm)

/-- After point 24 the accumulator is the aggregation of the features into the hyperedges. -/
theorem acc_final (h24 : 24 < cfg0.N) (h : Fin 1024) (d : Fin 128) :
    accAt m c 24 h24 (ix2 h d) = agg (adjOf m c) (embOf m c) h d := by
  rw [acc_partial m c h d 24 h24 (by omega)]
  exact sum_blocks_rows (fun i => adjOf m c i h * embOf m c i d)

/-- The hidden rows are the normalised linear layer of the aggregation. -/
theorem lat_apply (h24 : 24 < cfg0.N) (h : Fin 1024) (j : Fin 256) :
    latAt m c 24 h24 (ix2 h j) = hiddenR (adjOf m c) (embOf m c) (wOf m c) (g1Of m c) (b1Of m c) h j := by
  rw [latAt_24 m c h24]
  exact hidden_value (adjOf m c) (embOf m c) _ _ _ _ (wOf m c) (g1Of m c) (b1Of m c) h j
    (fun h d => acc_final m c h24 h d) (fun d j => w_block m c ⟨24, h24⟩ d j)
    (fun j => g1_block m c ⟨24, h24⟩ j) (fun j => b1_block m c ⟨24, h24⟩ j)

/-- A block of the result at a point of the second half is the specification at that block's rows. -/
theorem outAt_apply (t : Fin cfg0.N) (ht : 25 ≤ t.val) (r : Fin 2000) (j : Fin 256) :
    outAt m c t (ix2 r j)
      = outR (adjOf m c) (embOf m c) (wOf m c) (g1Of m c) (b1Of m c) (g2Of m c) (b2Of m c)
          (rowOf (blockAt t.val) (blockAt_lt t.val (lt_of_lt_of_eq t.isLt N_eq)) r) j := by
  rw [outAt_eq m c t ht]
  exact out_value (adjOf m c) (embOf m c) _ _ _ _ (wOf m c) (g1Of m c) (b1Of m c) (g2Of m c) (b2Of m c)
    (rowOf (blockAt t.val) (blockAt_lt t.val (lt_of_lt_of_eq t.isLt N_eq))) r j
    (fun r h => adj_block m c t r h)
    (fun h j => lat_apply m c _ h j)
    (fun j => g2_block m c t j) (fun j => b2_block m c t j)

end Points

end Cert.KernelIdeal.Result

end
-- ==== Proof.IdealBody.Final.lean ====
/-
  The result array after the run is one function of the argument arrays.

  A point of the second half writes its block of the result back, and no other point writes anything back.
  What point t writes is block 49 - t of the specification's result: the block's entry (r, j) sits in the
  array at row 2000 (49 - t) + r, column j, and the body left there the specification's value at that row.
  Every row ρ of the array lies in the block written at point 49 - ρ / 2000, so the blocks written back
  cover the array, and the array ends holding the specification's result everywhere.
-/
import proofs.«129456_g19327352832290_cont_8to1_132_5_alg».proof.Proof.IdealBody.PointValues
import Idealize.ShloMosaic.Lib.Pipeline.Value

set_option maxRecDepth 16384

noncomputable section

open scoped BigOperators

namespace Cert.KernelIdeal.Result

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ) (c : Dev nD)

/-- The result's index map, decided over the grid: block 49 - t in the second half (block 24, idle, before). -/
theorem idx7 : ∀ t : Fin cfg0.N, win0_7.index t (0 : Fin 2) = (if t.val < 25 then 24 else 49 - t.val) ∧ win0_7.index t (1 : Fin 2) = 0 :=
  (by decide +kernel : ∀ t : Fin grid0.N, _)

/-- An entry of the block written at a point of the second half sits at the block's rows of the array. -/
theorem out_emb (t : Fin cfg0.N) (ht : 25 ≤ t.val) (r : Fin 2000) (j : Fin 256) :
    @Eq S50000x256.Idx (((cfg0.win 7).blk t).view.emb (ix2 r j))
      (ix2 (rowOf (blockAt t.val) (blockAt_lt t.val (lt_of_lt_of_eq t.isLt N_eq)) r) j) := by
  obtain ⟨e0, e1⟩ := idx7 t
  funext a
  apply Fin.ext
  match a with
  | ⟨0, _⟩ =>
    show win0_7.index t 0 * 2000 + 1 * r.val = 2000 * blockAt t.val + r.val
    rw [e0, if_neg (by omega), blockAt_late _ (by omega)]; omega
  | ⟨1, _⟩ => show win0_7.index t 1 * 256 + 1 * j.val = j.val; rw [e1]; omega

/-- What a point of the second half writes back is its block of the specification's result. -/
theorem flushed_eq (t : Fin cfg0.N) (hf : (cfg0.win 7).flush t = true) :
    (dats m 0 c).flushed 7 t = ((cfg0.win 7).blk t).view.read (Elt Ideal) (kerOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) := by
  have ht : 25 ≤ t.val := (flush0_7 t).mp hf
  show (cfg0.win 7).cut (grid0.coords t) ((dats m 0 c).after 7 t) = _
  rw [after0_7]
  refine funext fun (y : S2000x256.Idx) => ?_
  show outAt m c t y = kerOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (((cfg0.win 7).blk t).view.emb y)
  obtain ⟨r, j, rfl⟩ : ∃ (r : Fin 2000) (j : Fin 256), y = ix2 r j := ⟨y 0, y 1, eq_ix2 y⟩
  rw [out_emb t ht, outAt_apply m c t ht, kerOut_apply]

/-- An index of the array is in a point's block iff each coordinate is in the block's range on its axis. -/
theorem mem_blk (t : Fin cfg0.N) (i : S50000x256.Idx) :
    i ∈ ((cfg0.win 7).blk t).view.set ↔ ∀ a : Fin 2, win0_7.index t a * S2000x256.size a ≤ (i a).val ∧ (i a).val < win0_7.index t a * S2000x256.size a + S2000x256.size a := by
  show i ∈ ((View.whole main_v5).slice (win0_7.rect t)).set ↔ _
  rw [View.set_slice_whole, Rect.mem_set_unit]
  exact Iff.rfl

/-- Every index of the array lies in the block some point of the second half writes back. -/
theorem cover (i : S50000x256.Idx) :
    ∃ t : Fin cfg0.N, (cfg0.win 7).flush t = true ∧ i ∈ ((cfg0.win 7).blk t).view.set := by
  have hi0 : (i 0).val < 50000 := (i 0).isLt
  have hi1 : (i 1).val < 256 := (i 1).isLt
  have hN : cfg0.N = 50 := N_eq
  have hq : 49 - (i 0).val / 2000 < cfg0.N := by omega
  obtain ⟨e0, e1⟩ := idx7 ⟨49 - (i 0).val / 2000, hq⟩
  refine ⟨⟨49 - (i 0).val / 2000, hq⟩, (flush0_7 _).mpr (by show 25 ≤ 49 - (i 0).val / 2000; omega), ?_⟩
  rw [mem_blk]
  intro a
  match a with
  | ⟨0, _⟩ =>
    show win0_7.index ⟨49 - (i 0).val / 2000, hq⟩ 0 * 2000 ≤ (i 0).val ∧ (i 0).val < win0_7.index ⟨49 - (i 0).val / 2000, hq⟩ 0 * 2000 + 2000
    have e0' : win0_7.index ⟨49 - (i 0).val / 2000, hq⟩ 0 = (i 0).val / 2000 := by
      rw [e0]
      show (if 49 - (i 0).val / 2000 < 25 then 24 else 49 - (49 - (i 0).val / 2000)) = _
      rw [if_neg (by omega)]; omega
    rw [e0']; omega
  | ⟨1, _⟩ =>
    show win0_7.index ⟨49 - (i 0).val / 2000, hq⟩ 1 * 256 ≤ (i 1).val ∧ (i 1).val < win0_7.index ⟨49 - (i 0).val / 2000, hq⟩ 1 * 256 + 256
    rw [e1]; omega

/-- The result array after the run is the specification's result of the argument arrays. -/
theorem final : (dats m 0 c).arrAt 7 cfg0.N = kerOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) :=
  (dats m 0 c).arrAt_eq_of_cover 7 (kerOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) (flushed_eq m c) (cover)

end Cert.KernelIdeal.Result

end
-- ==== Proof.ValueClaims.lean ====
/-
  The claims about values.  At the ideal instance the kernel's result array is one function of the seven
  argument arrays (read off the frame run block by block), and the reference's result is the composed term
  of its host operations read at an index; index by index both are the same two-layer propagation — the
  kernel's reciprocal square root and the reference's division by the square root agree because a shifted
  variance is strictly positive on the extended reals.  So from memories agreeing on the arguments both
  programs run to the end with equal results and unchanged arguments; and the reference's frame is its run
  with the result dropped.
-/
import proofs.«129456_g19327352832290_cont_8to1_132_5_alg».proof.Defs
import proofs.«129456_g19327352832290_cont_8to1_132_5_alg».proof.Proof.Gen.KernelIdeal
import proofs.«129456_g19327352832290_cont_8to1_132_5_alg».proof.Proof.Gen.ReferenceIdeal
import proofs.«129456_g19327352832290_cont_8to1_132_5_alg».proof.Proof.Gen.Pre_finite_inputs
import proofs.«129456_g19327352832290_cont_8to1_132_5_alg».proof.Proof.NormLaw
import proofs.«129456_g19327352832290_cont_8to1_132_5_alg».proof.Proof.RefRun
import proofs.«129456_g19327352832290_cont_8to1_132_5_alg».proof.Proof.RefRead
import proofs.«129456_g19327352832290_cont_8to1_132_5_alg».proof.Proof.IdealBody.RunOfFinal
import proofs.«129456_g19327352832290_cont_8to1_132_5_alg».proof.Proof.IdealBody.Final
import Idealize.ShloMosaic.Lib.ValueIdx

noncomputable section

namespace Cert.Proof.ValueClaims

open Idealize.ShloMosaic Idealize.SL.Sem

theorem frame_ref : Cert.frame_ReferenceIdeal := fun m ρ _ =>
  (θ_run Cert.ReferenceIdeal.defs _ _).mono (fun _ h c => (h c).2) (Cert.ReferenceIdeal.RefValue.run m ρ)

/-- The two results are one function of the arguments, index by index. -/
theorem result_eq (a0 : FVec Ideal Cert.KernelIdeal.S50000x1024 .f32) (a1 : FVec Ideal Cert.KernelIdeal.S50000x128 .f32)
    (a2 : FVec Ideal Cert.KernelIdeal.S128x256 .f32) (a3 a4 a5 a6 : FVec Ideal Cert.KernelIdeal.S256 .f32) :
    Cert.ReferenceIdeal.RefValue.refOut a0 a1 a2 a3 a4 a5 a6 = Cert.KernelIdeal.Result.kerOut a0 a1 a2 a3 a4 a5 a6 := by
  funext i
  obtain ⟨r, j, rfl⟩ : ∃ (r : Fin 50000) (j : Fin 256), i = ValueIdx.ix2 r j := ⟨i 0, i 1, ValueIdx.eq_ix2 i⟩
  rw [Cert.ReferenceIdeal.RefValue.refOut_apply]
  unfold Cert.KernelIdeal.Result.kerOut
  rw [Cert.HyperConv.outR_eq_out]

theorem algebraic : Cert.algebraic_KernelIdeal_ReferenceIdeal := by
  intro m ρ m' ρ' _ hagree
  refine ⟨_, Cert.KernelIdeal.Gen.run_of_final m ρ (Cert.KernelIdeal.Result.final m), ?_⟩
  refine (θ_run Cert.ReferenceIdeal.defs _ _).mono (fun _ h c => ⟨(h c).1.trans ?_, (h c).2⟩)
    (Cert.ReferenceIdeal.RefValue.run m' ρ')
  rw [(hagree c).1, (hagree c).2.1, (hagree c).2.2.1, (hagree c).2.2.2.1, (hagree c).2.2.2.2.1, (hagree c).2.2.2.2.2.1, (hagree c).2.2.2.2.2.2]
  exact result_eq _ _ _ _ _ _ _

end Cert.Proof.ValueClaims

end
-- ==== Proof.lean ====
/-
  The certificate of a fused two-layer hypergraph propagation kernel against its reference.

  The kernel streams the dense incidence matrix twice over a grid of fifty points.  In the first half it
  accumulates the product of the transposed incidence matrix with the node features, block by block, into
  a scratch buffer; at the last point of that half it multiplies the finished sum by the weight and
  normalises each row, keeping the hidden rows in a second scratch buffer; in the second half each point
  multiplies one block of the incidence matrix by the hidden rows, normalises, rectifies, and writes one
  block of the result.  The reference computes the same with whole-array operations.

  Frames: at every grid point the body runs in one of four cases decided by the point's number; the region
  invariant carries the accumulator at the partial sum so far and, from the middle of the grid on, the
  hidden rows (Proof/WordBody at the word level, Proof/IdealBody at the ideal instance).  Values: a sum over
  all rows is the sum of the blocks' sums, the kernel's multiplication by a reciprocal square root is the
  reference's division by the square root because a shifted variance is positive, and every other operation
  is the same on both sides (Proof/HyperConvSpec, Proof/NormLaw, Proof/ValueClaims).  The idealization
  rewrote nothing, so it preserves the kernel trivially.
-/
import proofs.«129456_g19327352832290_cont_8to1_132_5_alg».proof.Defs
import proofs.«129456_g19327352832290_cont_8to1_132_5_alg».proof.Proof.Gen.Kernel
import proofs.«129456_g19327352832290_cont_8to1_132_5_alg».proof.Proof.Gen.KernelIdeal
import proofs.«129456_g19327352832290_cont_8to1_132_5_alg».proof.Proof.Gen.ReferenceIdeal
import proofs.«129456_g19327352832290_cont_8to1_132_5_alg».proof.Proof.Gen.Pre_finite_inputs
import proofs.«129456_g19327352832290_cont_8to1_132_5_alg».proof.Proof.KernelFrames
import proofs.«129456_g19327352832290_cont_8to1_132_5_alg».proof.Proof.ValueClaims

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    KernelFrames.frame_word, KernelFrames.frame_ideal, ValueClaims.frame_ref, KernelFrames.preserves, ValueClaims.algebraic⟩

end Cert.Proof

end
